-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S8192x32 : Shape := ⟨2, ![8192, 32]⟩
abbrev S4096x4096 : Shape := ⟨2, ![4096, 4096]⟩
abbrev S8192x4096 : Shape := ⟨2, ![8192, 4096]⟩
abbrev S8192x8192 : Shape := ⟨2, ![8192, 8192]⟩
abbrev S4096x8192 : Shape := ⟨2, ![4096, 8192]⟩
abbrev S32x32 : Shape := ⟨2, ![32, 32]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_arg11 : FVec F S32x32 .f32) (main_arg12 : FVec F S32x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x32 .f32 := Host.absf main_arg12
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  main_v63

def fn_part2 {F : FTy → Type} [FloatOps F] (main_arg7 : FVec F S4096x4096 .f32) (main_arg8 : FVec F S32x32 .f32) (main_arg9 : FVec F S32x32 .f32) (main_arg10 : FVec F S32x32 .f32) (main_arg11 : FVec F S32x32 .f32) (main_arg12 : FVec F S32x32 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_arg12 main_v48 main_v49 main_v50

def fn_part1 {F : FTy → Type} [FloatOps F] (main_arg4 : FVec F S8192x4096 .f32) (main_arg5 : FVec F S8192x8192 .f32) (main_arg6 : FVec F S4096x8192 .f32) (main_arg7 : FVec F S4096x4096 .f32) (main_arg8 : FVec F S32x32 .f32) (main_arg9 : FVec F S32x32 .f32) (main_arg10 : FVec F S32x32 .f32) (main_arg11 : FVec F S32x32 .f32) (main_arg12 : FVec F S32x32 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S8192x4096 .f32 := Host.absf main_arg4
  let main_cst_6 : FVec F S_ .f32 := constant S_ .f32 0x7F800000#32
  let main_v20 : FVec F S8192x4096 .f32 := broadcastInDim S8192x4096 ![] bcast_S_S8192x4096 main_cst_6
  let main_v21 : IVec S8192x4096 1 := cmpf .olt main_v19 main_v20
  let main_c_7 : IVec S_ 1 := constantI S_ 1 1#1
  let main_v22 : IVec S_ 1 := (fun x v => Host.reduce IntOp.andi x v reducesTo_S8192x4096_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S4096x8192 .f32 := Host.absf main_arg6
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x32 .f32) (main_arg1 : FVec F S8192x32 .f32) (main_arg2 : FVec F S4096x32 .f32) (main_arg3 : FVec F S4096x4096 .f32) (main_arg4 : FVec F S8192x4096 .f32) (main_arg5 : FVec F S8192x8192 .f32) (main_arg6 : FVec F S4096x8192 .f32) (main_arg7 : FVec F S4096x4096 .f32) (main_arg8 : FVec F S32x32 .f32) (main_arg9 : FVec F S32x32 .f32) (main_arg10 : FVec F S32x32 .f32) (main_arg11 : FVec F S32x32 .f32) (main_arg12 : FVec F S32x32 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_v13 main_v16
-- ==== Kernel.lean ====
abbrev S4096x32 : Shape := ⟨2, ![4096, 32]⟩
abbrev S8192x32 : Shape := ⟨2, ![8192, 32]⟩
abbrev S4096x4096 : Shape := ⟨2, ![4096, 4096]⟩
abbrev S8192x4096 : Shape := ⟨2, ![8192, 4096]⟩
abbrev S8192x8192 : Shape := ⟨2, ![8192, 8192]⟩
abbrev S4096x8192 : Shape := ⟨2, ![4096, 8192]⟩
abbrev S32x32 : Shape := ⟨2, ![32, 32]⟩
abbrev S32x4096 : Shape := ⟨2, ![32, 4096]⟩
abbrev S32x8192 : Shape := ⟨2, ![32, 8192]⟩
abbrev S1024x32 : Shape := ⟨2, ![1024, 32]⟩
abbrev S512x1024 : Shape := ⟨2, ![512, 1024]⟩
abbrev S32x512 : Shape := ⟨2, ![32, 512]⟩

abbrev nBuf : Space → Nat
  | .hbm => 27
  | .vmem => 43
  | .smem => 0
  | _ => 0

abbrev bufTy : (tb : Table) → Fin (tcTables nBuf tb) → BufTy
  | .hbm, ⟨0, _⟩ => ⟨S4096x32, .f32⟩
  | .hbm, ⟨1, _⟩ => ⟨S8192x32, .f32⟩
  | .hbm, ⟨2, _⟩ => ⟨S4096x32, .f32⟩
  | .hbm, ⟨3, _⟩ => ⟨S4096x4096, .f32⟩
  | .hbm, ⟨4, _⟩ => ⟨S8192x4096, .f32⟩
  | .hbm, ⟨5, _⟩ => ⟨S8192x8192, .f32⟩
  | .hbm, ⟨6, _⟩ => ⟨S4096x8192, .f32⟩
  | .hbm, ⟨7, _⟩ => ⟨S4096x4096, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S4096x32, .bf16⟩
  | .hbm, ⟨14, _⟩ => ⟨S8192x32, .bf16⟩
  | .hbm, ⟨15, _⟩ => ⟨S4096x32, .bf16⟩
  | .hbm, ⟨16, _⟩ => ⟨S32x4096, .f32⟩
  | .hbm, ⟨17, _⟩ => ⟨S32x8192, .f32⟩
  | .hbm, ⟨18, _⟩ => ⟨S32x8192, .f32⟩
  | .hbm, ⟨19, _⟩ => ⟨S32x4096, .f32⟩
  | .hbm, ⟨20, _⟩ => ⟨S32x4096, .f32⟩
  | .hbm, ⟨21, _⟩ => ⟨S32x4096, .f32⟩
  | .hbm, ⟨22, _⟩ => ⟨S32x8192, .f32⟩
  | .hbm, ⟨23, _⟩ => ⟨S32x4096, .f32⟩
  | .hbm, ⟨24, _⟩ => ⟨S4096x32, .f32⟩
  | .hbm, ⟨25, _⟩ => ⟨S8192x32, .f32⟩
  | .hbm, ⟨26, _⟩ => ⟨S4096x32, .f32⟩
  | .local _ .vmem, ⟨0, _⟩ => ⟨S1024x32, .bf16⟩
  | .local _ .vmem, ⟨1, _⟩ => ⟨S1024x32, .bf16⟩
  | .local _ .vmem, ⟨2, _⟩ => ⟨S512x1024, .f32⟩
  | .local _ .vmem, ⟨3, _⟩ => ⟨S512x1024, .f32⟩
  | .local _ .vmem, ⟨4, _⟩ => ⟨S32x512, .f32⟩
  | .local _ .vmem, ⟨5, _⟩ => ⟨S32x512, .f32⟩
  | .local _ .vmem, ⟨6, _⟩ => ⟨S1024x32, .bf16⟩
  | .local _ .vmem, ⟨7, _⟩ => ⟨S1024x32, .bf16⟩
  | .local _ .vmem, ⟨8, _⟩ => ⟨S512x1024, .f32⟩
  | .local _ .vmem, ⟨9, _⟩ => ⟨S512x1024, .f32⟩
  | .local _ .vmem, ⟨10, _⟩ => ⟨S32x512, .f32⟩
  | .local _ .vmem, ⟨11, _⟩ => ⟨S32x512, .f32⟩
  | .local _ .vmem, ⟨12, _⟩ => ⟨S1024x32, .bf16⟩
  | .local _ .vmem, ⟨13, _⟩ => ⟨S1024x32, .bf16⟩
  | .local _ .vmem, ⟨14, _⟩ => ⟨S512x1024, .f32⟩
  | .local _ .vmem, ⟨15, _⟩ => ⟨S512x1024, .f32⟩
  | .local _ .vmem, ⟨16, _⟩ => ⟨S32x512, .f32⟩
  | .local _ .vmem, ⟨17, _⟩ => ⟨S32x512, .f32⟩
  | .local _ .vmem, ⟨18, _⟩ => ⟨S1024x32, .bf16⟩
  | .local _ .vmem, ⟨19, _⟩ => ⟨S1024x32, .bf16⟩
  | .local _ .vmem, ⟨20, _⟩ => ⟨S512x1024, .f32⟩
  | .local _ .vmem, ⟨21, _⟩ => ⟨S512x1024, .f32⟩
  | .local _ .vmem, ⟨22, _⟩ => ⟨S32x512, .f32⟩
  | .local _ .vmem, ⟨23, _⟩ => ⟨S32x512, .f32⟩
  | .local _ .vmem, ⟨24, _⟩ => ⟨S1024x32, .bf16⟩
  | .local _ .vmem, ⟨25, _⟩ => ⟨S1024x32, .bf16⟩
  | .local _ .vmem, ⟨26, _⟩ => ⟨S512x1024, .f32⟩
  | .local _ .vmem, ⟨27, _⟩ => ⟨S512x1024, .f32⟩
  | .local _ .vmem, ⟨28, _⟩ => ⟨S32x512, .f32⟩
  | .local _ .vmem, ⟨29, _⟩ => ⟨S32x512, .f32⟩
  | .local _ .vmem, ⟨30, _⟩ => ⟨S32x4096, .f32⟩
  | .local _ .vmem, ⟨31, _⟩ => ⟨S32x8192, .f32⟩
  | .local _ .vmem, ⟨32, _⟩ => ⟨S32x8192, .f32⟩
  | .local _ .vmem, ⟨33, _⟩ => ⟨S32x4096, .f32⟩
  | .local _ .vmem, ⟨34, _⟩ => ⟨S32x4096, .f32⟩
  | .local _ .vmem, ⟨35, _⟩ => ⟨S32x32, .f32⟩
  | .local _ .vmem, ⟨36, _⟩ => ⟨S32x32, .f32⟩
  | .local _ .vmem, ⟨37, _⟩ => ⟨S32x32, .f32⟩
  | .local _ .vmem, ⟨38, _⟩ => ⟨S32x32, .f32⟩
  | .local _ .vmem, ⟨39, _⟩ => ⟨S32x32, .f32⟩
  | .local _ .vmem, ⟨40, _⟩ => ⟨S32x4096, .f32⟩
  | .local _ .vmem, ⟨41, _⟩ => ⟨S32x8192, .f32⟩
  | .local _ .vmem, ⟨42, _⟩ => ⟨S32x4096, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8_0 : Ref sig .tc := ⟨.hbm, 21, rfl⟩
abbrev main_call0_v8_1 : Ref sig .tc := ⟨.hbm, 22, rfl⟩
abbrev main_call0_v8_2 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg7_0 : Ref sig .tc := ⟨.vmem, 37, rfl⟩
abbrev cc5_stg8_0 : Ref sig .tc := ⟨.vmem, 38, rfl⟩
abbrev cc5_stg9_0 : Ref sig .tc := ⟨.vmem, 39, rfl⟩
abbrev cc5_stg10_0 : Ref sig .tc := ⟨.vmem, 40, rfl⟩
abbrev cc5_stg11_0 : Ref sig .tc := ⟨.vmem, 41, rfl⟩
abbrev cc5_stg12_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem7_0 : DmaSem sig := 37
abbrev cc5_sem8_0 : DmaSem sig := 38
abbrev cc5_sem9_0 : DmaSem sig := 39
abbrev cc5_sem10_0 : DmaSem sig := 40
abbrev cc5_sem11_0 : DmaSem sig := 41
abbrev cc5_sem12_0 : DmaSem sig := 42

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S32x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1024x32 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S32x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1024x32 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S32x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := .none

abbrev stage5_0 : Fin 1 → Memref sig .tc .vmem S32x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S32x8192 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S32x8192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S32x4096 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S32x4096 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S32x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S32x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S32x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev stage5_8 : Fin 1 → Memref sig .tc .vmem S32x32 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))

abbrev stage5_9 : Fin 1 → Memref sig .tc .vmem S32x32 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))

abbrev stage5_10 : Fin 1 → Memref sig .tc .vmem S32x4096 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))

abbrev stage5_11 : Fin 1 → Memref sig .tc .vmem S32x8192 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))

abbrev stage5_12 : Fin 1 → Memref sig .tc .vmem S32x4096 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))

class Facts₀ : Prop where
  bitsLt_bf16_f32 : FTy.bits .bf16 < FTy.bits .f32
  transposes_S32x4096_S4096x32_1_0 : S32x4096.Transposes [1, 0] S4096x32
  transposes_S32x8192_S8192x32_1_0 : S32x8192.Transposes [1, 0] S8192x32
  inb_S32x512_S32x512_0_0 : ∀ a, (![0, 0] : Fin 2 → Nat) a + S32x512.size a ≤ S32x512.size a
  h_S32x512 : 0 < S32x512.numel
  inb_S512x1024_S512x1024_0_0 : ∀ a, (![0, 0] : Fin 2 → Nat) a + S512x1024.size a ≤ S512x1024.size a
  h_S512x1024 : 0 < S512x1024.numel
  shapeCasts_S32x512_S32x512 : S32x512.ShapeCasts S32x512
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x32_S32x32_0_0 : ∀ a, (![0, 0] : Fin 2 → Nat) a + S32x32.size a ≤ S32x32.size a
  h_S32x32 : 0 < S32x32.numel
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  dot_S1024x32_S512x1024_S32x512_0_1_1_0_n_n_wf : DotDims.WF S1024x32 S512x1024 S32x512 [0] [1] [1] [0] [] []
  dot_S32x32_S32x4096_S32x4096_0_0_1_1_n_n_wf : DotDims.WF S32x32 S32x4096 S32x4096 [0] [0] [1] [1] [] []
  dot_S32x32_S32x8192_S32x8192_0_0_1_1_n_n_wf : DotDims.WF S32x32 S32x8192 S32x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S4096x32.size a
  hwx0_0 : ∀ i : grid0.Coords, EltTy.bits .bf16 = 32 ∨ (Rect.block (s := S4096x32) S1024x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x4096.size a
  hwx0_2 : ∀ i : grid0.Coords, EltTy.bits .f32 = 32 ∨ (Rect.block (s := S32x4096) S32x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S4096x32.size a
  hwx1_0 : ∀ i : grid1.Coords, EltTy.bits .bf16 = 32 ∨ (Rect.block (s := S4096x32) S1024x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x4096.size a
  hwx1_1 : ∀ i : grid1.Coords, EltTy.bits .f32 = 32 ∨ (Rect.block (s := S8192x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x512.size a ≤ S32x8192.size a
  hwx1_2 : ∀ i : grid1.Coords, EltTy.bits .f32 = 32 ∨ (Rect.block (s := S32x8192) S32x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x32.size a ≤ S8192x32.size a
  hwx2_0 : ∀ i : grid2.Coords, EltTy.bits .bf16 = 32 ∨ (Rect.block (s := S8192x32) S1024x32.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S8192x8192.size a
  hwx2_1 : ∀ i : grid2.Coords, EltTy.bits .f32 = 32 ∨ (Rect.block (s := S8192x8192) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x512.size a ≤ S32x8192.size a
  hwx2_2 : ∀ i : grid2.Coords, EltTy.bits .f32 = 32 ∨ (Rect.block (s := S32x8192) S32x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S8192x32.size a
  hwx3_0 : ∀ i : grid3.Coords, EltTy.bits .bf16 = 32 ∨ (Rect.block (s := S8192x32) S1024x32.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S4096x8192.size a
  hwx3_1 : ∀ i : grid3.Coords, EltTy.bits .f32 = 32 ∨ (Rect.block (s := S4096x8192) S512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S32x512.size a ≤ S32x4096.size a
  hwx3_2 : ∀ i : grid3.Coords, EltTy.bits .f32 = 32 ∨ (Rect.block (s := S32x4096) S32x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x32.size a ≤ S4096x32.size a
  hwx4_0 : ∀ i : grid4.Coords, EltTy.bits .bf16 = 32 ∨ (Rect.block (s := S4096x32) S1024x32.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1024.size a ≤ S4096x4096.size a
  hwx4_1 : ∀ i : grid4.Coords, EltTy.bits .f32 = 32 ∨ (Rect.block (s := S4096x4096) S512x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S32x512.size a ≤ S32x4096.size a
  hwx4_2 : ∀ i : grid4.Coords, EltTy.bits .f32 = 32 ∨ (Rect.block (s := S32x4096) S32x512.size (cc4_transform_2 i) (hinb4_2 i)).WholeWords (EltTy.packing .f32)
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole
  hstage5_6 : ∀ j, (stage5_6 j).IsWhole
  hstage5_7 : ∀ j, (stage5_7 j).IsWhole
  hstage5_8 : ∀ j, (stage5_8 j).IsWhole
  hstage5_9 : ∀ j, (stage5_9 j).IsWhole
  hstage5_10 : ∀ j, (stage5_10 j).IsWhole
  hstage5_11 : ∀ j, (stage5_11 j).IsWhole
  hstage5_12 : ∀ j, (stage5_12 j).IsWhole

variable [Facts₀]

def dot_S1024x32_S512x1024_S32x512_0_1_1_0_n_n : DotDims S1024x32 S512x1024 S32x512 where
  lhsContracting := [0]
  rhsContracting := [1]
  lhsNonContracting := [1]
  rhsNonContracting := [0]
  lhsBatch := []
  rhsBatch := []
  wf := dot_S1024x32_S512x1024_S32x512_0_1_1_0_n_n_wf
def dot_S32x32_S32x4096_S32x4096_0_0_1_1_n_n : DotDims S32x32 S32x4096 S32x4096 where
  lhsContracting := [0]
  rhsContracting := [0]
  lhsNonContracting := [1]
  rhsNonContracting := [1]
  lhsBatch := []
  rhsBatch := []
  wf := dot_S32x32_S32x4096_S32x4096_0_0_1_1_n_n_wf
def dot_S32x32_S32x8192_S32x8192_0_0_1_1_n_n : DotDims S32x32 S32x8192 S32x8192 where
  lhsContracting := [0]
  rhsContracting := [0]
  lhsNonContracting := [1]
  rhsNonContracting := [1]
  lhsBatch := []
  rhsBatch := []
  wf := dot_S32x32_S32x8192_S32x8192_0_0_1_1_n_n_wf

abbrev win0_0 : Pipeline.Window sig grid0 :=
  Pipeline.Window.ofSpec (Memref.whole main_call0_v0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v0) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S32x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v1) S1024x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5) S32x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v1) S1024x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v6) S32x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_call0_v2) S1024x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S512x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v7) S32x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.whole (Memref.whole main_call0_v3) false false (stage5_0 0) (sem5_0 0) (Memref.isWhole_whole _) (hstage5_0 0)

abbrev win5_1 : Pipeline.Window sig grid5 :=
  Pipeline.Window.whole (Memref.whole main_call0_v4) false false (stage5_1 0) (sem5_1 0) (Memref.isWhole_whole _) (hstage5_1 0)

abbrev win5_2 : Pipeline.Window sig grid5 :=
  Pipeline.Window.whole (Memref.whole main_call0_v5) false false (stage5_2 0) (sem5_2 0) (Memref.isWhole_whole _) (hstage5_2 0)

abbrev win5_3 : Pipeline.Window sig grid5 :=
  Pipeline.Window.whole (Memref.whole main_call0_v6) false false (stage5_3 0) (sem5_3 0) (Memref.isWhole_whole _) (hstage5_3 0)

abbrev win5_4 : Pipeline.Window sig grid5 :=
  Pipeline.Window.whole (Memref.whole main_call0_v7) false false (stage5_4 0) (sem5_4 0) (Memref.isWhole_whole _) (hstage5_4 0)

abbrev win5_5 : Pipeline.Window sig grid5 :=
  Pipeline.Window.whole (Memref.whole main_arg8) false false (stage5_5 0) (sem5_5 0) (Memref.isWhole_whole _) (hstage5_5 0)

abbrev win5_6 : Pipeline.Window sig grid5 :=
  Pipeline.Window.whole (Memref.whole main_arg9) false false (stage5_6 0) (sem5_6 0) (Memref.isWhole_whole _) (hstage5_6 0)

abbrev win5_7 : Pipeline.Window sig grid5 :=
  Pipeline.Window.whole (Memref.whole main_arg10) false false (stage5_7 0) (sem5_7 0) (Memref.isWhole_whole _) (hstage5_7 0)

abbrev win5_8 : Pipeline.Window sig grid5 :=
  Pipeline.Window.whole (Memref.whole main_arg11) false false (stage5_8 0) (sem5_8 0) (Memref.isWhole_whole _) (hstage5_8 0)

abbrev win5_9 : Pipeline.Window sig grid5 :=
  Pipeline.Window.whole (Memref.whole main_arg12) false false (stage5_9 0) (sem5_9 0) (Memref.isWhole_whole _) (hstage5_9 0)

abbrev win5_10 : Pipeline.Window sig grid5 :=
  Pipeline.Window.whole (Memref.whole main_call0_v8_0) true false (stage5_10 0) (sem5_10 0) (Memref.isWhole_whole _) (hstage5_10 0)

abbrev win5_11 : Pipeline.Window sig grid5 :=
  Pipeline.Window.whole (Memref.whole main_call0_v8_1) true false (stage5_11 0) (sem5_11 0) (Memref.isWhole_whole _) (hstage5_11 0)

abbrev win5_12 : Pipeline.Window sig grid5 :=
  Pipeline.Window.whole (Memref.whole main_call0_v8_2) true false (stage5_12 0) (sem5_12 0) (Memref.isWhole_whole _) (hstage5_12 0)

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

class Facts : Prop extends Facts₀ where

variable [Facts]
-- ==== ReferenceIdeal.lean ====
abbrev S4096x32 : Shape := ⟨2, ![4096, 32]⟩
abbrev S8192x32 : Shape := ⟨2, ![8192, 32]⟩
abbrev S4096x4096 : Shape := ⟨2, ![4096, 4096]⟩
abbrev S8192x4096 : Shape := ⟨2, ![8192, 4096]⟩
abbrev S8192x8192 : Shape := ⟨2, ![8192, 8192]⟩
abbrev S4096x8192 : Shape := ⟨2, ![4096, 8192]⟩
abbrev S32x32 : Shape := ⟨2, ![32, 32]⟩

abbrev nBuf : Space → Nat
  | .hbm => 25
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S8192x32, .f32⟩
  | .hbm, ⟨2, _⟩ => ⟨S4096x32, .f32⟩
  | .hbm, ⟨3, _⟩ => ⟨S4096x4096, .f32⟩
  | .hbm, ⟨4, _⟩ => ⟨S8192x4096, .f32⟩
  | .hbm, ⟨5, _⟩ => ⟨S8192x8192, .f32⟩
  | .hbm, ⟨6, _⟩ => ⟨S4096x8192, .f32⟩
  | .hbm, ⟨7, _⟩ => ⟨S4096x4096, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  dot_S4096x32_S32x32_S4096x32_1_0_0_1_n_n_wf : DotDims.WF S4096x32 S32x32 S4096x32 [1] [0] [0] [1] [] []
  dot_S4096x4096_S4096x32_S4096x32_1_0_0_1_n_n_wf : DotDims.WF S4096x4096 S4096x32 S4096x32 [1] [0] [0] [1] [] []
  dot_S8192x4096_S4096x32_S8192x32_1_0_0_1_n_n_wf : DotDims.WF S8192x4096 S4096x32 S8192x32 [1] [0] [0] [1] [] []
  dot_S8192x32_S32x32_S8192x32_1_0_0_1_n_n_wf : DotDims.WF S8192x32 S32x32 S8192x32 [1] [0] [0] [1] [] []
  dot_S8192x8192_S8192x32_S8192x32_1_0_0_1_n_n_wf : DotDims.WF S8192x8192 S8192x32 S8192x32 [1] [0] [0] [1] [] []
  dot_S4096x8192_S8192x32_S4096x32_1_0_0_1_n_n_wf : DotDims.WF S4096x8192 S8192x32 S4096x32 [1] [0] [0] [1] [] []

variable [Facts₀]

def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S8192x4096_S4096x32_S8192x32_1_0_0_1_n_n : DotDims S8192x4096 S4096x32 S8192x32 where
  lhsContracting := [1]
  rhsContracting := [0]
  lhsNonContracting := [0]
  rhsNonContracting := [1]
  lhsBatch := []
  rhsBatch := []
  wf := dot_S8192x4096_S4096x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S4096x8192_S8192x32_S4096x32_1_0_0_1_n_n : DotDims S4096x8192 S8192x32 S4096x32 where
  lhsContracting := [1]
  rhsContracting := [0]
  lhsNonContracting := [0]
  rhsNonContracting := [1]
  lhsBatch := []
  rhsBatch := []
  wf := dot_S4096x8192_S8192x32_S4096x32_1_0_0_1_n_n_wf

class Facts : Prop extends Facts₀ where

variable [Facts]
-- ==== Proof.Results.lean ====
/-
  The idealized kernel's run with its three results named.

  From any memory with zero counters every weakly fair execution of the program ends, nothing faulting, with the
  argument arrays as launched and each result buffer holding the contents the last boundary of the run assigns it:
  the host's transposes applied to what the sixth region leaves, which in turn reads what the five accumulating
  regions left. The boundaries' contents are the generated fold through the program; this is the same launch over
  the same segments as the frame, its final reading widened from the arguments to the results.
-/
import proofs.«178574_g19696720019795_cont_8to1_1339_3_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each result at the last boundary's contents and the arguments unchanged. -/
theorem run : θ_run defs (onTc (τ := τ) (main (F := F))) ⟨m, fun _ => 0, ρ⟩ (fun r => ∀ c : Dev nD,
      r.2.mem ((c.tc : Thread nD τ).loc main_v0_0) = W8 m ρ c (Proc.devRef .tc main_v0_0)
      ∧       r.2.mem ((c.tc : Thread nD τ).loc main_v0_1) = W8 m ρ c (Proc.devRef .tc main_v0_1)
      ∧       r.2.mem ((c.tc : Thread nD τ).loc main_v0_2) = W8 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0_0 (by decide)), h c _ (mem_uc main_v0_1 (by decide)), h c _ (mem_uc main_v0_2 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Results

end
-- ==== Proof.Fold0.lean ====
/-
  Region 0: one accumulated transposed product.

  The grid is 8 × 4: row block `q` of the operator (512 of its 4096 rows) against column block `s` (1024 of its
  4096 columns). Point `4·q + s` multiplies the 1024 × 32 block `s` of the features, transposed, into the
  512 × 1024 block `(q, s)` of the operator, transposed, and adds the 32 × 512 product into the output block
  `(0, q)`, which it first clears when `s = 0`; the block is written back after `s = 3`. So what the output array
  ends holding at `(c, 512·q + j)` is the fold over the run `4·q … 4·q + 3` of the block products, at `(c, j)`:
  stated here for any float instance as the library's fold over a run (`accAt`), by recursion on the offset in
  the run and never on the size of the grid.
-/
import proofs.«178574_g19696720019795_cont_8to1_1339_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Fold0

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At the first point of a run the body clears the output block, reads it back and adds the block product: the
    buffer's earlier contents do not enter. -/
theorem out_A_eq (c : Dev nD) (i : grid0.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : cond0_0 i) (x0 : Vec F S1024x32 .bf16) (x1 : Vec F S512x1024 .f32) :
    out0_A_2 c i arg2 harg2 arg3 harg3 arg4 harg4 hc0 x0 x1 = k0_pay2 x1 (k0_pay1 (F := F)) x0 := by
  unfold out0_A_2
  rw [View.read_writes_eq_canon _ _ _ (cover0_A_2 c i arg2 harg2 arg3 harg3 arg4 harg4 hc0 x0 x1)]
  unfold kernelRun0_A
  dsimp only
  try sl_unfold_words
  rw [View.canon_cons_unit_zero (S := S32x512) hz, View.readCov_unit_zero (S := S32x512) _ hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- At every later point of a run the body adds the block product to what the point before left. -/
theorem out_B_eq (c : Dev nD) (i : grid0.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : ¬cond0_0 i) (x0 : Vec F S1024x32 .bf16) (x1 : Vec F S512x1024 .f32)
    (xo2 : Vec F S32x512 .f32) :
    out0_B_2 c i arg2 harg2 arg3 harg3 arg4 harg4 hc0 x0 x1 xo2 = k0_pay2 x1 xo2 x0 := by
  unfold out0_B_2
  rw [View.read_writes_eq_canon _ _ _ (cover0_B_2 c i arg2 harg2 arg3 harg3 arg4 harg4 hc0 x0 x1 xo2)]
  unfold kernelRun0_B
  dsimp only
  try sl_unfold_words
  rw [View.canon_unit_zero hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- What a run's first point leaves in the output block: zero plus that point's block product. -/
def reset (c : Dev nD) (n : ℕ) (h : n < cfg0.N) : Vec F S32x512 .f32 :=
  k0_pay2 (iblk0 V c 1 ⟨n, h⟩) (k0_pay1 (F := F)) (iblk0 V c 0 ⟨n, h⟩)

/-- What a later point leaves: the contents the point before left plus this point's block product. -/
def step (c : Dev nD) (n : ℕ) (h : n < cfg0.N) (acc : Vec F S32x512 .f32) : Vec F S32x512 .f32 :=
  k0_pay2 (iblk0 V c 1 ⟨n, h⟩) acc (iblk0 V c 0 ⟨n, h⟩)

/-- The output block after point `t` is the fold of its run up to `t`. -/
theorem outsAt_eq (c : Dev nD) (t : Fin cfg0.N) :
    outsAt0 V c t.val t.isLt = Pipeline.accAt (reset V c) (step V c) (4 * (t.val / 4)) (t.val % 4)
      (by have h1 := t.isLt; have h2 := Nat.div_add_mod t.val 4; omega) :=
  Pipeline.eq_accAt_of_mod (fun n h => outsAt0 V c n h) 4 (reset V c) (step V c)
    (fun n h hn => by rw [outsAt0_A V c ⟨n, h⟩ (by (try dsimp only); omega)]; exact out_A_eq ..)
    (fun n h hn => by rw [outsAt0_B V c ⟨n + 1, h⟩ (by (try dsimp only); omega)]; exact out_B_eq ..)
    (by decide) t.val t.isLt _

/-- The run whose block holds column `i 1` of the output array, and the index's place in that block. -/
abbrev runOf (i : S32x4096.Idx) : ℕ := (i 1).val / 512
abbrev locOf (i : S32x4096.Idx) : S32x512.Idx := fun a => match a with
  | ⟨0, _⟩ => ⟨(i 0).val % 32, Nat.mod_lt _ (by decide)⟩
  | ⟨1, _⟩ => ⟨(i 1).val % 512, Nat.mod_lt _ (by decide)⟩

/-- What the output array ends holding: at each index the whole fold of the run whose block holds it. -/
def G (c : Dev nD) : Buf (Elt F) ((c : Thread nD τ).loc main_call0_v3) := fun i =>
  if h : 4 * runOf i + 3 < cfg0.N then
    (Pipeline.accAt (reset V c) (step V c) (4 * runOf i) 3 h) (locOf i)
  else V c (Pipeline.arrRef spec0 2) i

/-- The output's block index at a point: row 0, column the point's run. -/
theorem idx_facts : ∀ t : Fin cfg0.N, win0_2.index t (0 : Fin 2) = 0 ∧ win0_2.index t (1 : Fin 2) = t.val / 4 :=
  (by decide +kernel : ∀ t : Fin grid0.N, _)

/-- What a point that writes back writes is its block of `G`: the whole run's fold. -/
theorem flushed_eq (c : Dev nD) (t : Fin cfg0.N) (hf : (cfg0.win 2).flush t = true) :
    (dat0 V c).flushed 2 t = ((cfg0.win 2).blk t).view.read (Elt F) (G V c) := by
  show (cfg0.win 2).cut (grid0.coords t) ((dat0 V c).after 2 t) = _
  rw [after0_2, outsAt_eq]
  have hm : t.val % 4 = 3 := (flush0_2 t).mp hf
  obtain ⟨e0, e1⟩ := idx_facts t
  funext y
  have hy0 : (y 0).val < 32 := (y 0).isLt
  have hy1 : (y 1).val < 512 := (y 1).isLt
  have hb0 : (((cfg0.win 2).blk t).view.emb y 0).val = win0_2.index t (0 : Fin 2) * 32 + 1 * (y 0).val := rfl
  have hb1 : (((cfg0.win 2).blk t).view.emb y 1).val = win0_2.index t (1 : Fin 2) * 512 + 1 * (y 1).val := rfl
  have hr : runOf (((cfg0.win 2).blk t).view.emb y) = t.val / 4 := by
    show (((cfg0.win 2).blk t).view.emb y 1).val / 512 = _
    rw [hb1, e1]; omega
  have hl : locOf (((cfg0.win 2).blk t).view.emb y) = (cfg0.win 2).xinj (grid0.coords t) y := by
    funext a; apply Fin.ext
    match a with
    | ⟨0, _⟩ => show (((cfg0.win 2).blk t).view.emb y 0).val % 32 = (y 0).val; rw [hb0, e0]; omega
    | ⟨1, _⟩ => show (((cfg0.win 2).blk t).view.emb y 1).val % 512 = (y 1).val; rw [hb1]; omega
  show (Pipeline.accAt (reset V c) (step V c) (4 * (t.val / 4)) (t.val % 4) _) ((cfg0.win 2).xinj (grid0.coords t) y)
    = G V c (((cfg0.win 2).blk t).view.emb y)
  unfold G
  rw [dif_pos (by rw [hr]; have := t.isLt; have := Nat.div_add_mod t.val 4; omega), hl]
  have e : ∀ (b j : ℕ) (h : b + j < cfg0.N) (b' j' : ℕ) (h' : b' + j' < cfg0.N), b = b' → j = j' →
      Pipeline.accAt (reset V c) (step V c) b j h = Pipeline.accAt (reset V c) (step V c) b' j' h' := by
    intro b j h b' j' h' hb hj; subst hb; subst hj; rfl
  have hb : 4 * (t.val / 4) = 4 * runOf (((cfg0.win 2).blk t).view.emb y) := by rw [hr]
  exact congrFun (e _ _ _ _ _ _ hb hm) _

/-- An index of the array is in a point's block iff each coordinate is in the block's range on its axis. -/
theorem mem_blk (t : Fin cfg0.N) (i : S32x4096.Idx) :
    i ∈ ((cfg0.win 2).blk t).view.set ↔ ∀ a : Fin 2, win0_2.index t a * S32x512.size a ≤ (i a).val
      ∧ (i a).val < win0_2.index t a * S32x512.size a + S32x512.size a := by
  show i ∈ ((View.whole main_call0_v3).slice (win0_2.rect t)).set ↔ _
  rw [View.set_slice_whole, Rect.mem_set_unit]
  exact Iff.rfl

/-- Every index of the output array lies in the block of the last point of its run, which writes back. -/
theorem cover (i : S32x4096.Idx) :
    ∃ t : Fin cfg0.N, (cfg0.win 2).flush t = true ∧ i ∈ ((cfg0.win 2).blk t).view.set := by
  have hi0 : (i 0).val < 32 := (i 0).isLt
  have hi1 : (i 1).val < 4096 := (i 1).isLt
  have hN : cfg0.N = 32 := N_0
  have hN' : grid0.N = 32 := N_0
  refine ⟨⟨4 * ((i 1).val / 512) + 3, by omega⟩, (flush0_2 _).mpr (by (try dsimp only); omega), ?_⟩
  rw [mem_blk]
  obtain ⟨e0, e1⟩ := idx_facts ⟨4 * ((i 1).val / 512) + 3, by omega⟩
  have e1' : win0_2.index ⟨4 * ((i 1).val / 512) + 3, by omega⟩ (1 : Fin 2) = (i 1).val / 512 := by
    rw [e1]; (try dsimp only); omega
  intro a
  match a with
  | ⟨0, _⟩ =>
    show win0_2.index _ (0 : Fin 2) * 32 ≤ (i 0).val ∧ (i 0).val < win0_2.index _ (0 : Fin 2) * 32 + 32
    rw [e0]; omega
  | ⟨1, _⟩ =>
    show win0_2.index _ (1 : Fin 2) * 512 ≤ (i 1).val ∧ (i 1).val < win0_2.index _ (1 : Fin 2) * 512 + 512
    rw [e1']; omega

/-- The output array after the region: `G`. -/
theorem final (c : Dev nD) : (dat0 V c).arrAt 2 cfg0.N = G V c :=
  (dat0 V c).arrAt_eq_of_cover 2 _ (fun t hf => flushed_eq V c t hf) (cover)

end Cert.KernelIdeal.Fold0

end
-- ==== Proof.LibCrossAxesDot.lean ====
/-
  A `K × M` array against an `N × K` array, the left contracted on its FIRST axis and the right on its SECOND:
  `out[a, b] = ∑ₖ l[k, a] · r[b, k]` — the transposed product `lᵀ · rᵀ = (r · l)ᵀ`, the form in which a tall
  feature block meets a block of an operator whose rows are the output's columns. Dimension numbers
  `<[0], [1], [1], [0], [0, 1, 1, 0], [], []>`. Read at an entry on the extended reals, for a vector-unit product
  into the zero accumulator and for the host's `dot_general`, generic in `K M N`; a printed record with these
  dimension numbers equals `crossAxes K M N wf` by `rfl`.
-/
import Idealize.ShloMosaic.Lib.ValueIdx
import Idealize.ShloMosaic.PureOps.Ideal.Laws

noncomputable section

open scoped BigOperators

namespace Cert.Lib.CrossAxesDot

open Idealize.ShloMosaic Idealize.ShloMosaic.ValueIdx

/-- `K×M` by `N×K`: the left operand contracted on axis 0, the right on axis 1; the output is `M×N`. -/
def crossAxes (K M N : ℕ)
    (wf : DotDims.WF ⟨2, ![K, M]⟩ ⟨2, ![N, K]⟩ ⟨2, ![M, N]⟩ [0] [1] [1] [0] [] []) :
    DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := wf

variable {K M N : ℕ} {φ₁ φ₂ : FTy}
variable (wf : DotDims.WF ⟨2, ![K, M]⟩ ⟨2, ![N, K]⟩ ⟨2, ![M, N]⟩ [0] [1] [1] [0] [] [])

/-- Left operand, axis 1: the output's row. -/
theorem lhs1 (i : (⟨2, ![M, N]⟩ : Shape).Idx) (q : (crossAxes K M N wf).contr.Idx) :
    ((crossAxes K M N wf).lhsIdx i q 1).val = (i 0).val := by
  unfold DotDims.lhsIdx
  rw [dif_neg (show ¬(1 : Fin (⟨2, ![K, M]⟩ : Shape).rank) ∈ (crossAxes K M N wf).lhsBatch by simp [crossAxes]),
    dif_pos (show (1 : Fin (⟨2, ![K, M]⟩ : Shape).rank) ∈ (crossAxes K M N wf).lhsNonContracting by simp [crossAxes])]
  rfl

/-- Right operand, axis 0: the output's column. -/
theorem rhs0 (i : (⟨2, ![M, N]⟩ : Shape).Idx) (q : (crossAxes K M N wf).contr.Idx) :
    ((crossAxes K M N wf).rhsIdx i q 0).val = (i 1).val := by
  unfold DotDims.rhsIdx
  rw [dif_neg (show ¬(0 : Fin (⟨2, ![N, K]⟩ : Shape).rank) ∈ (crossAxes K M N wf).rhsBatch by simp [crossAxes]),
    dif_pos (show (0 : Fin (⟨2, ![N, K]⟩ : Shape).rank) ∈ (crossAxes K M N wf).rhsNonContracting by simp [crossAxes])]
  rfl

/-- The left operand's index at output `(a, b)` and contraction coordinate `k` is `(k, a)`. -/
theorem lhsIdx_cross (a : Fin M) (b : Fin N) (k : Fin K) :
    (crossAxes K M N wf).lhsIdx (ix2 a b) ((contrEquiv1 (crossAxes K M N wf) K rfl rfl).symm k) = ix2 k a := by
  have hk := contrEquiv1_symm_val (crossAxes K M N wf) K rfl rfl k
  exact funext fun c => Fin.ext (by
    match c with
    | ⟨0, _⟩ => exact ((crossAxes K M N wf).lhsIdx_val_of_single rfl _ _).trans hk
    | ⟨1, _⟩ => exact lhs1 wf _ _)

/-- The right operand's index at output `(a, b)` and contraction coordinate `k` is `(b, k)`. -/
theorem rhsIdx_cross (a : Fin M) (b : Fin N) (k : Fin K) :
    (crossAxes K M N wf).rhsIdx (ix2 a b) ((contrEquiv1 (crossAxes K M N wf) K rfl rfl).symm k) = ix2 b k := by
  have hk := contrEquiv1_symm_val (crossAxes K M N wf) K rfl rfl k
  exact funext fun c => Fin.ext (by
    match c with
    | ⟨0, _⟩ => exact rhs0 wf _ _
    | ⟨1, _⟩ => exact ((crossAxes K M N wf).rhsIdx_val_of_single rfl _ _).trans hk)

/-- The contraction's sum at output `(a, b)` is the sum over the contracted coordinate. -/
theorem sum_cross (l : (⟨2, ![K, M]⟩ : Shape).Idx → EReal) (r : (⟨2, ![N, K]⟩ : Shape).Idx → EReal) (a : Fin M) (b : Fin N) :
    ∑ q : (crossAxes K M N wf).contr.Idx,
        l ((crossAxes K M N wf).lhsIdx (ix2 a b) q) * r ((crossAxes K M N wf).rhsIdx (ix2 a b) q)
      = ∑ k : Fin K, l (ix2 k a) * r (ix2 b k) := by
  rw [← Equiv.sum_comp (contrEquiv1 (crossAxes K M N wf) K rfl rfl).symm]
  refine Finset.sum_congr rfl fun k _ => ?_
  rw [lhsIdx_cross, rhsIdx_cross]

/-- The product on the vector unit into the zero accumulator, at entry `(a, b)`. -/
theorem matmul_zero_apply (prec : Option ContractPrecision) (l : FVec Ideal ⟨2, ![K, M]⟩ φ₁) (r : FVec Ideal ⟨2, ![N, K]⟩ φ₂)
    (a : Fin M) (b : Fin N) :
    FloatOps.matmul (crossAxes K M N wf) prec l r (constant ⟨2, ![M, N]⟩ .f32 0x00000000#32) (ix2 a b)
      = ∑ k : Fin K, l (ix2 k a) * r (ix2 b k) := by
  rw [Ideal.matmul_constant_zero_apply]
  exact sum_cross wf l r a b

/-- The host's `dot_general` with these dimension numbers at entry `(a, b)`, whatever its schedule. -/
theorem dotGeneral_apply (prec : Option ContractPrecision) (sched : HostSchedule) (l : FVec Ideal ⟨2, ![K, M]⟩ φ₁)
    (r : FVec Ideal ⟨2, ![N, K]⟩ φ₂) (a : Fin M) (b : Fin N) :
    FloatOps.dotGeneral (crossAxes K M N wf) prec sched l r (ix2 a b) = ∑ k : Fin K, l (ix2 k a) * r (ix2 b k) := by
  rw [Ideal.dotGeneral_apply]
  exact sum_cross wf l r a b

end Cert.Lib.CrossAxesDot

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Message.lean ====
/-
  One cochain message, in its two arrangements.

  A cell `a` of the target dimension receives, through a neighbourhood operator `G` (`M × K`), the features `x`
  (`K × 32`) of the source cells after a linear map `W` (`32 × 32`). Written as the aggregate of the projected
  features it is `(G · (x · W))[a, o] = ∑ₖ G[a, k] · ∑_c x[k, c] · W[c, o]`; written as the projection of the
  aggregated features, transposed the way a systolic product wants its operands, it is
  `∑_c W[c, o] · ∑ₖ x[k, c] · G[a, k]`. On real entries the two agree (distributivity and the exchange of two finite
  sums); on the extended reals they need not, which is why the entries' finiteness is used.
-/
import Idealize.ShloMosaic.Lib.ValueIdx
import Idealize.ShloMosaic.PureOps.Ideal
import Mathlib.Algebra.BigOperators.Ring.Finset
import Mathlib.Tactic.Ring

noncomputable section

open scoped BigOperators

namespace Cert.Message

open Idealize.ShloMosaic Idealize.ShloMosaic.ValueIdx

/-- An `a × b` array of extended reals. -/
abbrev Mat (a b : ℕ) : Type := (⟨2, ![a, b]⟩ : Shape).Idx → EReal

/-- Every entry is a real number. -/
def IsReal {a b : ℕ} (A : Mat a b) : Prop := ∀ i, ∃ r : ℝ, A i = (r : EReal)

/-- Aggregate of the projected features: `(G · (x · W))[a, o]`. -/
def aggProj {M K : ℕ} (G : Mat M K) (x : Mat K 32) (W : Mat 32 32) (a : Fin M) (o : Fin 32) : EReal :=
  ∑ k : Fin K, G (ix2 a k) * ∑ c : Fin 32, x (ix2 k c) * W (ix2 c o)

/-- Projection of the aggregated features, operands transposed: `∑_c W[c, o] · ∑ₖ x[k, c] · G[a, k]`. -/
def projAgg {M K : ℕ} (G : Mat M K) (x : Mat K 32) (W : Mat 32 32) (a : Fin M) (o : Fin 32) : EReal :=
  ∑ c : Fin 32, W (ix2 c o) * ∑ k : Fin K, x (ix2 k c) * G (ix2 a k)

end Cert.Message

end
-- ==== Proof.Read0.lean ====
/-
  Region 0, read at an entry on the extended reals.

  A block product at `(c, j)` is `∑ₖₖ x[kk, c] · g[j, kk]` over the 1024 rows of the feature block; the blocks a
  point reads are rows `1024·s …` of the features and rows `512·q …`, columns `1024·s …` of the operator; a run's fold
  is zero plus the sum of its 4 block products; and 4 blocks of 1024 consecutive indices are the 4096 indices of the
  contracted axis. So the output array ends holding `∑ₖ x[k, c] · G[j, k]` at `(c, j)`: the transposed aggregate.
  Only associativity and commutativity of the sum are used, so no entry needs to be finite here.
-/
import proofs.«178574_g19696720019795_cont_8to1_1339_3_alg».proof.Proof.Fold0
import proofs.«178574_g19696720019795_cont_8to1_1339_3_alg».proof.Proof.LibCrossAxesDot
import proofs.«178574_g19696720019795_cont_8to1_1339_3_alg».proof.Proof.LibBlockSum
import proofs.«178574_g19696720019795_cont_8to1_1339_3_alg».proof.Proof.Message

set_option maxRecDepth 16384

noncomputable section

open scoped BigOperators
open Idealize.ShloMosaic Idealize.ShloMosaic.TcCoe Idealize.SL.Sem Idealize.ShloMosaic.ValueIdx

namespace Cert.KernelIdeal.Fold0

open Cert.KernelIdeal Cert.KernelIdeal.Gen
open Cert.Message (Mat)

variable (V : (c : Dev nD) → (b : Ref sig .tc) → Buf (Elt Ideal) ((c : Thread nD τ).loc b))

/-- The block product, by itself: the transposed feature block against the transposed operator block. -/
def prod (v3 : Vec Ideal S512x1024 .f32) (v7 : Vec Ideal S1024x32 .bf16) : FVec Ideal S32x512 .f32 :=
  have v4 : FVec Ideal S512x1024 .bf16 := truncf .bf16 v3 bitsLt_bf16_f32
  have v8 : FVec Ideal S1024x32 .bf16 := shapeCast S1024x32 v7 shapeCasts_S1024x32_S1024x32
  have cst : FVec Ideal S32x512 .f32 := constant S32x512 .f32 0x00000000#32
  matmul dot_S1024x32_S512x1024_S32x512_0_1_1_0_n_n none v8 v4 cst

/-- A point's payload is the contents it found plus the block product. -/
theorem pay_eq (g : Vec Ideal S512x1024 .f32) (acc : Vec Ideal S32x512 .f32) (x : Vec Ideal S1024x32 .bf16) :
    k0_pay2 g acc x = addf acc (prod g x) := by
  unfold k0_pay2 prod
  simp only [shapeCast_self]

/-- The block product at `(a, j)`. -/
theorem prod_apply (g : Vec Ideal S512x1024 .f32) (x : Vec Ideal S1024x32 .bf16) (a : Fin 32) (j : Fin 512) :
    prod g x (ix2 a j) = ∑ kk : Fin 1024, x (ix2 kk a) * g (ix2 j kk) := by
  have hd : dot_S1024x32_S512x1024_S32x512_0_1_1_0_n_n
      = Cert.Lib.CrossAxesDot.crossAxes 1024 32 512 dot_S1024x32_S512x1024_S32x512_0_1_1_0_n_n_wf := rfl
  unfold prod
  simp only [shapeCast_self]
  rw [hd]
  exact Cert.Lib.CrossAxesDot.matmul_zero_apply _ none x (truncf .bf16 g bitsLt_bf16_f32) a j

/-- The cleared block holds zero. -/
theorem zero_apply (i : S32x512.Idx) : (k0_pay1 (F := Ideal)) i = 0 := by
  unfold k0_pay1
  show Ideal.ofBits .f32 0x00000000#32 = 0
  exact Ideal.ofBits_zero_f32

/-- The block indices of the two input windows at a point: features block `s`; operator block `(q, s)`. -/
theorem idx_in : ∀ t : Fin cfg0.N, win0_0.index t (0 : Fin 2) = t.val % 4 ∧ win0_0.index t (1 : Fin 2) = 0
    ∧ win0_1.index t (0 : Fin 2) = t.val / 4 ∧ win0_1.index t (1 : Fin 2) = t.val % 4 :=
  (by decide +kernel : ∀ t : Fin grid0.N, _)

/-- The feature block at a point, read at `(kk, a)`: row `1024·s + kk` of the features. -/
theorem xblk_apply (c : Dev nD) (X : Mat 4096 32) (hX : V c main_call0_v0 = X) (t : Fin cfg0.N) (kk : Fin 1024) (a : Fin 32) (r : Fin 4096)
    (hr : r.val = 1024 * (t.val % 4) + kk.val) :
    (iblk0 V c 0 t : Vec Ideal S1024x32 .bf16) (ix2 kk a) = X (ix2 r a) := by
  subst hX
  obtain ⟨e0, e1, -, -⟩ := idx_in t
  unfold iblk0
  rw [View.read_apply]
  show V c main_call0_v0 _ = V c main_call0_v0 _
  refine congrArg (V c main_call0_v0) ?_
  funext b; apply Fin.ext
  match b with
  | ⟨0, _⟩ => show win0_0.index t 0 * 1024 + 1 * kk.val = r.val; rw [e0, hr]; omega
  | ⟨1, _⟩ => show win0_0.index t 1 * 32 + 1 * a.val = a.val; rw [e1]; omega

/-- The operator block at a point, read at `(j, kk)`: row `512·q + j`, column `1024·s + kk` of the operator. -/
theorem gblk_apply (c : Dev nD) (Gm : Mat 4096 4096) (hG : V c main_arg3 = Gm) (t : Fin cfg0.N) (j : Fin 512) (kk : Fin 1024) (row : Fin 4096) (r : Fin 4096)
    (hrow : row.val = 512 * (t.val / 4) + j.val) (hr : r.val = 1024 * (t.val % 4) + kk.val) :
    (iblk0 V c 1 t : Vec Ideal S512x1024 .f32) (ix2 j kk) = Gm (ix2 row r) := by
  subst hG
  obtain ⟨-, -, e2, e3⟩ := idx_in t
  unfold iblk0
  rw [View.read_apply]
  show V c main_arg3 _ = V c main_arg3 _
  refine congrArg (V c main_arg3) ?_
  funext b; apply Fin.ext
  match b with
  | ⟨0, _⟩ => show win0_1.index t 0 * 512 + 1 * j.val = row.val; rw [e2, hrow]; omega
  | ⟨1, _⟩ => show win0_1.index t 1 * 1024 + 1 * kk.val = r.val; rw [e3, hr]; omega

/-- A point's addend to its run's fold (zero past the grid, where it is never used). -/
def addend (c : Dev nD) (n : ℕ) : S32x512.Idx → EReal := fun i =>
  if h : n < cfg0.N then prod (iblk0 V c 1 ⟨n, h⟩) (iblk0 V c 0 ⟨n, h⟩) i else 0

/-- A whole run's fold at an entry: zero plus the run's 4 addends. -/
theorem fold_apply (c : Dev nD) (q : ℕ) (h : 4 * q + 3 < cfg0.N) (i : S32x512.Idx) :
    Pipeline.accAt (reset V c) (step V c) (4 * q) 3 h i
      = (k0_pay1 (F := Ideal)) i + ∑ s ∈ Finset.range 4, addend V c (4 * q + s) i :=
  Pipeline.accAt_add_apply (reset V c) (step V c) (k0_pay1 (F := Ideal)) (addend V c) (4 * q) 3
    (fun hb i => by
      unfold reset addend
      rw [pay_eq, dif_pos hb]; rfl)
    (fun n hn acc i _ _ => by
      unfold step addend
      rw [pay_eq, dif_pos hn]; rfl)
    3 (Nat.le_refl _) h i

/-- THE OUTPUT ARRAY AT AN ENTRY: the transposed aggregate `∑ₖ x[k, a] · G[j, k]`. -/
theorem G_apply (c : Dev nD) (X : Mat 4096 32) (Gm : Mat 4096 4096) (hX : V c main_call0_v0 = X) (hG : V c main_arg3 = Gm)
    (a : Fin 32) (j : Fin 4096) :
    G V c (ix2 a j) = ∑ k : Fin 4096, X (ix2 k a) * Gm (ix2 j k) := by
  have hN : cfg0.N = 32 := N_0
  have hN' : grid0.N = 32 := N_0
  have hj : j.val < 4096 := j.isLt
  have hrun : runOf (ix2 a j : S32x4096.Idx) = j.val / 512 := rfl
  have hq : 4 * (j.val / 512) + 3 < cfg0.N := by omega
  have key : Pipeline.accAt (reset V c) (step V c) (4 * (j.val / 512)) 3 hq
        (ix2 (⟨a.val % 32, Nat.mod_lt _ (by decide)⟩ : Fin 32) (⟨j.val % 512, Nat.mod_lt _ (by decide)⟩ : Fin 512))
      = ∑ k : Fin 4096, X (ix2 k a) * Gm (ix2 j k) := by
    rw [fold_apply V c (j.val / 512) hq, zero_apply, zero_add]
    rw [show (∑ k : Fin 4096, X (ix2 k a) * Gm (ix2 j k))
        = ∑ k : Fin (4 * 1024), X (ix2 (⟨k.val, k.isLt⟩ : Fin 4096) a) * Gm (ix2 j (⟨k.val, k.isLt⟩ : Fin 4096)) from rfl,
      Cert.Lib.BlockSum.sum_blocks 4 1024, Finset.sum_range]
    refine Finset.sum_congr rfl fun s _ => ?_
    have hs : s.val < 4 := s.isLt
    have hlt : 4 * (j.val / 512) + s.val < cfg0.N := by omega
    unfold addend
    rw [dif_pos hlt, prod_apply]
    refine Finset.sum_congr rfl fun kk _ => ?_
    have hkk : kk.val < 1024 := kk.isLt
    have hmod : (4 * (j.val / 512) + s.val) % 4 = s.val := by omega
    have hdiv : (4 * (j.val / 512) + s.val) / 4 = j.val / 512 := by omega
    rw [xblk_apply V c X hX ⟨4 * (j.val / 512) + s.val, hlt⟩ kk _ (⟨s.val * 1024 + kk.val, by omega⟩ : Fin 4096)
        (by show s.val * 1024 + kk.val = 1024 * ((4 * (j.val / 512) + s.val) % 4) + kk.val; rw [hmod]; omega),
      gblk_apply V c Gm hG ⟨4 * (j.val / 512) + s.val, hlt⟩ _ kk j (⟨s.val * 1024 + kk.val, by omega⟩ : Fin 4096)
        (by show j.val = 512 * ((4 * (j.val / 512) + s.val) / 4) + j.val % 512; rw [hdiv]; omega)
        (by show s.val * 1024 + kk.val = 1024 * ((4 * (j.val / 512) + s.val) % 4) + kk.val; rw [hmod]; omega)]
    have ha : (⟨a.val % 32, Nat.mod_lt _ (by decide)⟩ : Fin 32) = a := Fin.ext (Nat.mod_eq_of_lt a.isLt)
    rw [ha]
  have hloc : locOf (ix2 a j : S32x4096.Idx) = ix2 (⟨a.val % 32, Nat.mod_lt _ (by decide)⟩ : Fin 32) (⟨j.val % 512, Nat.mod_lt _ (by decide)⟩ : Fin 512) := by
    funext b; apply Fin.ext
    match b with
    | ⟨0, _⟩ => rfl
    | ⟨1, _⟩ => rfl
  have e : ∀ (b b' : ℕ) (hb : b = b') (h : b + 3 < cfg0.N) (h' : b' + 3 < cfg0.N),
      Pipeline.accAt (reset V c) (step V c) b 3 h = Pipeline.accAt (reset V c) (step V c) b' 3 h' := by
    intro b b' hb h h'; subst hb; rfl
  unfold G
  rw [dif_pos (by rw [hrun]; exact hq), hloc,
    e (4 * runOf (ix2 a j : S32x4096.Idx)) (4 * (j.val / 512)) (by rw [hrun]) _ hq]
  exact key

/-- So the region leaves the transposed aggregate in its output array. -/
theorem final_apply (c : Dev nD) (X : Mat 4096 32) (Gm : Mat 4096 4096) (hX : V c main_call0_v0 = X) (hG : V c main_arg3 = Gm)
    (a : Fin 32) (j : Fin 4096) :
    (dat0 V c).arrAt 2 cfg0.N (ix2 a j) = ∑ k : Fin 4096, X (ix2 k a) * Gm (ix2 j k) := by
  rw [final]; exact G_apply V c X Gm hX hG a j

end Cert.KernelIdeal.Fold0

end
-- ==== Proof.Fold1.lean ====
/-
  Region 1: one accumulated transposed product.

  The grid is 16 × 4: row block `q` of the operator (512 of its 8192 rows) against column block `s` (1024 of its
  4096 columns). Point `4·q + s` multiplies the 1024 × 32 block `s` of the features, transposed, into the
  512 × 1024 block `(q, s)` of the operator, transposed, and adds the 32 × 512 product into the output block
  `(0, q)`, which it first clears when `s = 0`; the block is written back after `s = 3`. So what the output array
  ends holding at `(c, 512·q + j)` is the fold over the run `4·q … 4·q + 3` of the block products, at `(c, j)`:
  stated here for any float instance as the library's fold over a run (`accAt`), by recursion on the offset in
  the run and never on the size of the grid.
-/
import proofs.«178574_g19696720019795_cont_8to1_1339_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Fold1

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At the first point of a run the body clears the output block, reads it back and adds the block product: the
    buffer's earlier contents do not enter. -/
theorem out_A_eq (c : Dev nD) (i : grid1.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : cond1_0 i) (x0 : Vec F S1024x32 .bf16) (x1 : Vec F S512x1024 .f32) :
    out1_A_2 c i arg2 harg2 arg3 harg3 arg4 harg4 hc0 x0 x1 = k1_pay2 x1 (k1_pay1 (F := F)) x0 := by
  unfold out1_A_2
  rw [View.read_writes_eq_canon _ _ _ (cover1_A_2 c i arg2 harg2 arg3 harg3 arg4 harg4 hc0 x0 x1)]
  unfold kernelRun1_A
  dsimp only
  try sl_unfold_words
  rw [View.canon_cons_unit_zero (S := S32x512) hz, View.readCov_unit_zero (S := S32x512) _ hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- At every later point of a run the body adds the block product to what the point before left. -/
theorem out_B_eq (c : Dev nD) (i : grid1.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : ¬cond1_0 i) (x0 : Vec F S1024x32 .bf16) (x1 : Vec F S512x1024 .f32)
    (xo2 : Vec F S32x512 .f32) :
    out1_B_2 c i arg2 harg2 arg3 harg3 arg4 harg4 hc0 x0 x1 xo2 = k1_pay2 x1 xo2 x0 := by
  unfold out1_B_2
  rw [View.read_writes_eq_canon _ _ _ (cover1_B_2 c i arg2 harg2 arg3 harg3 arg4 harg4 hc0 x0 x1 xo2)]
  unfold kernelRun1_B
  dsimp only
  try sl_unfold_words
  rw [View.canon_unit_zero hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- What a run's first point leaves in the output block: zero plus that point's block product. -/
def reset (c : Dev nD) (n : ℕ) (h : n < cfg1.N) : Vec F S32x512 .f32 :=
  k1_pay2 (iblk1 V c 1 ⟨n, h⟩) (k1_pay1 (F := F)) (iblk1 V c 0 ⟨n, h⟩)

/-- What a later point leaves: the contents the point before left plus this point's block product. -/
def step (c : Dev nD) (n : ℕ) (h : n < cfg1.N) (acc : Vec F S32x512 .f32) : Vec F S32x512 .f32 :=
  k1_pay2 (iblk1 V c 1 ⟨n, h⟩) acc (iblk1 V c 0 ⟨n, h⟩)

/-- The output block after point `t` is the fold of its run up to `t`. -/
theorem outsAt_eq (c : Dev nD) (t : Fin cfg1.N) :
    outsAt1 V c t.val t.isLt = Pipeline.accAt (reset V c) (step V c) (4 * (t.val / 4)) (t.val % 4)
      (by have h1 := t.isLt; have h2 := Nat.div_add_mod t.val 4; omega) :=
  Pipeline.eq_accAt_of_mod (fun n h => outsAt1 V c n h) 4 (reset V c) (step V c)
    (fun n h hn => by rw [outsAt1_A V c ⟨n, h⟩ (by (try dsimp only); omega)]; exact out_A_eq ..)
    (fun n h hn => by rw [outsAt1_B V c ⟨n + 1, h⟩ (by (try dsimp only); omega)]; exact out_B_eq ..)
    (by decide) t.val t.isLt _

/-- The run whose block holds column `i 1` of the output array, and the index's place in that block. -/
abbrev runOf (i : S32x8192.Idx) : ℕ := (i 1).val / 512
abbrev locOf (i : S32x8192.Idx) : S32x512.Idx := fun a => match a with
  | ⟨0, _⟩ => ⟨(i 0).val % 32, Nat.mod_lt _ (by decide)⟩
  | ⟨1, _⟩ => ⟨(i 1).val % 512, Nat.mod_lt _ (by decide)⟩

/-- What the output array ends holding: at each index the whole fold of the run whose block holds it. -/
def G (c : Dev nD) : Buf (Elt F) ((c : Thread nD τ).loc main_call0_v4) := fun i =>
  if h : 4 * runOf i + 3 < cfg1.N then
    (Pipeline.accAt (reset V c) (step V c) (4 * runOf i) 3 h) (locOf i)
  else V c (Pipeline.arrRef spec1 2) i

/-- The output's block index at a point: row 0, column the point's run. -/
theorem idx_facts : ∀ t : Fin cfg1.N, win1_2.index t (0 : Fin 2) = 0 ∧ win1_2.index t (1 : Fin 2) = t.val / 4 :=
  (by decide +kernel : ∀ t : Fin grid1.N, _)

/-- What a point that writes back writes is its block of `G`: the whole run's fold. -/
theorem flushed_eq (c : Dev nD) (t : Fin cfg1.N) (hf : (cfg1.win 2).flush t = true) :
    (dat1 V c).flushed 2 t = ((cfg1.win 2).blk t).view.read (Elt F) (G V c) := by
  show (cfg1.win 2).cut (grid1.coords t) ((dat1 V c).after 2 t) = _
  rw [after1_2, outsAt_eq]
  have hm : t.val % 4 = 3 := (flush1_2 t).mp hf
  obtain ⟨e0, e1⟩ := idx_facts t
  funext y
  have hy0 : (y 0).val < 32 := (y 0).isLt
  have hy1 : (y 1).val < 512 := (y 1).isLt
  have hb0 : (((cfg1.win 2).blk t).view.emb y 0).val = win1_2.index t (0 : Fin 2) * 32 + 1 * (y 0).val := rfl
  have hb1 : (((cfg1.win 2).blk t).view.emb y 1).val = win1_2.index t (1 : Fin 2) * 512 + 1 * (y 1).val := rfl
  have hr : runOf (((cfg1.win 2).blk t).view.emb y) = t.val / 4 := by
    show (((cfg1.win 2).blk t).view.emb y 1).val / 512 = _
    rw [hb1, e1]; omega
  have hl : locOf (((cfg1.win 2).blk t).view.emb y) = (cfg1.win 2).xinj (grid1.coords t) y := by
    funext a; apply Fin.ext
    match a with
    | ⟨0, _⟩ => show (((cfg1.win 2).blk t).view.emb y 0).val % 32 = (y 0).val; rw [hb0, e0]; omega
    | ⟨1, _⟩ => show (((cfg1.win 2).blk t).view.emb y 1).val % 512 = (y 1).val; rw [hb1]; omega
  show (Pipeline.accAt (reset V c) (step V c) (4 * (t.val / 4)) (t.val % 4) _) ((cfg1.win 2).xinj (grid1.coords t) y)
    = G V c (((cfg1.win 2).blk t).view.emb y)
  unfold G
  rw [dif_pos (by rw [hr]; have := t.isLt; have := Nat.div_add_mod t.val 4; omega), hl]
  have e : ∀ (b j : ℕ) (h : b + j < cfg1.N) (b' j' : ℕ) (h' : b' + j' < cfg1.N), b = b' → j = j' →
      Pipeline.accAt (reset V c) (step V c) b j h = Pipeline.accAt (reset V c) (step V c) b' j' h' := by
    intro b j h b' j' h' hb hj; subst hb; subst hj; rfl
  have hb : 4 * (t.val / 4) = 4 * runOf (((cfg1.win 2).blk t).view.emb y) := by rw [hr]
  exact congrFun (e _ _ _ _ _ _ hb hm) _

/-- An index of the array is in a point's block iff each coordinate is in the block's range on its axis. -/
theorem mem_blk (t : Fin cfg1.N) (i : S32x8192.Idx) :
    i ∈ ((cfg1.win 2).blk t).view.set ↔ ∀ a : Fin 2, win1_2.index t a * S32x512.size a ≤ (i a).val
      ∧ (i a).val < win1_2.index t a * S32x512.size a + S32x512.size a := by
  show i ∈ ((View.whole main_call0_v4).slice (win1_2.rect t)).set ↔ _
  rw [View.set_slice_whole, Rect.mem_set_unit]
  exact Iff.rfl

/-- Every index of the output array lies in the block of the last point of its run, which writes back. -/
theorem cover (i : S32x8192.Idx) :
    ∃ t : Fin cfg1.N, (cfg1.win 2).flush t = true ∧ i ∈ ((cfg1.win 2).blk t).view.set := by
  have hi0 : (i 0).val < 32 := (i 0).isLt
  have hi1 : (i 1).val < 8192 := (i 1).isLt
  have hN : cfg1.N = 64 := N_1
  have hN' : grid1.N = 64 := N_1
  refine ⟨⟨4 * ((i 1).val / 512) + 3, by omega⟩, (flush1_2 _).mpr (by (try dsimp only); omega), ?_⟩
  rw [mem_blk]
  obtain ⟨e0, e1⟩ := idx_facts ⟨4 * ((i 1).val / 512) + 3, by omega⟩
  have e1' : win1_2.index ⟨4 * ((i 1).val / 512) + 3, by omega⟩ (1 : Fin 2) = (i 1).val / 512 := by
    rw [e1]; (try dsimp only); omega
  intro a
  match a with
  | ⟨0, _⟩ =>
    show win1_2.index _ (0 : Fin 2) * 32 ≤ (i 0).val ∧ (i 0).val < win1_2.index _ (0 : Fin 2) * 32 + 32
    rw [e0]; omega
  | ⟨1, _⟩ =>
    show win1_2.index _ (1 : Fin 2) * 512 ≤ (i 1).val ∧ (i 1).val < win1_2.index _ (1 : Fin 2) * 512 + 512
    rw [e1']; omega

/-- The output array after the region: `G`. -/
theorem final (c : Dev nD) : (dat1 V c).arrAt 2 cfg1.N = G V c :=
  (dat1 V c).arrAt_eq_of_cover 2 _ (fun t hf => flushed_eq V c t hf) (cover)

end Cert.KernelIdeal.Fold1

end
-- ==== Proof.Read1.lean ====
/-
  Region 1, read at an entry on the extended reals.

  A block product at `(c, j)` is `∑ₖₖ x[kk, c] · g[j, kk]` over the 1024 rows of the feature block; the blocks a
  point reads are rows `1024·s …` of the features and rows `512·q …`, columns `1024·s …` of the operator; a run's fold
  is zero plus the sum of its 4 block products; and 4 blocks of 1024 consecutive indices are the 4096 indices of the
  contracted axis. So the output array ends holding `∑ₖ x[k, c] · G[j, k]` at `(c, j)`: the transposed aggregate.
  Only associativity and commutativity of the sum are used, so no entry needs to be finite here.
-/
import proofs.«178574_g19696720019795_cont_8to1_1339_3_alg».proof.Proof.Fold1
import proofs.«178574_g19696720019795_cont_8to1_1339_3_alg».proof.Proof.LibCrossAxesDot
import proofs.«178574_g19696720019795_cont_8to1_1339_3_alg».proof.Proof.LibBlockSum
import proofs.«178574_g19696720019795_cont_8to1_1339_3_alg».proof.Proof.Message

set_option maxRecDepth 16384

noncomputable section

open scoped BigOperators
open Idealize.ShloMosaic Idealize.ShloMosaic.TcCoe Idealize.SL.Sem Idealize.ShloMosaic.ValueIdx

namespace Cert.KernelIdeal.Fold1

open Cert.KernelIdeal Cert.KernelIdeal.Gen
open Cert.Message (Mat)

variable (V : (c : Dev nD) → (b : Ref sig .tc) → Buf (Elt Ideal) ((c : Thread nD τ).loc b))

/-- The block product, by itself: the transposed feature block against the transposed operator block. -/
def prod (v3 : Vec Ideal S512x1024 .f32) (v7 : Vec Ideal S1024x32 .bf16) : FVec Ideal S32x512 .f32 :=
  have v4 : FVec Ideal S512x1024 .bf16 := truncf .bf16 v3 bitsLt_bf16_f32
  have v8 : FVec Ideal S1024x32 .bf16 := shapeCast S1024x32 v7 shapeCasts_S1024x32_S1024x32
  have cst : FVec Ideal S32x512 .f32 := constant S32x512 .f32 0x00000000#32
  matmul dot_S1024x32_S512x1024_S32x512_0_1_1_0_n_n none v8 v4 cst

/-- A point's payload is the contents it found plus the block product. -/
theorem pay_eq (g : Vec Ideal S512x1024 .f32) (acc : Vec Ideal S32x512 .f32) (x : Vec Ideal S1024x32 .bf16) :
    k1_pay2 g acc x = addf acc (prod g x) := by
  unfold k1_pay2 prod
  simp only [shapeCast_self]

/-- The block product at `(a, j)`. -/
theorem prod_apply (g : Vec Ideal S512x1024 .f32) (x : Vec Ideal S1024x32 .bf16) (a : Fin 32) (j : Fin 512) :
    prod g x (ix2 a j) = ∑ kk : Fin 1024, x (ix2 kk a) * g (ix2 j kk) := by
  have hd : dot_S1024x32_S512x1024_S32x512_0_1_1_0_n_n
      = Cert.Lib.CrossAxesDot.crossAxes 1024 32 512 dot_S1024x32_S512x1024_S32x512_0_1_1_0_n_n_wf := rfl
  unfold prod
  simp only [shapeCast_self]
  rw [hd]
  exact Cert.Lib.CrossAxesDot.matmul_zero_apply _ none x (truncf .bf16 g bitsLt_bf16_f32) a j

/-- The cleared block holds zero. -/
theorem zero_apply (i : S32x512.Idx) : (k1_pay1 (F := Ideal)) i = 0 := by
  unfold k1_pay1
  show Ideal.ofBits .f32 0x00000000#32 = 0
  exact Ideal.ofBits_zero_f32

/-- The block indices of the two input windows at a point: features block `s`; operator block `(q, s)`. -/
theorem idx_in : ∀ t : Fin cfg1.N, win1_0.index t (0 : Fin 2) = t.val % 4 ∧ win1_0.index t (1 : Fin 2) = 0
    ∧ win1_1.index t (0 : Fin 2) = t.val / 4 ∧ win1_1.index t (1 : Fin 2) = t.val % 4 :=
  (by decide +kernel : ∀ t : Fin grid1.N, _)

/-- The feature block at a point, read at `(kk, a)`: row `1024·s + kk` of the features. -/
theorem xblk_apply (c : Dev nD) (X : Mat 4096 32) (hX : V c main_call0_v0 = X) (t : Fin cfg1.N) (kk : Fin 1024) (a : Fin 32) (r : Fin 4096)
    (hr : r.val = 1024 * (t.val % 4) + kk.val) :
    (iblk1 V c 0 t : Vec Ideal S1024x32 .bf16) (ix2 kk a) = X (ix2 r a) := by
  subst hX
  obtain ⟨e0, e1, -, -⟩ := idx_in t
  unfold iblk1
  rw [View.read_apply]
  show V c main_call0_v0 _ = V c main_call0_v0 _
  refine congrArg (V c main_call0_v0) ?_
  funext b; apply Fin.ext
  match b with
  | ⟨0, _⟩ => show win1_0.index t 0 * 1024 + 1 * kk.val = r.val; rw [e0, hr]; omega
  | ⟨1, _⟩ => show win1_0.index t 1 * 32 + 1 * a.val = a.val; rw [e1]; omega

/-- The operator block at a point, read at `(j, kk)`: row `512·q + j`, column `1024·s + kk` of the operator. -/
theorem gblk_apply (c : Dev nD) (Gm : Mat 8192 4096) (hG : V c main_arg4 = Gm) (t : Fin cfg1.N) (j : Fin 512) (kk : Fin 1024) (row : Fin 8192) (r : Fin 4096)
    (hrow : row.val = 512 * (t.val / 4) + j.val) (hr : r.val = 1024 * (t.val % 4) + kk.val) :
    (iblk1 V c 1 t : Vec Ideal S512x1024 .f32) (ix2 j kk) = Gm (ix2 row r) := by
  subst hG
  obtain ⟨-, -, e2, e3⟩ := idx_in t
  unfold iblk1
  rw [View.read_apply]
  show V c main_arg4 _ = V c main_arg4 _
  refine congrArg (V c main_arg4) ?_
  funext b; apply Fin.ext
  match b with
  | ⟨0, _⟩ => show win1_1.index t 0 * 512 + 1 * j.val = row.val; rw [e2, hrow]; omega
  | ⟨1, _⟩ => show win1_1.index t 1 * 1024 + 1 * kk.val = r.val; rw [e3, hr]; omega

/-- A point's addend to its run's fold (zero past the grid, where it is never used). -/
def addend (c : Dev nD) (n : ℕ) : S32x512.Idx → EReal := fun i =>
  if h : n < cfg1.N then prod (iblk1 V c 1 ⟨n, h⟩) (iblk1 V c 0 ⟨n, h⟩) i else 0

/-- A whole run's fold at an entry: zero plus the run's 4 addends. -/
theorem fold_apply (c : Dev nD) (q : ℕ) (h : 4 * q + 3 < cfg1.N) (i : S32x512.Idx) :
    Pipeline.accAt (reset V c) (step V c) (4 * q) 3 h i
      = (k1_pay1 (F := Ideal)) i + ∑ s ∈ Finset.range 4, addend V c (4 * q + s) i :=
  Pipeline.accAt_add_apply (reset V c) (step V c) (k1_pay1 (F := Ideal)) (addend V c) (4 * q) 3
    (fun hb i => by
      unfold reset addend
      rw [pay_eq, dif_pos hb]; rfl)
    (fun n hn acc i _ _ => by
      unfold step addend
      rw [pay_eq, dif_pos hn]; rfl)
    3 (Nat.le_refl _) h i

/-- THE OUTPUT ARRAY AT AN ENTRY: the transposed aggregate `∑ₖ x[k, a] · G[j, k]`. -/
theorem G_apply (c : Dev nD) (X : Mat 4096 32) (Gm : Mat 8192 4096) (hX : V c main_call0_v0 = X) (hG : V c main_arg4 = Gm)
    (a : Fin 32) (j : Fin 8192) :
    G V c (ix2 a j) = ∑ k : Fin 4096, X (ix2 k a) * Gm (ix2 j k) := by
  have hN : cfg1.N = 64 := N_1
  have hN' : grid1.N = 64 := N_1
  have hj : j.val < 8192 := j.isLt
  have hrun : runOf (ix2 a j : S32x8192.Idx) = j.val / 512 := rfl
  have hq : 4 * (j.val / 512) + 3 < cfg1.N := by omega
  have key : Pipeline.accAt (reset V c) (step V c) (4 * (j.val / 512)) 3 hq
        (ix2 (⟨a.val % 32, Nat.mod_lt _ (by decide)⟩ : Fin 32) (⟨j.val % 512, Nat.mod_lt _ (by decide)⟩ : Fin 512))
      = ∑ k : Fin 4096, X (ix2 k a) * Gm (ix2 j k) := by
    rw [fold_apply V c (j.val / 512) hq, zero_apply, zero_add]
    rw [show (∑ k : Fin 4096, X (ix2 k a) * Gm (ix2 j k))
        = ∑ k : Fin (4 * 1024), X (ix2 (⟨k.val, k.isLt⟩ : Fin 4096) a) * Gm (ix2 j (⟨k.val, k.isLt⟩ : Fin 4096)) from rfl,
      Cert.Lib.BlockSum.sum_blocks 4 1024, Finset.sum_range]
    refine Finset.sum_congr rfl fun s _ => ?_
    have hs : s.val < 4 := s.isLt
    have hlt : 4 * (j.val / 512) + s.val < cfg1.N := by omega
    unfold addend
    rw [dif_pos hlt, prod_apply]
    refine Finset.sum_congr rfl fun kk _ => ?_
    have hkk : kk.val < 1024 := kk.isLt
    have hmod : (4 * (j.val / 512) + s.val) % 4 = s.val := by omega
    have hdiv : (4 * (j.val / 512) + s.val) / 4 = j.val / 512 := by omega
    rw [xblk_apply V c X hX ⟨4 * (j.val / 512) + s.val, hlt⟩ kk _ (⟨s.val * 1024 + kk.val, by omega⟩ : Fin 4096)
        (by show s.val * 1024 + kk.val = 1024 * ((4 * (j.val / 512) + s.val) % 4) + kk.val; rw [hmod]; omega),
      gblk_apply V c Gm hG ⟨4 * (j.val / 512) + s.val, hlt⟩ _ kk j (⟨s.val * 1024 + kk.val, by omega⟩ : Fin 4096)
        (by show j.val = 512 * ((4 * (j.val / 512) + s.val) / 4) + j.val % 512; rw [hdiv]; omega)
        (by show s.val * 1024 + kk.val = 1024 * ((4 * (j.val / 512) + s.val) % 4) + kk.val; rw [hmod]; omega)]
    have ha : (⟨a.val % 32, Nat.mod_lt _ (by decide)⟩ : Fin 32) = a := Fin.ext (Nat.mod_eq_of_lt a.isLt)
    rw [ha]
  have hloc : locOf (ix2 a j : S32x8192.Idx) = ix2 (⟨a.val % 32, Nat.mod_lt _ (by decide)⟩ : Fin 32) (⟨j.val % 512, Nat.mod_lt _ (by decide)⟩ : Fin 512) := by
    funext b; apply Fin.ext
    match b with
    | ⟨0, _⟩ => rfl
    | ⟨1, _⟩ => rfl
  have e : ∀ (b b' : ℕ) (hb : b = b') (h : b + 3 < cfg1.N) (h' : b' + 3 < cfg1.N),
      Pipeline.accAt (reset V c) (step V c) b 3 h = Pipeline.accAt (reset V c) (step V c) b' 3 h' := by
    intro b b' hb h h'; subst hb; rfl
  unfold G
  rw [dif_pos (by rw [hrun]; exact hq), hloc,
    e (4 * runOf (ix2 a j : S32x8192.Idx)) (4 * (j.val / 512)) (by rw [hrun]) _ hq]
  exact key

/-- So the region leaves the transposed aggregate in its output array. -/
theorem final_apply (c : Dev nD) (X : Mat 4096 32) (Gm : Mat 8192 4096) (hX : V c main_call0_v0 = X) (hG : V c main_arg4 = Gm)
    (a : Fin 32) (j : Fin 8192) :
    (dat1 V c).arrAt 2 cfg1.N (ix2 a j) = ∑ k : Fin 4096, X (ix2 k a) * Gm (ix2 j k) := by
  rw [final]; exact G_apply V c X Gm hX hG a j

end Cert.KernelIdeal.Fold1

end
-- ==== Proof.Fold2.lean ====
/-
  Region 2: one accumulated transposed product.

  The grid is 16 × 8: row block `q` of the operator (512 of its 8192 rows) against column block `s` (1024 of its
  8192 columns). Point `8·q + s` multiplies the 1024 × 32 block `s` of the features, transposed, into the
  512 × 1024 block `(q, s)` of the operator, transposed, and adds the 32 × 512 product into the output block
  `(0, q)`, which it first clears when `s = 0`; the block is written back after `s = 7`. So what the output array
  ends holding at `(c, 512·q + j)` is the fold over the run `8·q … 8·q + 7` of the block products, at `(c, j)`:
  stated here for any float instance as the library's fold over a run (`accAt`), by recursion on the offset in
  the run and never on the size of the grid.
-/
import proofs.«178574_g19696720019795_cont_8to1_1339_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Fold2

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At the first point of a run the body clears the output block, reads it back and adds the block product: the
    buffer's earlier contents do not enter. -/
theorem out_A_eq (c : Dev nD) (i : grid2.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : cond2_0 i) (x0 : Vec F S1024x32 .bf16) (x1 : Vec F S512x1024 .f32) :
    out2_A_2 c i arg2 harg2 arg3 harg3 arg4 harg4 hc0 x0 x1 = k2_pay2 x1 (k2_pay1 (F := F)) x0 := by
  unfold out2_A_2
  rw [View.read_writes_eq_canon _ _ _ (cover2_A_2 c i arg2 harg2 arg3 harg3 arg4 harg4 hc0 x0 x1)]
  unfold kernelRun2_A
  dsimp only
  try sl_unfold_words
  rw [View.canon_cons_unit_zero (S := S32x512) hz, View.readCov_unit_zero (S := S32x512) _ hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- At every later point of a run the body adds the block product to what the point before left. -/
theorem out_B_eq (c : Dev nD) (i : grid2.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : ¬cond2_0 i) (x0 : Vec F S1024x32 .bf16) (x1 : Vec F S512x1024 .f32)
    (xo2 : Vec F S32x512 .f32) :
    out2_B_2 c i arg2 harg2 arg3 harg3 arg4 harg4 hc0 x0 x1 xo2 = k2_pay2 x1 xo2 x0 := by
  unfold out2_B_2
  rw [View.read_writes_eq_canon _ _ _ (cover2_B_2 c i arg2 harg2 arg3 harg3 arg4 harg4 hc0 x0 x1 xo2)]
  unfold kernelRun2_B
  dsimp only
  try sl_unfold_words
  rw [View.canon_unit_zero hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- What a run's first point leaves in the output block: zero plus that point's block product. -/
def reset (c : Dev nD) (n : ℕ) (h : n < cfg2.N) : Vec F S32x512 .f32 :=
  k2_pay2 (iblk2 V c 1 ⟨n, h⟩) (k2_pay1 (F := F)) (iblk2 V c 0 ⟨n, h⟩)

/-- What a later point leaves: the contents the point before left plus this point's block product. -/
def step (c : Dev nD) (n : ℕ) (h : n < cfg2.N) (acc : Vec F S32x512 .f32) : Vec F S32x512 .f32 :=
  k2_pay2 (iblk2 V c 1 ⟨n, h⟩) acc (iblk2 V c 0 ⟨n, h⟩)

/-- The output block after point `t` is the fold of its run up to `t`. -/
theorem outsAt_eq (c : Dev nD) (t : Fin cfg2.N) :
    outsAt2 V c t.val t.isLt = Pipeline.accAt (reset V c) (step V c) (8 * (t.val / 8)) (t.val % 8)
      (by have h1 := t.isLt; have h2 := Nat.div_add_mod t.val 8; omega) :=
  Pipeline.eq_accAt_of_mod (fun n h => outsAt2 V c n h) 8 (reset V c) (step V c)
    (fun n h hn => by rw [outsAt2_A V c ⟨n, h⟩ (by (try dsimp only); omega)]; exact out_A_eq ..)
    (fun n h hn => by rw [outsAt2_B V c ⟨n + 1, h⟩ (by (try dsimp only); omega)]; exact out_B_eq ..)
    (by decide) t.val t.isLt _

/-- The run whose block holds column `i 1` of the output array, and the index's place in that block. -/
abbrev runOf (i : S32x8192.Idx) : ℕ := (i 1).val / 512
abbrev locOf (i : S32x8192.Idx) : S32x512.Idx := fun a => match a with
  | ⟨0, _⟩ => ⟨(i 0).val % 32, Nat.mod_lt _ (by decide)⟩
  | ⟨1, _⟩ => ⟨(i 1).val % 512, Nat.mod_lt _ (by decide)⟩

/-- What the output array ends holding: at each index the whole fold of the run whose block holds it. -/
def G (c : Dev nD) : Buf (Elt F) ((c : Thread nD τ).loc main_call0_v5) := fun i =>
  if h : 8 * runOf i + 7 < cfg2.N then
    (Pipeline.accAt (reset V c) (step V c) (8 * runOf i) 7 h) (locOf i)
  else V c (Pipeline.arrRef spec2 2) i

/-- The output's block index at a point: row 0, column the point's run. -/
theorem idx_facts : ∀ t : Fin cfg2.N, win2_2.index t (0 : Fin 2) = 0 ∧ win2_2.index t (1 : Fin 2) = t.val / 8 :=
  (by decide +kernel : ∀ t : Fin grid2.N, _)

/-- What a point that writes back writes is its block of `G`: the whole run's fold. -/
theorem flushed_eq (c : Dev nD) (t : Fin cfg2.N) (hf : (cfg2.win 2).flush t = true) :
    (dat2 V c).flushed 2 t = ((cfg2.win 2).blk t).view.read (Elt F) (G V c) := by
  show (cfg2.win 2).cut (grid2.coords t) ((dat2 V c).after 2 t) = _
  rw [after2_2, outsAt_eq]
  have hm : t.val % 8 = 7 := (flush2_2 t).mp hf
  obtain ⟨e0, e1⟩ := idx_facts t
  funext y
  have hy0 : (y 0).val < 32 := (y 0).isLt
  have hy1 : (y 1).val < 512 := (y 1).isLt
  have hb0 : (((cfg2.win 2).blk t).view.emb y 0).val = win2_2.index t (0 : Fin 2) * 32 + 1 * (y 0).val := rfl
  have hb1 : (((cfg2.win 2).blk t).view.emb y 1).val = win2_2.index t (1 : Fin 2) * 512 + 1 * (y 1).val := rfl
  have hr : runOf (((cfg2.win 2).blk t).view.emb y) = t.val / 8 := by
    show (((cfg2.win 2).blk t).view.emb y 1).val / 512 = _
    rw [hb1, e1]; omega
  have hl : locOf (((cfg2.win 2).blk t).view.emb y) = (cfg2.win 2).xinj (grid2.coords t) y := by
    funext a; apply Fin.ext
    match a with
    | ⟨0, _⟩ => show (((cfg2.win 2).blk t).view.emb y 0).val % 32 = (y 0).val; rw [hb0, e0]; omega
    | ⟨1, _⟩ => show (((cfg2.win 2).blk t).view.emb y 1).val % 512 = (y 1).val; rw [hb1]; omega
  show (Pipeline.accAt (reset V c) (step V c) (8 * (t.val / 8)) (t.val % 8) _) ((cfg2.win 2).xinj (grid2.coords t) y)
    = G V c (((cfg2.win 2).blk t).view.emb y)
  unfold G
  rw [dif_pos (by rw [hr]; have := t.isLt; have := Nat.div_add_mod t.val 8; omega), hl]
  have e : ∀ (b j : ℕ) (h : b + j < cfg2.N) (b' j' : ℕ) (h' : b' + j' < cfg2.N), b = b' → j = j' →
      Pipeline.accAt (reset V c) (step V c) b j h = Pipeline.accAt (reset V c) (step V c) b' j' h' := by
    intro b j h b' j' h' hb hj; subst hb; subst hj; rfl
  have hb : 8 * (t.val / 8) = 8 * runOf (((cfg2.win 2).blk t).view.emb y) := by rw [hr]
  exact congrFun (e _ _ _ _ _ _ hb hm) _

/-- An index of the array is in a point's block iff each coordinate is in the block's range on its axis. -/
theorem mem_blk (t : Fin cfg2.N) (i : S32x8192.Idx) :
    i ∈ ((cfg2.win 2).blk t).view.set ↔ ∀ a : Fin 2, win2_2.index t a * S32x512.size a ≤ (i a).val
      ∧ (i a).val < win2_2.index t a * S32x512.size a + S32x512.size a := by
  show i ∈ ((View.whole main_call0_v5).slice (win2_2.rect t)).set ↔ _
  rw [View.set_slice_whole, Rect.mem_set_unit]
  exact Iff.rfl

/-- Every index of the output array lies in the block of the last point of its run, which writes back. -/
theorem cover (i : S32x8192.Idx) :
    ∃ t : Fin cfg2.N, (cfg2.win 2).flush t = true ∧ i ∈ ((cfg2.win 2).blk t).view.set := by
  have hi0 : (i 0).val < 32 := (i 0).isLt
  have hi1 : (i 1).val < 8192 := (i 1).isLt
  have hN : cfg2.N = 128 := N_2
  have hN' : grid2.N = 128 := N_2
  refine ⟨⟨8 * ((i 1).val / 512) + 7, by omega⟩, (flush2_2 _).mpr (by (try dsimp only); omega), ?_⟩
  rw [mem_blk]
  obtain ⟨e0, e1⟩ := idx_facts ⟨8 * ((i 1).val / 512) + 7, by omega⟩
  have e1' : win2_2.index ⟨8 * ((i 1).val / 512) + 7, by omega⟩ (1 : Fin 2) = (i 1).val / 512 := by
    rw [e1]; (try dsimp only); omega
  intro a
  match a with
  | ⟨0, _⟩ =>
    show win2_2.index _ (0 : Fin 2) * 32 ≤ (i 0).val ∧ (i 0).val < win2_2.index _ (0 : Fin 2) * 32 + 32
    rw [e0]; omega
  | ⟨1, _⟩ =>
    show win2_2.index _ (1 : Fin 2) * 512 ≤ (i 1).val ∧ (i 1).val < win2_2.index _ (1 : Fin 2) * 512 + 512
    rw [e1']; omega

/-- The output array after the region: `G`. -/
theorem final (c : Dev nD) : (dat2 V c).arrAt 2 cfg2.N = G V c :=
  (dat2 V c).arrAt_eq_of_cover 2 _ (fun t hf => flushed_eq V c t hf) (cover)

end Cert.KernelIdeal.Fold2

end
-- ==== Proof.Read2.lean ====
/-
  Region 2, read at an entry on the extended reals.

  A block product at `(c, j)` is `∑ₖₖ x[kk, c] · g[j, kk]` over the 1024 rows of the feature block; the blocks a
  point reads are rows `1024·s …` of the features and rows `512·q …`, columns `1024·s …` of the operator; a run's fold
  is zero plus the sum of its 8 block products; and 8 blocks of 1024 consecutive indices are the 8192 indices of the
  contracted axis. So the output array ends holding `∑ₖ x[k, c] · G[j, k]` at `(c, j)`: the transposed aggregate.
  Only associativity and commutativity of the sum are used, so no entry needs to be finite here.
-/
import proofs.«178574_g19696720019795_cont_8to1_1339_3_alg».proof.Proof.Fold2
import proofs.«178574_g19696720019795_cont_8to1_1339_3_alg».proof.Proof.LibCrossAxesDot
import proofs.«178574_g19696720019795_cont_8to1_1339_3_alg».proof.Proof.LibBlockSum
import proofs.«178574_g19696720019795_cont_8to1_1339_3_alg».proof.Proof.Message

set_option maxRecDepth 16384

noncomputable section

open scoped BigOperators
open Idealize.ShloMosaic Idealize.ShloMosaic.TcCoe Idealize.SL.Sem Idealize.ShloMosaic.ValueIdx

namespace Cert.KernelIdeal.Fold2

open Cert.KernelIdeal Cert.KernelIdeal.Gen
open Cert.Message (Mat)

variable (V : (c : Dev nD) → (b : Ref sig .tc) → Buf (Elt Ideal) ((c : Thread nD τ).loc b))

/-- The block product, by itself: the transposed feature block against the transposed operator block. -/
def prod (v3 : Vec Ideal S512x1024 .f32) (v7 : Vec Ideal S1024x32 .bf16) : FVec Ideal S32x512 .f32 :=
  have v4 : FVec Ideal S512x1024 .bf16 := truncf .bf16 v3 bitsLt_bf16_f32
  have v8 : FVec Ideal S1024x32 .bf16 := shapeCast S1024x32 v7 shapeCasts_S1024x32_S1024x32
  have cst : FVec Ideal S32x512 .f32 := constant S32x512 .f32 0x00000000#32
  matmul dot_S1024x32_S512x1024_S32x512_0_1_1_0_n_n none v8 v4 cst

/-- A point's payload is the contents it found plus the block product. -/
theorem pay_eq (g : Vec Ideal S512x1024 .f32) (acc : Vec Ideal S32x512 .f32) (x : Vec Ideal S1024x32 .bf16) :
    k2_pay2 g acc x = addf acc (prod g x) := by
  unfold k2_pay2 prod
  simp only [shapeCast_self]

/-- The block product at `(a, j)`. -/
theorem prod_apply (g : Vec Ideal S512x1024 .f32) (x : Vec Ideal S1024x32 .bf16) (a : Fin 32) (j : Fin 512) :
    prod g x (ix2 a j) = ∑ kk : Fin 1024, x (ix2 kk a) * g (ix2 j kk) := by
  have hd : dot_S1024x32_S512x1024_S32x512_0_1_1_0_n_n
      = Cert.Lib.CrossAxesDot.crossAxes 1024 32 512 dot_S1024x32_S512x1024_S32x512_0_1_1_0_n_n_wf := rfl
  unfold prod
  simp only [shapeCast_self]
  rw [hd]
  exact Cert.Lib.CrossAxesDot.matmul_zero_apply _ none x (truncf .bf16 g bitsLt_bf16_f32) a j

/-- The cleared block holds zero. -/
theorem zero_apply (i : S32x512.Idx) : (k2_pay1 (F := Ideal)) i = 0 := by
  unfold k2_pay1
  show Ideal.ofBits .f32 0x00000000#32 = 0
  exact Ideal.ofBits_zero_f32

/-- The block indices of the two input windows at a point: features block `s`; operator block `(q, s)`. -/
theorem idx_in : ∀ t : Fin cfg2.N, win2_0.index t (0 : Fin 2) = t.val % 8 ∧ win2_0.index t (1 : Fin 2) = 0
    ∧ win2_1.index t (0 : Fin 2) = t.val / 8 ∧ win2_1.index t (1 : Fin 2) = t.val % 8 :=
  (by decide +kernel : ∀ t : Fin grid2.N, _)

/-- The feature block at a point, read at `(kk, a)`: row `1024·s + kk` of the features. -/
theorem xblk_apply (c : Dev nD) (X : Mat 8192 32) (hX : V c main_call0_v1 = X) (t : Fin cfg2.N) (kk : Fin 1024) (a : Fin 32) (r : Fin 8192)
    (hr : r.val = 1024 * (t.val % 8) + kk.val) :
    (iblk2 V c 0 t : Vec Ideal S1024x32 .bf16) (ix2 kk a) = X (ix2 r a) := by
  subst hX
  obtain ⟨e0, e1, -, -⟩ := idx_in t
  unfold iblk2
  rw [View.read_apply]
  show V c main_call0_v1 _ = V c main_call0_v1 _
  refine congrArg (V c main_call0_v1) ?_
  funext b; apply Fin.ext
  match b with
  | ⟨0, _⟩ => show win2_0.index t 0 * 1024 + 1 * kk.val = r.val; rw [e0, hr]; omega
  | ⟨1, _⟩ => show win2_0.index t 1 * 32 + 1 * a.val = a.val; rw [e1]; omega

/-- The operator block at a point, read at `(j, kk)`: row `512·q + j`, column `1024·s + kk` of the operator. -/
theorem gblk_apply (c : Dev nD) (Gm : Mat 8192 8192) (hG : V c main_arg5 = Gm) (t : Fin cfg2.N) (j : Fin 512) (kk : Fin 1024) (row : Fin 8192) (r : Fin 8192)
    (hrow : row.val = 512 * (t.val / 8) + j.val) (hr : r.val = 1024 * (t.val % 8) + kk.val) :
    (iblk2 V c 1 t : Vec Ideal S512x1024 .f32) (ix2 j kk) = Gm (ix2 row r) := by
  subst hG
  obtain ⟨-, -, e2, e3⟩ := idx_in t
  unfold iblk2
  rw [View.read_apply]
  show V c main_arg5 _ = V c main_arg5 _
  refine congrArg (V c main_arg5) ?_
  funext b; apply Fin.ext
  match b with
  | ⟨0, _⟩ => show win2_1.index t 0 * 512 + 1 * j.val = row.val; rw [e2, hrow]; omega
  | ⟨1, _⟩ => show win2_1.index t 1 * 1024 + 1 * kk.val = r.val; rw [e3, hr]; omega

/-- A point's addend to its run's fold (zero past the grid, where it is never used). -/
def addend (c : Dev nD) (n : ℕ) : S32x512.Idx → EReal := fun i =>
  if h : n < cfg2.N then prod (iblk2 V c 1 ⟨n, h⟩) (iblk2 V c 0 ⟨n, h⟩) i else 0

/-- A whole run's fold at an entry: zero plus the run's 8 addends. -/
theorem fold_apply (c : Dev nD) (q : ℕ) (h : 8 * q + 7 < cfg2.N) (i : S32x512.Idx) :
    Pipeline.accAt (reset V c) (step V c) (8 * q) 7 h i
      = (k2_pay1 (F := Ideal)) i + ∑ s ∈ Finset.range 8, addend V c (8 * q + s) i :=
  Pipeline.accAt_add_apply (reset V c) (step V c) (k2_pay1 (F := Ideal)) (addend V c) (8 * q) 7
    (fun hb i => by
      unfold reset addend
      rw [pay_eq, dif_pos hb]; rfl)
    (fun n hn acc i _ _ => by
      unfold step addend
      rw [pay_eq, dif_pos hn]; rfl)
    7 (Nat.le_refl _) h i

/-- THE OUTPUT ARRAY AT AN ENTRY: the transposed aggregate `∑ₖ x[k, a] · G[j, k]`. -/
theorem G_apply (c : Dev nD) (X : Mat 8192 32) (Gm : Mat 8192 8192) (hX : V c main_call0_v1 = X) (hG : V c main_arg5 = Gm)
    (a : Fin 32) (j : Fin 8192) :
    G V c (ix2 a j) = ∑ k : Fin 8192, X (ix2 k a) * Gm (ix2 j k) := by
  have hN : cfg2.N = 128 := N_2
  have hN' : grid2.N = 128 := N_2
  have hj : j.val < 8192 := j.isLt
  have hrun : runOf (ix2 a j : S32x8192.Idx) = j.val / 512 := rfl
  have hq : 8 * (j.val / 512) + 7 < cfg2.N := by omega
  have key : Pipeline.accAt (reset V c) (step V c) (8 * (j.val / 512)) 7 hq
        (ix2 (⟨a.val % 32, Nat.mod_lt _ (by decide)⟩ : Fin 32) (⟨j.val % 512, Nat.mod_lt _ (by decide)⟩ : Fin 512))
      = ∑ k : Fin 8192, X (ix2 k a) * Gm (ix2 j k) := by
    rw [fold_apply V c (j.val / 512) hq, zero_apply, zero_add]
    rw [show (∑ k : Fin 8192, X (ix2 k a) * Gm (ix2 j k))
        = ∑ k : Fin (8 * 1024), X (ix2 (⟨k.val, k.isLt⟩ : Fin 8192) a) * Gm (ix2 j (⟨k.val, k.isLt⟩ : Fin 8192)) from rfl,
      Cert.Lib.BlockSum.sum_blocks 8 1024, Finset.sum_range]
    refine Finset.sum_congr rfl fun s _ => ?_
    have hs : s.val < 8 := s.isLt
    have hlt : 8 * (j.val / 512) + s.val < cfg2.N := by omega
    unfold addend
    rw [dif_pos hlt, prod_apply]
    refine Finset.sum_congr rfl fun kk _ => ?_
    have hkk : kk.val < 1024 := kk.isLt
    have hmod : (8 * (j.val / 512) + s.val) % 8 = s.val := by omega
    have hdiv : (8 * (j.val / 512) + s.val) / 8 = j.val / 512 := by omega
    rw [xblk_apply V c X hX ⟨8 * (j.val / 512) + s.val, hlt⟩ kk _ (⟨s.val * 1024 + kk.val, by omega⟩ : Fin 8192)
        (by show s.val * 1024 + kk.val = 1024 * ((8 * (j.val / 512) + s.val) % 8) + kk.val; rw [hmod]; omega),
      gblk_apply V c Gm hG ⟨8 * (j.val / 512) + s.val, hlt⟩ _ kk j (⟨s.val * 1024 + kk.val, by omega⟩ : Fin 8192)
        (by show j.val = 512 * ((8 * (j.val / 512) + s.val) / 8) + j.val % 512; rw [hdiv]; omega)
        (by show s.val * 1024 + kk.val = 1024 * ((8 * (j.val / 512) + s.val) % 8) + kk.val; rw [hmod]; omega)]
    have ha : (⟨a.val % 32, Nat.mod_lt _ (by decide)⟩ : Fin 32) = a := Fin.ext (Nat.mod_eq_of_lt a.isLt)
    rw [ha]
  have hloc : locOf (ix2 a j : S32x8192.Idx) = ix2 (⟨a.val % 32, Nat.mod_lt _ (by decide)⟩ : Fin 32) (⟨j.val % 512, Nat.mod_lt _ (by decide)⟩ : Fin 512) := by
    funext b; apply Fin.ext
    match b with
    | ⟨0, _⟩ => rfl
    | ⟨1, _⟩ => rfl
  have e : ∀ (b b' : ℕ) (hb : b = b') (h : b + 7 < cfg2.N) (h' : b' + 7 < cfg2.N),
      Pipeline.accAt (reset V c) (step V c) b 7 h = Pipeline.accAt (reset V c) (step V c) b' 7 h' := by
    intro b b' hb h h'; subst hb; rfl
  unfold G
  rw [dif_pos (by rw [hrun]; exact hq), hloc,
    e (8 * runOf (ix2 a j : S32x8192.Idx)) (8 * (j.val / 512)) (by rw [hrun]) _ hq]
  exact key

/-- So the region leaves the transposed aggregate in its output array. -/
theorem final_apply (c : Dev nD) (X : Mat 8192 32) (Gm : Mat 8192 8192) (hX : V c main_call0_v1 = X) (hG : V c main_arg5 = Gm)
    (a : Fin 32) (j : Fin 8192) :
    (dat2 V c).arrAt 2 cfg2.N (ix2 a j) = ∑ k : Fin 8192, X (ix2 k a) * Gm (ix2 j k) := by
  rw [final]; exact G_apply V c X Gm hX hG a j

end Cert.KernelIdeal.Fold2

end
-- ==== Proof.Fold3.lean ====
/-
  Region 3: one accumulated transposed product.

  The grid is 8 × 8: row block `q` of the operator (512 of its 4096 rows) against column block `s` (1024 of its
  8192 columns). Point `8·q + s` multiplies the 1024 × 32 block `s` of the features, transposed, into the
  512 × 1024 block `(q, s)` of the operator, transposed, and adds the 32 × 512 product into the output block
  `(0, q)`, which it first clears when `s = 0`; the block is written back after `s = 7`. So what the output array
  ends holding at `(c, 512·q + j)` is the fold over the run `8·q … 8·q + 7` of the block products, at `(c, j)`:
  stated here for any float instance as the library's fold over a run (`accAt`), by recursion on the offset in
  the run and never on the size of the grid.
-/
import proofs.«178574_g19696720019795_cont_8to1_1339_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Fold3

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At the first point of a run the body clears the output block, reads it back and adds the block product: the
    buffer's earlier contents do not enter. -/
theorem out_A_eq (c : Dev nD) (i : grid3.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : cond3_0 i) (x0 : Vec F S1024x32 .bf16) (x1 : Vec F S512x1024 .f32) :
    out3_A_2 c i arg2 harg2 arg3 harg3 arg4 harg4 hc0 x0 x1 = k3_pay2 x1 (k3_pay1 (F := F)) x0 := by
  unfold out3_A_2
  rw [View.read_writes_eq_canon _ _ _ (cover3_A_2 c i arg2 harg2 arg3 harg3 arg4 harg4 hc0 x0 x1)]
  unfold kernelRun3_A
  dsimp only
  try sl_unfold_words
  rw [View.canon_cons_unit_zero (S := S32x512) hz, View.readCov_unit_zero (S := S32x512) _ hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- At every later point of a run the body adds the block product to what the point before left. -/
theorem out_B_eq (c : Dev nD) (i : grid3.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : ¬cond3_0 i) (x0 : Vec F S1024x32 .bf16) (x1 : Vec F S512x1024 .f32)
    (xo2 : Vec F S32x512 .f32) :
    out3_B_2 c i arg2 harg2 arg3 harg3 arg4 harg4 hc0 x0 x1 xo2 = k3_pay2 x1 xo2 x0 := by
  unfold out3_B_2
  rw [View.read_writes_eq_canon _ _ _ (cover3_B_2 c i arg2 harg2 arg3 harg3 arg4 harg4 hc0 x0 x1 xo2)]
  unfold kernelRun3_B
  dsimp only
  try sl_unfold_words
  rw [View.canon_unit_zero hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- What a run's first point leaves in the output block: zero plus that point's block product. -/
def reset (c : Dev nD) (n : ℕ) (h : n < cfg3.N) : Vec F S32x512 .f32 :=
  k3_pay2 (iblk3 V c 1 ⟨n, h⟩) (k3_pay1 (F := F)) (iblk3 V c 0 ⟨n, h⟩)

/-- What a later point leaves: the contents the point before left plus this point's block product. -/
def step (c : Dev nD) (n : ℕ) (h : n < cfg3.N) (acc : Vec F S32x512 .f32) : Vec F S32x512 .f32 :=
  k3_pay2 (iblk3 V c 1 ⟨n, h⟩) acc (iblk3 V c 0 ⟨n, h⟩)

/-- The output block after point `t` is the fold of its run up to `t`. -/
theorem outsAt_eq (c : Dev nD) (t : Fin cfg3.N) :
    outsAt3 V c t.val t.isLt = Pipeline.accAt (reset V c) (step V c) (8 * (t.val / 8)) (t.val % 8)
      (by have h1 := t.isLt; have h2 := Nat.div_add_mod t.val 8; omega) :=
  Pipeline.eq_accAt_of_mod (fun n h => outsAt3 V c n h) 8 (reset V c) (step V c)
    (fun n h hn => by rw [outsAt3_A V c ⟨n, h⟩ (by (try dsimp only); omega)]; exact out_A_eq ..)
    (fun n h hn => by rw [outsAt3_B V c ⟨n + 1, h⟩ (by (try dsimp only); omega)]; exact out_B_eq ..)
    (by decide) t.val t.isLt _

/-- The run whose block holds column `i 1` of the output array, and the index's place in that block. -/
abbrev runOf (i : S32x4096.Idx) : ℕ := (i 1).val / 512
abbrev locOf (i : S32x4096.Idx) : S32x512.Idx := fun a => match a with
  | ⟨0, _⟩ => ⟨(i 0).val % 32, Nat.mod_lt _ (by decide)⟩
  | ⟨1, _⟩ => ⟨(i 1).val % 512, Nat.mod_lt _ (by decide)⟩

/-- What the output array ends holding: at each index the whole fold of the run whose block holds it. -/
def G (c : Dev nD) : Buf (Elt F) ((c : Thread nD τ).loc main_call0_v6) := fun i =>
  if h : 8 * runOf i + 7 < cfg3.N then
    (Pipeline.accAt (reset V c) (step V c) (8 * runOf i) 7 h) (locOf i)
  else V c (Pipeline.arrRef spec3 2) i

/-- The output's block index at a point: row 0, column the point's run. -/
theorem idx_facts : ∀ t : Fin cfg3.N, win3_2.index t (0 : Fin 2) = 0 ∧ win3_2.index t (1 : Fin 2) = t.val / 8 :=
  (by decide +kernel : ∀ t : Fin grid3.N, _)

/-- What a point that writes back writes is its block of `G`: the whole run's fold. -/
theorem flushed_eq (c : Dev nD) (t : Fin cfg3.N) (hf : (cfg3.win 2).flush t = true) :
    (dat3 V c).flushed 2 t = ((cfg3.win 2).blk t).view.read (Elt F) (G V c) := by
  show (cfg3.win 2).cut (grid3.coords t) ((dat3 V c).after 2 t) = _
  rw [after3_2, outsAt_eq]
  have hm : t.val % 8 = 7 := (flush3_2 t).mp hf
  obtain ⟨e0, e1⟩ := idx_facts t
  funext y
  have hy0 : (y 0).val < 32 := (y 0).isLt
  have hy1 : (y 1).val < 512 := (y 1).isLt
  have hb0 : (((cfg3.win 2).blk t).view.emb y 0).val = win3_2.index t (0 : Fin 2) * 32 + 1 * (y 0).val := rfl
  have hb1 : (((cfg3.win 2).blk t).view.emb y 1).val = win3_2.index t (1 : Fin 2) * 512 + 1 * (y 1).val := rfl
  have hr : runOf (((cfg3.win 2).blk t).view.emb y) = t.val / 8 := by
    show (((cfg3.win 2).blk t).view.emb y 1).val / 512 = _
    rw [hb1, e1]; omega
  have hl : locOf (((cfg3.win 2).blk t).view.emb y) = (cfg3.win 2).xinj (grid3.coords t) y := by
    funext a; apply Fin.ext
    match a with
    | ⟨0, _⟩ => show (((cfg3.win 2).blk t).view.emb y 0).val % 32 = (y 0).val; rw [hb0, e0]; omega
    | ⟨1, _⟩ => show (((cfg3.win 2).blk t).view.emb y 1).val % 512 = (y 1).val; rw [hb1]; omega
  show (Pipeline.accAt (reset V c) (step V c) (8 * (t.val / 8)) (t.val % 8) _) ((cfg3.win 2).xinj (grid3.coords t) y)
    = G V c (((cfg3.win 2).blk t).view.emb y)
  unfold G
  rw [dif_pos (by rw [hr]; have := t.isLt; have := Nat.div_add_mod t.val 8; omega), hl]
  have e : ∀ (b j : ℕ) (h : b + j < cfg3.N) (b' j' : ℕ) (h' : b' + j' < cfg3.N), b = b' → j = j' →
      Pipeline.accAt (reset V c) (step V c) b j h = Pipeline.accAt (reset V c) (step V c) b' j' h' := by
    intro b j h b' j' h' hb hj; subst hb; subst hj; rfl
  have hb : 8 * (t.val / 8) = 8 * runOf (((cfg3.win 2).blk t).view.emb y) := by rw [hr]
  exact congrFun (e _ _ _ _ _ _ hb hm) _

/-- An index of the array is in a point's block iff each coordinate is in the block's range on its axis. -/
theorem mem_blk (t : Fin cfg3.N) (i : S32x4096.Idx) :
    i ∈ ((cfg3.win 2).blk t).view.set ↔ ∀ a : Fin 2, win3_2.index t a * S32x512.size a ≤ (i a).val
      ∧ (i a).val < win3_2.index t a * S32x512.size a + S32x512.size a := by
  show i ∈ ((View.whole main_call0_v6).slice (win3_2.rect t)).set ↔ _
  rw [View.set_slice_whole, Rect.mem_set_unit]
  exact Iff.rfl

/-- Every index of the output array lies in the block of the last point of its run, which writes back. -/
theorem cover (i : S32x4096.Idx) :
    ∃ t : Fin cfg3.N, (cfg3.win 2).flush t = true ∧ i ∈ ((cfg3.win 2).blk t).view.set := by
  have hi0 : (i 0).val < 32 := (i 0).isLt
  have hi1 : (i 1).val < 4096 := (i 1).isLt
  have hN : cfg3.N = 64 := N_3
  have hN' : grid3.N = 64 := N_3
  refine ⟨⟨8 * ((i 1).val / 512) + 7, by omega⟩, (flush3_2 _).mpr (by (try dsimp only); omega), ?_⟩
  rw [mem_blk]
  obtain ⟨e0, e1⟩ := idx_facts ⟨8 * ((i 1).val / 512) + 7, by omega⟩
  have e1' : win3_2.index ⟨8 * ((i 1).val / 512) + 7, by omega⟩ (1 : Fin 2) = (i 1).val / 512 := by
    rw [e1]; (try dsimp only); omega
  intro a
  match a with
  | ⟨0, _⟩ =>
    show win3_2.index _ (0 : Fin 2) * 32 ≤ (i 0).val ∧ (i 0).val < win3_2.index _ (0 : Fin 2) * 32 + 32
    rw [e0]; omega
  | ⟨1, _⟩ =>
    show win3_2.index _ (1 : Fin 2) * 512 ≤ (i 1).val ∧ (i 1).val < win3_2.index _ (1 : Fin 2) * 512 + 512
    rw [e1']; omega

/-- The output array after the region: `G`. -/
theorem final (c : Dev nD) : (dat3 V c).arrAt 2 cfg3.N = G V c :=
  (dat3 V c).arrAt_eq_of_cover 2 _ (fun t hf => flushed_eq V c t hf) (cover)

end Cert.KernelIdeal.Fold3

end
-- ==== Proof.Read3.lean ====
/-
  Region 3, read at an entry on the extended reals.

  A block product at `(c, j)` is `∑ₖₖ x[kk, c] · g[j, kk]` over the 1024 rows of the feature block; the blocks a
  point reads are rows `1024·s …` of the features and rows `512·q …`, columns `1024·s …` of the operator; a run's fold
  is zero plus the sum of its 8 block products; and 8 blocks of 1024 consecutive indices are the 8192 indices of the
  contracted axis. So the output array ends holding `∑ₖ x[k, c] · G[j, k]` at `(c, j)`: the transposed aggregate.
  Only associativity and commutativity of the sum are used, so no entry needs to be finite here.
-/
import proofs.«178574_g19696720019795_cont_8to1_1339_3_alg».proof.Proof.Fold3
import proofs.«178574_g19696720019795_cont_8to1_1339_3_alg».proof.Proof.LibCrossAxesDot
import proofs.«178574_g19696720019795_cont_8to1_1339_3_alg».proof.Proof.LibBlockSum
import proofs.«178574_g19696720019795_cont_8to1_1339_3_alg».proof.Proof.Message

set_option maxRecDepth 16384

noncomputable section

open scoped BigOperators
open Idealize.ShloMosaic Idealize.ShloMosaic.TcCoe Idealize.SL.Sem Idealize.ShloMosaic.ValueIdx

namespace Cert.KernelIdeal.Fold3

open Cert.KernelIdeal Cert.KernelIdeal.Gen
open Cert.Message (Mat)

variable (V : (c : Dev nD) → (b : Ref sig .tc) → Buf (Elt Ideal) ((c : Thread nD τ).loc b))

/-- The block product, by itself: the transposed feature block against the transposed operator block. -/
def prod (v3 : Vec Ideal S512x1024 .f32) (v7 : Vec Ideal S1024x32 .bf16) : FVec Ideal S32x512 .f32 :=
  have v4 : FVec Ideal S512x1024 .bf16 := truncf .bf16 v3 bitsLt_bf16_f32
  have v8 : FVec Ideal S1024x32 .bf16 := shapeCast S1024x32 v7 shapeCasts_S1024x32_S1024x32
  have cst : FVec Ideal S32x512 .f32 := constant S32x512 .f32 0x00000000#32
  matmul dot_S1024x32_S512x1024_S32x512_0_1_1_0_n_n none v8 v4 cst

/-- A point's payload is the contents it found plus the block product. -/
theorem pay_eq (g : Vec Ideal S512x1024 .f32) (acc : Vec Ideal S32x512 .f32) (x : Vec Ideal S1024x32 .bf16) :
    k3_pay2 g acc x = addf acc (prod g x) := by
  unfold k3_pay2 prod
  simp only [shapeCast_self]

/-- The block product at `(a, j)`. -/
theorem prod_apply (g : Vec Ideal S512x1024 .f32) (x : Vec Ideal S1024x32 .bf16) (a : Fin 32) (j : Fin 512) :
    prod g x (ix2 a j) = ∑ kk : Fin 1024, x (ix2 kk a) * g (ix2 j kk) := by
  have hd : dot_S1024x32_S512x1024_S32x512_0_1_1_0_n_n
      = Cert.Lib.CrossAxesDot.crossAxes 1024 32 512 dot_S1024x32_S512x1024_S32x512_0_1_1_0_n_n_wf := rfl
  unfold prod
  simp only [shapeCast_self]
  rw [hd]
  exact Cert.Lib.CrossAxesDot.matmul_zero_apply _ none x (truncf .bf16 g bitsLt_bf16_f32) a j

/-- The cleared block holds zero. -/
theorem zero_apply (i : S32x512.Idx) : (k3_pay1 (F := Ideal)) i = 0 := by
  unfold k3_pay1
  show Ideal.ofBits .f32 0x00000000#32 = 0
  exact Ideal.ofBits_zero_f32

/-- The block indices of the two input windows at a point: features block `s`; operator block `(q, s)`. -/
theorem idx_in : ∀ t : Fin cfg3.N, win3_0.index t (0 : Fin 2) = t.val % 8 ∧ win3_0.index t (1 : Fin 2) = 0
    ∧ win3_1.index t (0 : Fin 2) = t.val / 8 ∧ win3_1.index t (1 : Fin 2) = t.val % 8 :=
  (by decide +kernel : ∀ t : Fin grid3.N, _)

/-- The feature block at a point, read at `(kk, a)`: row `1024·s + kk` of the features. -/
theorem xblk_apply (c : Dev nD) (X : Mat 8192 32) (hX : V c main_call0_v1 = X) (t : Fin cfg3.N) (kk : Fin 1024) (a : Fin 32) (r : Fin 8192)
    (hr : r.val = 1024 * (t.val % 8) + kk.val) :
    (iblk3 V c 0 t : Vec Ideal S1024x32 .bf16) (ix2 kk a) = X (ix2 r a) := by
  subst hX
  obtain ⟨e0, e1, -, -⟩ := idx_in t
  unfold iblk3
  rw [View.read_apply]
  show V c main_call0_v1 _ = V c main_call0_v1 _
  refine congrArg (V c main_call0_v1) ?_
  funext b; apply Fin.ext
  match b with
  | ⟨0, _⟩ => show win3_0.index t 0 * 1024 + 1 * kk.val = r.val; rw [e0, hr]; omega
  | ⟨1, _⟩ => show win3_0.index t 1 * 32 + 1 * a.val = a.val; rw [e1]; omega

/-- The operator block at a point, read at `(j, kk)`: row `512·q + j`, column `1024·s + kk` of the operator. -/
theorem gblk_apply (c : Dev nD) (Gm : Mat 4096 8192) (hG : V c main_arg6 = Gm) (t : Fin cfg3.N) (j : Fin 512) (kk : Fin 1024) (row : Fin 4096) (r : Fin 8192)
    (hrow : row.val = 512 * (t.val / 8) + j.val) (hr : r.val = 1024 * (t.val % 8) + kk.val) :
    (iblk3 V c 1 t : Vec Ideal S512x1024 .f32) (ix2 j kk) = Gm (ix2 row r) := by
  subst hG
  obtain ⟨-, -, e2, e3⟩ := idx_in t
  unfold iblk3
  rw [View.read_apply]
  show V c main_arg6 _ = V c main_arg6 _
  refine congrArg (V c main_arg6) ?_
  funext b; apply Fin.ext
  match b with
  | ⟨0, _⟩ => show win3_1.index t 0 * 512 + 1 * j.val = row.val; rw [e2, hrow]; omega
  | ⟨1, _⟩ => show win3_1.index t 1 * 1024 + 1 * kk.val = r.val; rw [e3, hr]; omega

/-- A point's addend to its run's fold (zero past the grid, where it is never used). -/
def addend (c : Dev nD) (n : ℕ) : S32x512.Idx → EReal := fun i =>
  if h : n < cfg3.N then prod (iblk3 V c 1 ⟨n, h⟩) (iblk3 V c 0 ⟨n, h⟩) i else 0

/-- A whole run's fold at an entry: zero plus the run's 8 addends. -/
theorem fold_apply (c : Dev nD) (q : ℕ) (h : 8 * q + 7 < cfg3.N) (i : S32x512.Idx) :
    Pipeline.accAt (reset V c) (step V c) (8 * q) 7 h i
      = (k3_pay1 (F := Ideal)) i + ∑ s ∈ Finset.range 8, addend V c (8 * q + s) i :=
  Pipeline.accAt_add_apply (reset V c) (step V c) (k3_pay1 (F := Ideal)) (addend V c) (8 * q) 7
    (fun hb i => by
      unfold reset addend
      rw [pay_eq, dif_pos hb]; rfl)
    (fun n hn acc i _ _ => by
      unfold step addend
      rw [pay_eq, dif_pos hn]; rfl)
    7 (Nat.le_refl _) h i

/-- THE OUTPUT ARRAY AT AN ENTRY: the transposed aggregate `∑ₖ x[k, a] · G[j, k]`. -/
theorem G_apply (c : Dev nD) (X : Mat 8192 32) (Gm : Mat 4096 8192) (hX : V c main_call0_v1 = X) (hG : V c main_arg6 = Gm)
    (a : Fin 32) (j : Fin 4096) :
    G V c (ix2 a j) = ∑ k : Fin 8192, X (ix2 k a) * Gm (ix2 j k) := by
  have hN : cfg3.N = 64 := N_3
  have hN' : grid3.N = 64 := N_3
  have hj : j.val < 4096 := j.isLt
  have hrun : runOf (ix2 a j : S32x4096.Idx) = j.val / 512 := rfl
  have hq : 8 * (j.val / 512) + 7 < cfg3.N := by omega
  have key : Pipeline.accAt (reset V c) (step V c) (8 * (j.val / 512)) 7 hq
        (ix2 (⟨a.val % 32, Nat.mod_lt _ (by decide)⟩ : Fin 32) (⟨j.val % 512, Nat.mod_lt _ (by decide)⟩ : Fin 512))
      = ∑ k : Fin 8192, X (ix2 k a) * Gm (ix2 j k) := by
    rw [fold_apply V c (j.val / 512) hq, zero_apply, zero_add]
    rw [show (∑ k : Fin 8192, X (ix2 k a) * Gm (ix2 j k))
        = ∑ k : Fin (8 * 1024), X (ix2 (⟨k.val, k.isLt⟩ : Fin 8192) a) * Gm (ix2 j (⟨k.val, k.isLt⟩ : Fin 8192)) from rfl,
      Cert.Lib.BlockSum.sum_blocks 8 1024, Finset.sum_range]
    refine Finset.sum_congr rfl fun s _ => ?_
    have hs : s.val < 8 := s.isLt
    have hlt : 8 * (j.val / 512) + s.val < cfg3.N := by omega
    unfold addend
    rw [dif_pos hlt, prod_apply]
    refine Finset.sum_congr rfl fun kk _ => ?_
    have hkk : kk.val < 1024 := kk.isLt
    have hmod : (8 * (j.val / 512) + s.val) % 8 = s.val := by omega
    have hdiv : (8 * (j.val / 512) + s.val) / 8 = j.val / 512 := by omega
    rw [xblk_apply V c X hX ⟨8 * (j.val / 512) + s.val, hlt⟩ kk _ (⟨s.val * 1024 + kk.val, by omega⟩ : Fin 8192)
        (by show s.val * 1024 + kk.val = 1024 * ((8 * (j.val / 512) + s.val) % 8) + kk.val; rw [hmod]; omega),
      gblk_apply V c Gm hG ⟨8 * (j.val / 512) + s.val, hlt⟩ _ kk j (⟨s.val * 1024 + kk.val, by omega⟩ : Fin 8192)
        (by show j.val = 512 * ((8 * (j.val / 512) + s.val) / 8) + j.val % 512; rw [hdiv]; omega)
        (by show s.val * 1024 + kk.val = 1024 * ((8 * (j.val / 512) + s.val) % 8) + kk.val; rw [hmod]; omega)]
    have ha : (⟨a.val % 32, Nat.mod_lt _ (by decide)⟩ : Fin 32) = a := Fin.ext (Nat.mod_eq_of_lt a.isLt)
    rw [ha]
  have hloc : locOf (ix2 a j : S32x4096.Idx) = ix2 (⟨a.val % 32, Nat.mod_lt _ (by decide)⟩ : Fin 32) (⟨j.val % 512, Nat.mod_lt _ (by decide)⟩ : Fin 512) := by
    funext b; apply Fin.ext
    match b with
    | ⟨0, _⟩ => rfl
    | ⟨1, _⟩ => rfl
  have e : ∀ (b b' : ℕ) (hb : b = b') (h : b + 7 < cfg3.N) (h' : b' + 7 < cfg3.N),
      Pipeline.accAt (reset V c) (step V c) b 7 h = Pipeline.accAt (reset V c) (step V c) b' 7 h' := by
    intro b b' hb h h'; subst hb; rfl
  unfold G
  rw [dif_pos (by rw [hrun]; exact hq), hloc,
    e (8 * runOf (ix2 a j : S32x4096.Idx)) (8 * (j.val / 512)) (by rw [hrun]) _ hq]
  exact key

/-- So the region leaves the transposed aggregate in its output array. -/
theorem final_apply (c : Dev nD) (X : Mat 8192 32) (Gm : Mat 4096 8192) (hX : V c main_call0_v1 = X) (hG : V c main_arg6 = Gm)
    (a : Fin 32) (j : Fin 4096) :
    (dat3 V c).arrAt 2 cfg3.N (ix2 a j) = ∑ k : Fin 8192, X (ix2 k a) * Gm (ix2 j k) := by
  rw [final]; exact G_apply V c X Gm hX hG a j

end Cert.KernelIdeal.Fold3

end
-- ==== Proof.Fold4.lean ====
/-
  Region 4: one accumulated transposed product.

  The grid is 8 × 4: row block `q` of the operator (512 of its 4096 rows) against column block `s` (1024 of its
  4096 columns). Point `4·q + s` multiplies the 1024 × 32 block `s` of the features, transposed, into the
  512 × 1024 block `(q, s)` of the operator, transposed, and adds the 32 × 512 product into the output block
  `(0, q)`, which it first clears when `s = 0`; the block is written back after `s = 3`. So what the output array
  ends holding at `(c, 512·q + j)` is the fold over the run `4·q … 4·q + 3` of the block products, at `(c, j)`:
  stated here for any float instance as the library's fold over a run (`accAt`), by recursion on the offset in
  the run and never on the size of the grid.
-/
import proofs.«178574_g19696720019795_cont_8to1_1339_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Fold4

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At the first point of a run the body clears the output block, reads it back and adds the block product: the
    buffer's earlier contents do not enter. -/
theorem out_A_eq (c : Dev nD) (i : grid4.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : cond4_0 i) (x0 : Vec F S1024x32 .bf16) (x1 : Vec F S512x1024 .f32) :
    out4_A_2 c i arg2 harg2 arg3 harg3 arg4 harg4 hc0 x0 x1 = k4_pay2 x1 (k4_pay1 (F := F)) x0 := by
  unfold out4_A_2
  rw [View.read_writes_eq_canon _ _ _ (cover4_A_2 c i arg2 harg2 arg3 harg3 arg4 harg4 hc0 x0 x1)]
  unfold kernelRun4_A
  dsimp only
  try sl_unfold_words
  rw [View.canon_cons_unit_zero (S := S32x512) hz, View.readCov_unit_zero (S := S32x512) _ hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- At every later point of a run the body adds the block product to what the point before left. -/
theorem out_B_eq (c : Dev nD) (i : grid4.Coords) (arg2 : Memref sig .tc .vmem S1024x32 .bf16) (harg2 : arg2.IsWhole)
    (arg3 : Memref sig .tc .vmem S512x1024 .f32) (harg3 : arg3.IsWhole) (arg4 : Memref sig .tc .vmem S32x512 .f32)
    (harg4 : arg4.IsWhole) (hc0 : ¬cond4_0 i) (x0 : Vec F S1024x32 .bf16) (x1 : Vec F S512x1024 .f32)
    (xo2 : Vec F S32x512 .f32) :
    out4_B_2 c i arg2 harg2 arg3 harg3 arg4 harg4 hc0 x0 x1 xo2 = k4_pay2 x1 xo2 x0 := by
  unfold out4_B_2
  rw [View.read_writes_eq_canon _ _ _ (cover4_B_2 c i arg2 harg2 arg3 harg3 arg4 harg4 hc0 x0 x1 xo2)]
  unfold kernelRun4_B
  dsimp only
  try sl_unfold_words
  rw [View.canon_unit_zero hz]
  simp only [View.readAt_eq_ld, harg2.read_unread, harg3.read_unread, harg4.read_unread, View.ld_unit_zero (S := S32x512) hz,
    View.ld_unit_zero (S := S1024x32) hz, View.ld_unit_zero (S := S512x1024) hz, shapeCast_self]

/-- What a run's first point leaves in the output block: zero plus that point's block product. -/
def reset (c : Dev nD) (n : ℕ) (h : n < cfg4.N) : Vec F S32x512 .f32 :=
  k4_pay2 (iblk4 V c 1 ⟨n, h⟩) (k4_pay1 (F := F)) (iblk4 V c 0 ⟨n, h⟩)

/-- What a later point leaves: the contents the point before left plus this point's block product. -/
def step (c : Dev nD) (n : ℕ) (h : n < cfg4.N) (acc : Vec F S32x512 .f32) : Vec F S32x512 .f32 :=
  k4_pay2 (iblk4 V c 1 ⟨n, h⟩) acc (iblk4 V c 0 ⟨n, h⟩)

/-- The output block after point `t` is the fold of its run up to `t`. -/
theorem outsAt_eq (c : Dev nD) (t : Fin cfg4.N) :
    outsAt4 V c t.val t.isLt = Pipeline.accAt (reset V c) (step V c) (4 * (t.val / 4)) (t.val % 4)
      (by have h1 := t.isLt; have h2 := Nat.div_add_mod t.val 4; omega) :=
  Pipeline.eq_accAt_of_mod (fun n h => outsAt4 V c n h) 4 (reset V c) (step V c)
    (fun n h hn => by rw [outsAt4_A V c ⟨n, h⟩ (by (try dsimp only); omega)]; exact out_A_eq ..)
    (fun n h hn => by rw [outsAt4_B V c ⟨n + 1, h⟩ (by (try dsimp only); omega)]; exact out_B_eq ..)
    (by decide) t.val t.isLt _

/-- The run whose block holds column `i 1` of the output array, and the index's place in that block. -/
abbrev runOf (i : S32x4096.Idx) : ℕ := (i 1).val / 512
abbrev locOf (i : S32x4096.Idx) : S32x512.Idx := fun a => match a with
  | ⟨0, _⟩ => ⟨(i 0).val % 32, Nat.mod_lt _ (by decide)⟩
  | ⟨1, _⟩ => ⟨(i 1).val % 512, Nat.mod_lt _ (by decide)⟩

/-- What the output array ends holding: at each index the whole fold of the run whose block holds it. -/
def G (c : Dev nD) : Buf (Elt F) ((c : Thread nD τ).loc main_call0_v7) := fun i =>
  if h : 4 * runOf i + 3 < cfg4.N then
    (Pipeline.accAt (reset V c) (step V c) (4 * runOf i) 3 h) (locOf i)
  else V c (Pipeline.arrRef spec4 2) i

/-- The output's block index at a point: row 0, column the point's run. -/
theorem idx_facts : ∀ t : Fin cfg4.N, win4_2.index t (0 : Fin 2) = 0 ∧ win4_2.index t (1 : Fin 2) = t.val / 4 :=
  (by decide +kernel : ∀ t : Fin grid4.N, _)

/-- What a point that writes back writes is its block of `G`: the whole run's fold. -/
theorem flushed_eq (c : Dev nD) (t : Fin cfg4.N) (hf : (cfg4.win 2).flush t = true) :
    (dat4 V c).flushed 2 t = ((cfg4.win 2).blk t).view.read (Elt F) (G V c) := by
  show (cfg4.win 2).cut (grid4.coords t) ((dat4 V c).after 2 t) = _
  rw [after4_2, outsAt_eq]
  have hm : t.val % 4 = 3 := (flush4_2 t).mp hf
  obtain ⟨e0, e1⟩ := idx_facts t
  funext y
  have hy0 : (y 0).val < 32 := (y 0).isLt
  have hy1 : (y 1).val < 512 := (y 1).isLt
  have hb0 : (((cfg4.win 2).blk t).view.emb y 0).val = win4_2.index t (0 : Fin 2) * 32 + 1 * (y 0).val := rfl
  have hb1 : (((cfg4.win 2).blk t).view.emb y 1).val = win4_2.index t (1 : Fin 2) * 512 + 1 * (y 1).val := rfl
  have hr : runOf (((cfg4.win 2).blk t).view.emb y) = t.val / 4 := by
    show (((cfg4.win 2).blk t).view.emb y 1).val / 512 = _
    rw [hb1, e1]; omega
  have hl : locOf (((cfg4.win 2).blk t).view.emb y) = (cfg4.win 2).xinj (grid4.coords t) y := by
    funext a; apply Fin.ext
    match a with
    | ⟨0, _⟩ => show (((cfg4.win 2).blk t).view.emb y 0).val % 32 = (y 0).val; rw [hb0, e0]; omega
    | ⟨1, _⟩ => show (((cfg4.win 2).blk t).view.emb y 1).val % 512 = (y 1).val; rw [hb1]; omega
  show (Pipeline.accAt (reset V c) (step V c) (4 * (t.val / 4)) (t.val % 4) _) ((cfg4.win 2).xinj (grid4.coords t) y)
    = G V c (((cfg4.win 2).blk t).view.emb y)
  unfold G
  rw [dif_pos (by rw [hr]; have := t.isLt; have := Nat.div_add_mod t.val 4; omega), hl]
  have e : ∀ (b j : ℕ) (h : b + j < cfg4.N) (b' j' : ℕ) (h' : b' + j' < cfg4.N), b = b' → j = j' →
      Pipeline.accAt (reset V c) (step V c) b j h = Pipeline.accAt (reset V c) (step V c) b' j' h' := by
    intro b j h b' j' h' hb hj; subst hb; subst hj; rfl
  have hb : 4 * (t.val / 4) = 4 * runOf (((cfg4.win 2).blk t).view.emb y) := by rw [hr]
  exact congrFun (e _ _ _ _ _ _ hb hm) _

/-- An index of the array is in a point's block iff each coordinate is in the block's range on its axis. -/
theorem mem_blk (t : Fin cfg4.N) (i : S32x4096.Idx) :
    i ∈ ((cfg4.win 2).blk t).view.set ↔ ∀ a : Fin 2, win4_2.index t a * S32x512.size a ≤ (i a).val
      ∧ (i a).val < win4_2.index t a * S32x512.size a + S32x512.size a := by
  show i ∈ ((View.whole main_call0_v7).slice (win4_2.rect t)).set ↔ _
  rw [View.set_slice_whole, Rect.mem_set_unit]
  exact Iff.rfl

/-- Every index of the output array lies in the block of the last point of its run, which writes back. -/
theorem cover (i : S32x4096.Idx) :
    ∃ t : Fin cfg4.N, (cfg4.win 2).flush t = true ∧ i ∈ ((cfg4.win 2).blk t).view.set := by
  have hi0 : (i 0).val < 32 := (i 0).isLt
  have hi1 : (i 1).val < 4096 := (i 1).isLt
  have hN : cfg4.N = 32 := N_4
  have hN' : grid4.N = 32 := N_4
  refine ⟨⟨4 * ((i 1).val / 512) + 3, by omega⟩, (flush4_2 _).mpr (by (try dsimp only); omega), ?_⟩
  rw [mem_blk]
  obtain ⟨e0, e1⟩ := idx_facts ⟨4 * ((i 1).val / 512) + 3, by omega⟩
  have e1' : win4_2.index ⟨4 * ((i 1).val / 512) + 3, by omega⟩ (1 : Fin 2) = (i 1).val / 512 := by
    rw [e1]; (try dsimp only); omega
  intro a
  match a with
  | ⟨0, _⟩ =>
    show win4_2.index _ (0 : Fin 2) * 32 ≤ (i 0).val ∧ (i 0).val < win4_2.index _ (0 : Fin 2) * 32 + 32
    rw [e0]; omega
  | ⟨1, _⟩ =>
    show win4_2.index _ (1 : Fin 2) * 512 ≤ (i 1).val ∧ (i 1).val < win4_2.index _ (1 : Fin 2) * 512 + 512
    rw [e1']; omega

/-- The output array after the region: `G`. -/
theorem final (c : Dev nD) : (dat4 V c).arrAt 2 cfg4.N = G V c :=
  (dat4 V c).arrAt_eq_of_cover 2 _ (fun t hf => flushed_eq V c t hf) (cover)

end Cert.KernelIdeal.Fold4

end
-- ==== Proof.Read4.lean ====
/-
  Region 4, read at an entry on the extended reals.

  A block product at `(c, j)` is `∑ₖₖ x[kk, c] · g[j, kk]` over the 1024 rows of the feature block; the blocks a
  point reads are rows `1024·s …` of the features and rows `512·q …`, columns `1024·s …` of the operator; a run's fold
  is zero plus the sum of its 4 block products; and 4 blocks of 1024 consecutive indices are the 4096 indices of the
  contracted axis. So the output array ends holding `∑ₖ x[k, c] · G[j, k]` at `(c, j)`: the transposed aggregate.
  Only associativity and commutativity of the sum are used, so no entry needs to be finite here.
-/
import proofs.«178574_g19696720019795_cont_8to1_1339_3_alg».proof.Proof.Fold4
import proofs.«178574_g19696720019795_cont_8to1_1339_3_alg».proof.Proof.LibCrossAxesDot
import proofs.«178574_g19696720019795_cont_8to1_1339_3_alg».proof.Proof.LibBlockSum
import proofs.«178574_g19696720019795_cont_8to1_1339_3_alg».proof.Proof.Message

set_option maxRecDepth 16384

noncomputable section

open scoped BigOperators
open Idealize.ShloMosaic Idealize.ShloMosaic.TcCoe Idealize.SL.Sem Idealize.ShloMosaic.ValueIdx

namespace Cert.KernelIdeal.Fold4

open Cert.KernelIdeal Cert.KernelIdeal.Gen
open Cert.Message (Mat)

variable (V : (c : Dev nD) → (b : Ref sig .tc) → Buf (Elt Ideal) ((c : Thread nD τ).loc b))

/-- The block product, by itself: the transposed feature block against the transposed operator block. -/
def prod (v3 : Vec Ideal S512x1024 .f32) (v7 : Vec Ideal S1024x32 .bf16) : FVec Ideal S32x512 .f32 :=
  have v4 : FVec Ideal S512x1024 .bf16 := truncf .bf16 v3 bitsLt_bf16_f32
  have v8 : FVec Ideal S1024x32 .bf16 := shapeCast S1024x32 v7 shapeCasts_S1024x32_S1024x32
  have cst : FVec Ideal S32x512 .f32 := constant S32x512 .f32 0x00000000#32
  matmul dot_S1024x32_S512x1024_S32x512_0_1_1_0_n_n none v8 v4 cst

/-- A point's payload is the contents it found plus the block product. -/
theorem pay_eq (g : Vec Ideal S512x1024 .f32) (acc : Vec Ideal S32x512 .f32) (x : Vec Ideal S1024x32 .bf16) :
    k4_pay2 g acc x = addf acc (prod g x) := by
  unfold k4_pay2 prod
  simp only [shapeCast_self]

/-- The block product at `(a, j)`. -/
theorem prod_apply (g : Vec Ideal S512x1024 .f32) (x : Vec Ideal S1024x32 .bf16) (a : Fin 32) (j : Fin 512) :
    prod g x (ix2 a j) = ∑ kk : Fin 1024, x (ix2 kk a) * g (ix2 j kk) := by
  have hd : dot_S1024x32_S512x1024_S32x512_0_1_1_0_n_n
      = Cert.Lib.CrossAxesDot.crossAxes 1024 32 512 dot_S1024x32_S512x1024_S32x512_0_1_1_0_n_n_wf := rfl
  unfold prod
  simp only [shapeCast_self]
  rw [hd]
  exact Cert.Lib.CrossAxesDot.matmul_zero_apply _ none x (truncf .bf16 g bitsLt_bf16_f32) a j

/-- The cleared block holds zero. -/
theorem zero_apply (i : S32x512.Idx) : (k4_pay1 (F := Ideal)) i = 0 := by
  unfold k4_pay1
  show Ideal.ofBits .f32 0x00000000#32 = 0
  exact Ideal.ofBits_zero_f32

/-- The block indices of the two input windows at a point: features block `s`; operator block `(q, s)`. -/
theorem idx_in : ∀ t : Fin cfg4.N, win4_0.index t (0 : Fin 2) = t.val % 4 ∧ win4_0.index t (1 : Fin 2) = 0
    ∧ win4_1.index t (0 : Fin 2) = t.val / 4 ∧ win4_1.index t (1 : Fin 2) = t.val % 4 :=
  (by decide +kernel : ∀ t : Fin grid4.N, _)

/-- The feature block at a point, read at `(kk, a)`: row `1024·s + kk` of the features. -/
theorem xblk_apply (c : Dev nD) (X : Mat 4096 32) (hX : V c main_call0_v2 = X) (t : Fin cfg4.N) (kk : Fin 1024) (a : Fin 32) (r : Fin 4096)
    (hr : r.val = 1024 * (t.val % 4) + kk.val) :
    (iblk4 V c 0 t : Vec Ideal S1024x32 .bf16) (ix2 kk a) = X (ix2 r a) := by
  subst hX
  obtain ⟨e0, e1, -, -⟩ := idx_in t
  unfold iblk4
  rw [View.read_apply]
  show V c main_call0_v2 _ = V c main_call0_v2 _
  refine congrArg (V c main_call0_v2) ?_
  funext b; apply Fin.ext
  match b with
  | ⟨0, _⟩ => show win4_0.index t 0 * 1024 + 1 * kk.val = r.val; rw [e0, hr]; omega
  | ⟨1, _⟩ => show win4_0.index t 1 * 32 + 1 * a.val = a.val; rw [e1]; omega

/-- The operator block at a point, read at `(j, kk)`: row `512·q + j`, column `1024·s + kk` of the operator. -/
theorem gblk_apply (c : Dev nD) (Gm : Mat 4096 4096) (hG : V c main_arg7 = Gm) (t : Fin cfg4.N) (j : Fin 512) (kk : Fin 1024) (row : Fin 4096) (r : Fin 4096)
    (hrow : row.val = 512 * (t.val / 4) + j.val) (hr : r.val = 1024 * (t.val % 4) + kk.val) :
    (iblk4 V c 1 t : Vec Ideal S512x1024 .f32) (ix2 j kk) = Gm (ix2 row r) := by
  subst hG
  obtain ⟨-, -, e2, e3⟩ := idx_in t
  unfold iblk4
  rw [View.read_apply]
  show V c main_arg7 _ = V c main_arg7 _
  refine congrArg (V c main_arg7) ?_
  funext b; apply Fin.ext
  match b with
  | ⟨0, _⟩ => show win4_1.index t 0 * 512 + 1 * j.val = row.val; rw [e2, hrow]; omega
  | ⟨1, _⟩ => show win4_1.index t 1 * 1024 + 1 * kk.val = r.val; rw [e3, hr]; omega

/-- A point's addend to its run's fold (zero past the grid, where it is never used). -/
def addend (c : Dev nD) (n : ℕ) : S32x512.Idx → EReal := fun i =>
  if h : n < cfg4.N then prod (iblk4 V c 1 ⟨n, h⟩) (iblk4 V c 0 ⟨n, h⟩) i else 0

/-- A whole run's fold at an entry: zero plus the run's 4 addends. -/
theorem fold_apply (c : Dev nD) (q : ℕ) (h : 4 * q + 3 < cfg4.N) (i : S32x512.Idx) :
    Pipeline.accAt (reset V c) (step V c) (4 * q) 3 h i
      = (k4_pay1 (F := Ideal)) i + ∑ s ∈ Finset.range 4, addend V c (4 * q + s) i :=
  Pipeline.accAt_add_apply (reset V c) (step V c) (k4_pay1 (F := Ideal)) (addend V c) (4 * q) 3
    (fun hb i => by
      unfold reset addend
      rw [pay_eq, dif_pos hb]; rfl)
    (fun n hn acc i _ _ => by
      unfold step addend
      rw [pay_eq, dif_pos hn]; rfl)
    3 (Nat.le_refl _) h i

/-- THE OUTPUT ARRAY AT AN ENTRY: the transposed aggregate `∑ₖ x[k, a] · G[j, k]`. -/
theorem G_apply (c : Dev nD) (X : Mat 4096 32) (Gm : Mat 4096 4096) (hX : V c main_call0_v2 = X) (hG : V c main_arg7 = Gm)
    (a : Fin 32) (j : Fin 4096) :
    G V c (ix2 a j) = ∑ k : Fin 4096, X (ix2 k a) * Gm (ix2 j k) := by
  have hN : cfg4.N = 32 := N_4
  have hN' : grid4.N = 32 := N_4
  have hj : j.val < 4096 := j.isLt
  have hrun : runOf (ix2 a j : S32x4096.Idx) = j.val / 512 := rfl
  have hq : 4 * (j.val / 512) + 3 < cfg4.N := by omega
  have key : Pipeline.accAt (reset V c) (step V c) (4 * (j.val / 512)) 3 hq
        (ix2 (⟨a.val % 32, Nat.mod_lt _ (by decide)⟩ : Fin 32) (⟨j.val % 512, Nat.mod_lt _ (by decide)⟩ : Fin 512))
      = ∑ k : Fin 4096, X (ix2 k a) * Gm (ix2 j k) := by
    rw [fold_apply V c (j.val / 512) hq, zero_apply, zero_add]
    rw [show (∑ k : Fin 4096, X (ix2 k a) * Gm (ix2 j k))
        = ∑ k : Fin (4 * 1024), X (ix2 (⟨k.val, k.isLt⟩ : Fin 4096) a) * Gm (ix2 j (⟨k.val, k.isLt⟩ : Fin 4096)) from rfl,
      Cert.Lib.BlockSum.sum_blocks 4 1024, Finset.sum_range]
    refine Finset.sum_congr rfl fun s _ => ?_
    have hs : s.val < 4 := s.isLt
    have hlt : 4 * (j.val / 512) + s.val < cfg4.N := by omega
    unfold addend
    rw [dif_pos hlt, prod_apply]
    refine Finset.sum_congr rfl fun kk _ => ?_
    have hkk : kk.val < 1024 := kk.isLt
    have hmod : (4 * (j.val / 512) + s.val) % 4 = s.val := by omega
    have hdiv : (4 * (j.val / 512) + s.val) / 4 = j.val / 512 := by omega
    rw [xblk_apply V c X hX ⟨4 * (j.val / 512) + s.val, hlt⟩ kk _ (⟨s.val * 1024 + kk.val, by omega⟩ : Fin 4096)
        (by show s.val * 1024 + kk.val = 1024 * ((4 * (j.val / 512) + s.val) % 4) + kk.val; rw [hmod]; omega),
      gblk_apply V c Gm hG ⟨4 * (j.val / 512) + s.val, hlt⟩ _ kk j (⟨s.val * 1024 + kk.val, by omega⟩ : Fin 4096)
        (by show j.val = 512 * ((4 * (j.val / 512) + s.val) / 4) + j.val % 512; rw [hdiv]; omega)
        (by show s.val * 1024 + kk.val = 1024 * ((4 * (j.val / 512) + s.val) % 4) + kk.val; rw [hmod]; omega)]
    have ha : (⟨a.val % 32, Nat.mod_lt _ (by decide)⟩ : Fin 32) = a := Fin.ext (Nat.mod_eq_of_lt a.isLt)
    rw [ha]
  have hloc : locOf (ix2 a j : S32x4096.Idx) = ix2 (⟨a.val % 32, Nat.mod_lt _ (by decide)⟩ : Fin 32) (⟨j.val % 512, Nat.mod_lt _ (by decide)⟩ : Fin 512) := by
    funext b; apply Fin.ext
    match b with
    | ⟨0, _⟩ => rfl
    | ⟨1, _⟩ => rfl
  have e : ∀ (b b' : ℕ) (hb : b = b') (h : b + 3 < cfg4.N) (h' : b' + 3 < cfg4.N),
      Pipeline.accAt (reset V c) (step V c) b 3 h = Pipeline.accAt (reset V c) (step V c) b' 3 h' := by
    intro b b' hb h h'; subst hb; rfl
  unfold G
  rw [dif_pos (by rw [hrun]; exact hq), hloc,
    e (4 * runOf (ix2 a j : S32x4096.Idx)) (4 * (j.val / 512)) (by rw [hrun]) _ hq]
  exact key

/-- So the region leaves the transposed aggregate in its output array. -/
theorem final_apply (c : Dev nD) (X : Mat 4096 32) (Gm : Mat 4096 4096) (hX : V c main_call0_v2 = X) (hG : V c main_arg7 = Gm)
    (a : Fin 32) (j : Fin 4096) :
    (dat4 V c).arrAt 2 cfg4.N (ix2 a j) = ∑ k : Fin 4096, X (ix2 k a) * Gm (ix2 j k) := by
  rw [final]; exact G_apply V c X Gm hX hG a j

end Cert.KernelIdeal.Fold4

end
-- ==== Proof.LibFirstAxesDot.lean ====
/-
  A matrix product contracted on the FIRST axes of both operands, read at an entry, on the extended reals.

  For the dimension numbers of a `K×M` by `K×N` product that contracts the operands' first axes (`lᵀ · r`; no batch
  axis), the sum over the contraction index of the operands' products at output entry `(a, b)` is
  `∑ k, l (k, a) * r (k, b)`: the contraction index is its one coordinate `k`, both operands are read at row `k`, the
  left at column `a`, the right at column `b`. From it: a vector-unit matrix product into the zero accumulator
  (`matmul_zero_apply`) and the host's `dot_general` (`dotGeneral_apply`) at `(a, b)`. The record is generic in the
  extents and in its side condition, so a printed program's own record of these dimension numbers is `firstAxes` of
  its literal sizes by `rfl`.
-/
import Idealize.ShloMosaic.Lib.ValueIdx
import Idealize.ShloMosaic.PureOps.Ideal.Laws

noncomputable section

open scoped BigOperators

namespace Cert.Lib.FirstAxesDot

open Idealize.ShloMosaic Idealize.ShloMosaic.ValueIdx

/-- `<[0], [0], [1], [1], [0, 1, 1, 1], [], []>`: `K×M` by `K×N`, both operands contracted on their first axis. -/
def firstAxes (K M N : ℕ)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : ℕ} {φ₁ φ₂ : FTy}
variable (wf : DotDims.WF ⟨2, ![K, M]⟩ ⟨2, ![K, N]⟩ ⟨2, ![M, N]⟩ [0] [0] [1] [1] [] [])

/-- Left operand, axis 1: the output's row. -/
theorem lhs1 (i : (⟨2, ![M, N]⟩ : Shape).Idx) (q : (firstAxes K M N wf).contr.Idx) :
    ((firstAxes K M N wf).lhsIdx i q 1).val = (i 0).val := by
  unfold DotDims.lhsIdx
  rw [dif_neg (show ¬(1 : Fin (⟨2, ![K, M]⟩ : Shape).rank) ∈ (firstAxes K M N wf).lhsBatch by simp [firstAxes]),
    dif_pos (show (1 : Fin (⟨2, ![K, M]⟩ : Shape).rank) ∈ (firstAxes K M N wf).lhsNonContracting by simp [firstAxes])]
  rfl

/-- Right operand, axis 1: the output's column. -/
theorem rhs1 (i : (⟨2, ![M, N]⟩ : Shape).Idx) (q : (firstAxes K M N wf).contr.Idx) :
    ((firstAxes K M N wf).rhsIdx i q 1).val = (i 1).val := by
  unfold DotDims.rhsIdx
  rw [dif_neg (show ¬(1 : Fin (⟨2, ![K, N]⟩ : Shape).rank) ∈ (firstAxes K M N wf).rhsBatch by simp [firstAxes]),
    dif_pos (show (1 : Fin (⟨2, ![K, N]⟩ : Shape).rank) ∈ (firstAxes K M N wf).rhsNonContracting by simp [firstAxes])]
  rfl

/-- The left operand's index at output `(a, b)` and contraction coordinate `k` is `(k, a)`. -/
theorem lhsIdx_first (a : Fin M) (b : Fin N) (k : Fin K) :
    (firstAxes K M N wf).lhsIdx (ix2 a b) ((contrEquiv1 (firstAxes K M N wf) K rfl rfl).symm k) = ix2 k a := by
  have hk := contrEquiv1_symm_val (firstAxes K M N wf) K rfl rfl k
  exact funext fun c => Fin.ext (by
    match c with
    | ⟨0, _⟩ => exact ((firstAxes K M N wf).lhsIdx_val_of_single rfl _ _).trans hk
    | ⟨1, _⟩ => exact lhs1 wf _ _)

/-- The right operand's index at output `(a, b)` and contraction coordinate `k` is `(k, b)`. -/
theorem rhsIdx_first (a : Fin M) (b : Fin N) (k : Fin K) :
    (firstAxes K M N wf).rhsIdx (ix2 a b) ((contrEquiv1 (firstAxes K M N wf) K rfl rfl).symm k) = ix2 k b := by
  have hk := contrEquiv1_symm_val (firstAxes K M N wf) K rfl rfl k
  exact funext fun c => Fin.ext (by
    match c with
    | ⟨0, _⟩ => exact ((firstAxes K M N wf).rhsIdx_val_of_single rfl _ _).trans hk
    | ⟨1, _⟩ => exact rhs1 wf _ _)

/-- The contraction's sum at output `(a, b)` is the sum over the contracted coordinate. -/
theorem sum_first (l : (⟨2, ![K, M]⟩ : Shape).Idx → EReal) (r : (⟨2, ![K, N]⟩ : Shape).Idx → EReal) (a : Fin M) (b : Fin N) :
    ∑ q : (firstAxes K M N wf).contr.Idx,
        l ((firstAxes K M N wf).lhsIdx (ix2 a b) q) * r ((firstAxes K M N wf).rhsIdx (ix2 a b) q)
      = ∑ k : Fin K, l (ix2 k a) * r (ix2 k b) := by
  rw [← Equiv.sum_comp (contrEquiv1 (firstAxes K M N wf) K rfl rfl).symm]
  refine Finset.sum_congr rfl fun k _ => ?_
  rw [lhsIdx_first, rhsIdx_first]

/-- A first-axes product on the vector unit into the zero accumulator, at entry `(a, b)`. -/
theorem matmul_zero_apply (prec : Option ContractPrecision) (l : FVec Ideal ⟨2, ![K, M]⟩ φ₁) (r : FVec Ideal ⟨2, ![K, N]⟩ φ₂)
    (a : Fin M) (b : Fin N) :
    FloatOps.matmul (firstAxes K M N wf) prec l r (constant ⟨2, ![M, N]⟩ .f32 0x00000000#32) (ix2 a b)
      = ∑ k : Fin K, l (ix2 k a) * r (ix2 k b) := by
  rw [Ideal.matmul_constant_zero_apply]
  exact sum_first wf l r a b

/-- The host's `dot_general` with these dimension numbers at entry `(a, b)`, whatever its schedule. -/
theorem dotGeneral_apply (prec : Option ContractPrecision) (sched : HostSchedule) (l : FVec Ideal ⟨2, ![K, M]⟩ φ₁)
    (r : FVec Ideal ⟨2, ![K, N]⟩ φ₂) (a : Fin M) (b : Fin N) :
    FloatOps.dotGeneral (firstAxes K M N wf) prec sched l r (ix2 a b) = ∑ k : Fin K, l (ix2 k a) * r (ix2 k b) := by
  rw [Ideal.dotGeneral_apply]
  exact sum_first wf l r a b

end Cert.Lib.FirstAxesDot

end
-- ==== Proof.WApply.lean ====
/-
  The last step of the message passing: the linear maps applied to the aggregated features.

  The five aggregates arrive transposed, `t[c, i] = ∑ₖ x[k, c] · G[i, k]` (`32 × n`, `n` the number of cells of the target
  dimension). One gridless step reads them and the five `32 × 32` maps whole and writes three whole arrays,
  `zᵀ[o, i] = ∑_c W[c, o] · t[c, i]` — for the vertices one such product, for the edges and for the faces the sum of two
  (a cell hears from the dimension below and from its own). Each product contracts the FIRST axes of both operands
  (`Wᵀ · t`) into a zero accumulator; the roundings to a shorter float format in between are the identity on extended
  reals, and a reshape to the same shape is the identity. This module reads those three arrays entry by entry off the
  generated frame, as functions of the arrays the step finds on entry.
-/
import proofs.«178574_g19696720019795_cont_8to1_1339_3_alg».proof.Proof.Gen.KernelIdeal.Frame
import proofs.«178574_g19696720019795_cont_8to1_1339_3_alg».proof.Proof.LibFirstAxesDot
import proofs.«178574_g19696720019795_cont_8to1_1339_3_alg».proof.Proof.Message
import Idealize.ShloMosaic.Lib.Pipeline.Value
import Idealize.ShloMosaic.Lib.ValueIdx

noncomputable section

open scoped BigOperators

namespace Cert.KernelIdeal.WApply

open Cert.KernelIdeal Cert.KernelIdeal.Gen Idealize.ShloMosaic Idealize.ShloMosaic.TcCoe Idealize.SL.Sem
open Idealize.ShloMosaic.Pipeline (Dat)
open Idealize.ShloMosaic.ValueIdx
open Cert.Message (Mat)

/-- The offsets of every access of this step: the origin. -/
theorem origin : (![0, 0] : Fin 2 → Nat) = fun _ => 0 := funext fun a => by fin_cases a <;> rfl

/-! ## What the step stores, as a term of what it loads

Every load and every store goes through the whole-array rectangle at the origin, so a load is the array and the one
store into each output leaves exactly its operand. -/

section Stored

variable {F : FTy → Type} [FloatOps F]

/-- The vertex output holds the product of `Wv2v` with `tv`. -/
theorem stored10_eq (x0 : Vec F S32x4096 .f32) (x1 x2 : Vec F S32x8192 .f32) (x3 x4 : Vec F S32x4096 .f32)
    (x5 x6 x7 x8 x9 : Vec F S32x32 .f32) :
    out5_10 x0 x1 x2 x3 x4 x5 x6 x7 x8 x9 = k5_pay2 x5 x0 := by
  unfold out5_10
  rw [View.canon_unit_zero origin]
  simp only [View.ld_unit_zero (S := S32x32) origin, View.ld_unit_zero (S := S32x4096) origin]

/-- The edge output holds the sum of the products of `Wve` with `te1` and of `Wee` with `te2`. -/
theorem stored11_eq (x0 : Vec F S32x4096 .f32) (x1 x2 : Vec F S32x8192 .f32) (x3 x4 : Vec F S32x4096 .f32)
    (x5 x6 x7 x8 x9 : Vec F S32x32 .f32) :
    out5_11 x0 x1 x2 x3 x4 x5 x6 x7 x8 x9 = k5_pay3 x6 x1 x7 x2 := by
  unfold out5_11
  rw [View.canon_unit_zero origin]
  simp only [View.ld_unit_zero (S := S32x32) origin, View.ld_unit_zero (S := S32x8192) origin]

/-- The face output holds the sum of the products of `Wef` with `tf1` and of `Wff` with `tf2`. -/
theorem stored12_eq (x0 : Vec F S32x4096 .f32) (x1 x2 : Vec F S32x8192 .f32) (x3 x4 : Vec F S32x4096 .f32)
    (x5 x6 x7 x8 x9 : Vec F S32x32 .f32) :
    out5_12 x0 x1 x2 x3 x4 x5 x6 x7 x8 x9 = k5_pay1 (k5_pay4 x8 x3) (k5_pay5 x9) x4 := by
  unfold out5_12
  rw [View.canon_unit_zero origin]
  simp only [View.ld_unit_zero (S := S32x32) origin, View.ld_unit_zero (S := S32x4096) origin]

end Stored

/-! ## The stored terms at an entry, on the extended reals

`(Wᵀ · t)[o, j] = ∑_c W[c, o] · t[c, j]`: the contraction runs over the first coordinate of both operands. -/

section Entries

/-- The dimension numbers of the `32×32` by `32×4096` products: both first axes contracted. -/
theorem dims4096 : dot_S32x32_S32x4096_S32x4096_0_0_1_1_n_n
    = Cert.Lib.FirstAxesDot.firstAxes 32 32 4096 Facts₀.dot_S32x32_S32x4096_S32x4096_0_0_1_1_n_n_wf := rfl

/-- The dimension numbers of the `32×32` by `32×8192` products: both first axes contracted. -/
theorem dims8192 : dot_S32x32_S32x8192_S32x8192_0_0_1_1_n_n
    = Cert.Lib.FirstAxesDot.firstAxes 32 32 8192 Facts₀.dot_S32x32_S32x8192_S32x8192_0_0_1_1_n_n_wf := rfl

/-- One product at an entry. -/
theorem one_apply (w : Vec Ideal S32x32 .f32) (t : Vec Ideal S32x4096 .f32) (o : Fin 32) (j : Fin 4096) :
    k5_pay2 w t (ix2 o j) = ∑ c' : Fin 32, w (ix2 c' o) * t (ix2 c' j) := by
  unfold k5_pay2
  rw [shapeCast_self, dims4096]
  exact Cert.Lib.FirstAxesDot.matmul_zero_apply _ none (φ₁ := .bf16) (φ₂ := .bf16) w t o j

/-- The sum of two products over the edges at an entry. -/
theorem two8192_apply (w1 : Vec Ideal S32x32 .f32) (t1 : Vec Ideal S32x8192 .f32) (w2 : Vec Ideal S32x32 .f32)
    (t2 : Vec Ideal S32x8192 .f32) (o : Fin 32) (j : Fin 8192) :
    k5_pay3 w1 t1 w2 t2 (ix2 o j)
      = (∑ c' : Fin 32, w1 (ix2 c' o) * t1 (ix2 c' j)) + ∑ c' : Fin 32, w2 (ix2 c' o) * t2 (ix2 c' j) := by
  unfold k5_pay3
  simp only [shapeCast_self]
  rw [dims8192]
  refine (addf_apply _ _ _).trans ?_
  exact congrArg₂ (· + ·)
    (Cert.Lib.FirstAxesDot.matmul_zero_apply _ none (φ₁ := .bf16) (φ₂ := .bf16) w1 t1 o j)
    (Cert.Lib.FirstAxesDot.matmul_zero_apply _ none (φ₁ := .bf16) (φ₂ := .bf16) w2 t2 o j)

/-- The sum of two products over the faces at an entry. -/
theorem two4096_apply (w1 : Vec Ideal S32x32 .f32) (t1 : Vec Ideal S32x4096 .f32) (w2 : Vec Ideal S32x32 .f32)
    (t2 : Vec Ideal S32x4096 .f32) (o : Fin 32) (j : Fin 4096) :
    k5_pay1 (k5_pay4 w1 t1) (k5_pay5 w2) t2 (ix2 o j)
      = (∑ c' : Fin 32, w1 (ix2 c' o) * t1 (ix2 c' j)) + ∑ c' : Fin 32, w2 (ix2 c' o) * t2 (ix2 c' j) := by
  unfold k5_pay1 k5_pay4 k5_pay5
  simp only [shapeCast_self]
  rw [dims4096]
  refine (addf_apply _ _ _).trans ?_
  exact congrArg₂ (· + ·)
    (Cert.Lib.FirstAxesDot.matmul_zero_apply _ none (φ₁ := .bf16) (φ₂ := .bf16) w1 t1 o j)
    (Cert.Lib.FirstAxesDot.matmul_zero_apply _ none (φ₁ := .bf16) (φ₂ := .bf16) w2 t2 o j)

end Entries

/-! ## From the one block to the arrays

The step has no grid: its single point reads each operand as one block, the whole array at block index 0, and writes
each output back as one block, the whole array. -/

section Arrays

variable {F : FTy → Type} [FloatOps F]
variable (V : (c : Dev nD) → (b : Ref sig .tc) → Buf (Elt F) ((c : Thread nD τ).loc b))

/-- The vertex aggregate `tv` is read whole. -/
theorem block_tv (c : Dev nD) (t : Fin cfg5.N) : (iblk5 V c 0 t : Vec F S32x4096 .f32) = V c main_call0_v3 :=
  Memref.read_access_unit_zero (Elt F) main_call0_v3 (off := fun a => win5_0.index t a * main_call0_v3.ty.shape.size a)
    (funext fun a => Nat.zero_mul _) _ (V c main_call0_v3)

/-- The vertex-to-edge aggregate `te1` is read whole. -/
theorem block_te1 (c : Dev nD) (t : Fin cfg5.N) : (iblk5 V c 1 t : Vec F S32x8192 .f32) = V c main_call0_v4 :=
  Memref.read_access_unit_zero (Elt F) main_call0_v4 (off := fun a => win5_1.index t a * main_call0_v4.ty.shape.size a)
    (funext fun a => Nat.zero_mul _) _ (V c main_call0_v4)

/-- The edge-to-edge aggregate `te2` is read whole. -/
theorem block_te2 (c : Dev nD) (t : Fin cfg5.N) : (iblk5 V c 2 t : Vec F S32x8192 .f32) = V c main_call0_v5 :=
  Memref.read_access_unit_zero (Elt F) main_call0_v5 (off := fun a => win5_2.index t a * main_call0_v5.ty.shape.size a)
    (funext fun a => Nat.zero_mul _) _ (V c main_call0_v5)

/-- The edge-to-face aggregate `tf1` is read whole. -/
theorem block_tf1 (c : Dev nD) (t : Fin cfg5.N) : (iblk5 V c 3 t : Vec F S32x4096 .f32) = V c main_call0_v6 :=
  Memref.read_access_unit_zero (Elt F) main_call0_v6 (off := fun a => win5_3.index t a * main_call0_v6.ty.shape.size a)
    (funext fun a => Nat.zero_mul _) _ (V c main_call0_v6)

/-- The face-to-face aggregate `tf2` is read whole. -/
theorem block_tf2 (c : Dev nD) (t : Fin cfg5.N) : (iblk5 V c 4 t : Vec F S32x4096 .f32) = V c main_call0_v7 :=
  Memref.read_access_unit_zero (Elt F) main_call0_v7 (off := fun a => win5_4.index t a * main_call0_v7.ty.shape.size a)
    (funext fun a => Nat.zero_mul _) _ (V c main_call0_v7)

/-- The linear map `Wv2v` is read whole. -/
theorem block_Wv2v (c : Dev nD) (t : Fin cfg5.N) : (iblk5 V c 5 t : Vec F S32x32 .f32) = V c main_arg8 :=
  Memref.read_access_unit_zero (Elt F) main_arg8 (off := fun a => win5_5.index t a * main_arg8.ty.shape.size a)
    (funext fun a => Nat.zero_mul _) _ (V c main_arg8)

/-- The linear map `Wve` is read whole. -/
theorem block_Wve (c : Dev nD) (t : Fin cfg5.N) : (iblk5 V c 6 t : Vec F S32x32 .f32) = V c main_arg9 :=
  Memref.read_access_unit_zero (Elt F) main_arg9 (off := fun a => win5_6.index t a * main_arg9.ty.shape.size a)
    (funext fun a => Nat.zero_mul _) _ (V c main_arg9)

/-- The linear map `Wee` is read whole. -/
theorem block_Wee (c : Dev nD) (t : Fin cfg5.N) : (iblk5 V c 7 t : Vec F S32x32 .f32) = V c main_arg10 :=
  Memref.read_access_unit_zero (Elt F) main_arg10 (off := fun a => win5_7.index t a * main_arg10.ty.shape.size a)
    (funext fun a => Nat.zero_mul _) _ (V c main_arg10)

/-- The linear map `Wef` is read whole. -/
theorem block_Wef (c : Dev nD) (t : Fin cfg5.N) : (iblk5 V c 8 t : Vec F S32x32 .f32) = V c main_arg11 :=
  Memref.read_access_unit_zero (Elt F) main_arg11 (off := fun a => win5_8.index t a * main_arg11.ty.shape.size a)
    (funext fun a => Nat.zero_mul _) _ (V c main_arg11)

/-- The linear map `Wff` is read whole. -/
theorem block_Wff (c : Dev nD) (t : Fin cfg5.N) : (iblk5 V c 9 t : Vec F S32x32 .f32) = V c main_arg12 :=
  Memref.read_access_unit_zero (Elt F) main_arg12 (off := fun a => win5_9.index t a * main_arg12.ty.shape.size a)
    (funext fun a => Nat.zero_mul _) _ (V c main_arg12)

/-- The vertex output as a term of the arrays found on entry. -/
def resV (c : Dev nD) : Vec F S32x4096 .f32 := k5_pay2 (V c main_arg8) (V c main_call0_v3)

/-- The edge output as a term of the arrays found on entry. -/
def resE (c : Dev nD) : Vec F S32x8192 .f32 :=
  k5_pay3 (V c main_arg9) (V c main_call0_v4) (V c main_arg10) (V c main_call0_v5)

/-- The face output as a term of the arrays found on entry. -/
def resF (c : Dev nD) : Vec F S32x4096 .f32 :=
  k5_pay1 (k5_pay4 (V c main_arg11) (V c main_call0_v6)) (k5_pay5 (V c main_arg12)) (V c main_call0_v7)

/-! ### The vertices -/

theorem left10 (c : Dev nD) (t : Fin cfg5.N) : ((dat5 V c).after 10 t : Vec F S32x4096 .f32) = resV V c := by
  rw [after5_10]
  refine (stored10_eq _ _ _ _ _ _ _ _ _ _).trans ?_
  exact congrArg₂ k5_pay2 (block_Wv2v V c t) (block_tv V c t)

/-- What the one grid point writes back to the output is that whole array: its block is the array itself, read
    through zero offsets. -/
theorem wrote10 (c : Dev nD) (t : Fin cfg5.N) :
    (dat5 V c).flushed 10 t = ((cfg5.win 10).blk t).view.read (Elt F) (resV V c) := by
  show (cfg5.win 10).cut (grid5.coords t) ((dat5 V c).after 10 t) = _
  refine (congrArg ((cfg5.win 10).cut (grid5.coords t)) (left10 V c t)).trans ?_
  exact (Memref.read_access_unit_zero (Elt F) main_call0_v8_0
    (off := fun a => win5_10.index t a * main_call0_v8_0.ty.shape.size a) (funext fun a => Nat.zero_mul _) _ (resV V c)).symm

/-- The one block covers every index of the output, so the output array ends holding the stored value. -/
theorem final10 (c : Dev nD) : (dat5 V c).arrAt 10 cfg5.N = resV V c :=
  (dat5 V c).arrAt_eq_of_cover 10 (resV V c) (fun t _ => wrote10 V c t) fun i =>
    ⟨t5_0, flush5_10 t5_0, by
      show i ∈ ((View.whole main_call0_v8_0).slice (win5_10.rect t5_0)).set
      rw [View.set_slice_whole, Rect.mem_set_unit]
      intro a
      have h0 : (i 0 : Nat) < 32 := (i 0).isLt
      have h1 : (i 1 : Nat) < 4096 := (i 1).isLt
      match a with
      | ⟨0, _⟩ => show 0 * 32 ≤ (i 0 : Nat) ∧ (i 0 : Nat) < 0 * 32 + 32; omega
      | ⟨1, _⟩ => show 0 * 4096 ≤ (i 1 : Nat) ∧ (i 1 : Nat) < 0 * 4096 + 4096; omega⟩

/-! ### The edges -/

theorem left11 (c : Dev nD) (t : Fin cfg5.N) : ((dat5 V c).after 11 t : Vec F S32x8192 .f32) = resE V c := by
  rw [after5_11]
  refine (stored11_eq _ _ _ _ _ _ _ _ _ _).trans ?_
  exact by rw [block_Wve V c t, block_te1 V c t, block_Wee V c t, block_te2 V c t]; rfl

/-- What the one grid point writes back to the output is that whole array: its block is the array itself, read
    through zero offsets. -/
theorem wrote11 (c : Dev nD) (t : Fin cfg5.N) :
    (dat5 V c).flushed 11 t = ((cfg5.win 11).blk t).view.read (Elt F) (resE V c) := by
  show (cfg5.win 11).cut (grid5.coords t) ((dat5 V c).after 11 t) = _
  refine (congrArg ((cfg5.win 11).cut (grid5.coords t)) (left11 V c t)).trans ?_
  exact (Memref.read_access_unit_zero (Elt F) main_call0_v8_1
    (off := fun a => win5_11.index t a * main_call0_v8_1.ty.shape.size a) (funext fun a => Nat.zero_mul _) _ (resE V c)).symm

/-- The one block covers every index of the output, so the output array ends holding the stored value. -/
theorem final11 (c : Dev nD) : (dat5 V c).arrAt 11 cfg5.N = resE V c :=
  (dat5 V c).arrAt_eq_of_cover 11 (resE V c) (fun t _ => wrote11 V c t) fun i =>
    ⟨t5_0, flush5_11 t5_0, by
      show i ∈ ((View.whole main_call0_v8_1).slice (win5_11.rect t5_0)).set
      rw [View.set_slice_whole, Rect.mem_set_unit]
      intro a
      have h0 : (i 0 : Nat) < 32 := (i 0).isLt
      have h1 : (i 1 : Nat) < 8192 := (i 1).isLt
      match a with
      | ⟨0, _⟩ => show 0 * 32 ≤ (i 0 : Nat) ∧ (i 0 : Nat) < 0 * 32 + 32; omega
      | ⟨1, _⟩ => show 0 * 8192 ≤ (i 1 : Nat) ∧ (i 1 : Nat) < 0 * 8192 + 8192; omega⟩

/-! ### The faces -/

theorem left12 (c : Dev nD) (t : Fin cfg5.N) : ((dat5 V c).after 12 t : Vec F S32x4096 .f32) = resF V c := by
  rw [after5_12]
  refine (stored12_eq _ _ _ _ _ _ _ _ _ _).trans ?_
  exact by rw [block_Wef V c t, block_tf1 V c t, block_Wff V c t, block_tf2 V c t]; rfl

/-- What the one grid point writes back to the output is that whole array: its block is the array itself, read
    through zero offsets. -/
theorem wrote12 (c : Dev nD) (t : Fin cfg5.N) :
    (dat5 V c).flushed 12 t = ((cfg5.win 12).blk t).view.read (Elt F) (resF V c) := by
  show (cfg5.win 12).cut (grid5.coords t) ((dat5 V c).after 12 t) = _
  refine (congrArg ((cfg5.win 12).cut (grid5.coords t)) (left12 V c t)).trans ?_
  exact (Memref.read_access_unit_zero (Elt F) main_call0_v8_2
    (off := fun a => win5_12.index t a * main_call0_v8_2.ty.shape.size a) (funext fun a => Nat.zero_mul _) _ (resF V c)).symm

/-- The one block covers every index of the output, so the output array ends holding the stored value. -/
theorem final12 (c : Dev nD) : (dat5 V c).arrAt 12 cfg5.N = resF V c :=
  (dat5 V c).arrAt_eq_of_cover 12 (resF V c) (fun t _ => wrote12 V c t) fun i =>
    ⟨t5_0, flush5_12 t5_0, by
      show i ∈ ((View.whole main_call0_v8_2).slice (win5_12.rect t5_0)).set
      rw [View.set_slice_whole, Rect.mem_set_unit]
      intro a
      have h0 : (i 0 : Nat) < 32 := (i 0).isLt
      have h1 : (i 1 : Nat) < 4096 := (i 1).isLt
      match a with
      | ⟨0, _⟩ => show 0 * 32 ≤ (i 0 : Nat) ∧ (i 0 : Nat) < 0 * 32 + 32; omega
      | ⟨1, _⟩ => show 0 * 4096 ≤ (i 1 : Nat) ∧ (i 1 : Nat) < 0 * 4096 + 4096; omega⟩

end Arrays

/-! ## The three outputs, entry by entry

Stated for any matrices the arrays found on entry are known to equal: the form to combine with what the earlier steps
left in the aggregates and with the unchanged linear maps. -/

section Outputs

variable (V : (c : Dev nD) → (b : Ref sig .tc) → Buf (Elt Ideal) ((c : Thread nD τ).loc b))

/-- The vertex output: `zvᵀ[o, j] = ∑_c Wv2v[c, o] · tv[c, j]`. -/
theorem final10_apply (c : Dev nD) (W : Mat 32 32) (T : Mat 32 4096)
    (hW : V c main_arg8 = W) (hT : V c main_call0_v3 = T) (o : Fin 32) (j : Fin 4096) :
    (dat5 V c).arrAt 10 cfg5.N (ix2 o j) = ∑ c' : Fin 32, W (ix2 c' o) * T (ix2 c' j) := by
  subst hW hT
  rw [final10]
  exact one_apply _ _ o j

/-- The edge output: `zeᵀ[o, j] = ∑_c Wve[c, o] · te1[c, j] + ∑_c Wee[c, o] · te2[c, j]`. -/
theorem final11_apply (c : Dev nD) (W₁ W₂ : Mat 32 32) (T₁ T₂ : Mat 32 8192)
    (hW₁ : V c main_arg9 = W₁) (hT₁ : V c main_call0_v4 = T₁) (hW₂ : V c main_arg10 = W₂) (hT₂ : V c main_call0_v5 = T₂)
    (o : Fin 32) (j : Fin 8192) :
    (dat5 V c).arrAt 11 cfg5.N (ix2 o j)
      = (∑ c' : Fin 32, W₁ (ix2 c' o) * T₁ (ix2 c' j)) + ∑ c' : Fin 32, W₂ (ix2 c' o) * T₂ (ix2 c' j) := by
  subst hW₁ hT₁ hW₂ hT₂
  rw [final11]
  exact two8192_apply _ _ _ _ o j

/-- The face output: `zfᵀ[o, j] = ∑_c Wef[c, o] · tf1[c, j] + ∑_c Wff[c, o] · tf2[c, j]`. -/
theorem final12_apply (c : Dev nD) (W₁ W₂ : Mat 32 32) (T₁ T₂ : Mat 32 4096)
    (hW₁ : V c main_arg11 = W₁) (hT₁ : V c main_call0_v6 = T₁) (hW₂ : V c main_arg12 = W₂) (hT₂ : V c main_call0_v7 = T₂)
    (o : Fin 32) (j : Fin 4096) :
    (dat5 V c).arrAt 12 cfg5.N (ix2 o j)
      = (∑ c' : Fin 32, W₁ (ix2 c' o) * T₁ (ix2 c' j)) + ∑ c' : Fin 32, W₂ (ix2 c' o) * T₂ (ix2 c' j) := by
  subst hW₁ hT₁ hW₂ hT₂
  rw [final12]
  exact two4096_apply _ _ _ _ o j

end Outputs

end Cert.KernelIdeal.WApply

end
-- ==== Proof.Entry.lean ====
/-
  What each region finds in its windows, and what the program returns, in terms of the launch memory.

  The program is a host stretch (three changes of float format, the identity on extended reals), six regions in a
  row, and a closing host stretch (three transpositions). A buffer's contents at a region's entry are found by walking
  back through the earlier boundaries: a region leaves every buffer that is not one of its window arrays as it found
  it, leaves an input window's array as it found it, and leaves in an output window's array what its grid points
  wrote back; a host stretch changes only the buffers its operations write. So the feature and operator arrays each
  region reads are the arguments as launched, the arrays the last region reads are the five earlier regions' outputs
  and the five weight arguments, and each returned array is the last region's output read at the swapped index.
-/
import proofs.«178574_g19696720019795_cont_8to1_1339_3_alg».proof.Proof.Gen.KernelIdeal.Frame
import proofs.«178574_g19696720019795_cont_8to1_1339_3_alg».proof.Proof.Message
import Idealize.ShloMosaic.Lib.StableHlo.Run
import Idealize.ShloMosaic.Lib.Pipeline.Value

set_option maxRecDepth 16384

noncomputable section

namespace Cert.KernelIdeal.Entry

open Cert.KernelIdeal Cert.KernelIdeal.Gen Idealize.ShloMosaic Idealize.ShloMosaic.TcCoe Idealize.SL.Sem
  Idealize.ShloMosaic.ValueIdx Cert.Message

variable (m : (ℓ : Loc nD τ sig) → Buf (Elt Ideal) ℓ) (ρ : Dev nD → PrngReg)

/-! ## After the opening host stretch: the three converted feature arrays are the arguments, the rest is untouched -/

theorem W1_main_call0_v0 (c : Dev nD) : W1 m ρ c (Proc.devRef .tc main_call0_v0) = m ((c : Thread nD τ).loc main_arg0) := by
  show StableHlo.after hostOps0 (W0 m ρ c) (Proc.devRef .tc main_call0_v0) = _
  after_results
  rfl
theorem W1_main_call0_v1 (c : Dev nD) : W1 m ρ c (Proc.devRef .tc main_call0_v1) = m ((c : Thread nD τ).loc main_arg1) := by
  show StableHlo.after hostOps0 (W0 m ρ c) (Proc.devRef .tc main_call0_v1) = _
  after_results
  rfl
theorem W1_main_call0_v2 (c : Dev nD) : W1 m ρ c (Proc.devRef .tc main_call0_v2) = m ((c : Thread nD τ).loc main_arg2) := by
  show StableHlo.after hostOps0 (W0 m ρ c) (Proc.devRef .tc main_call0_v2) = _
  after_results
  rfl
theorem W1_main_arg3 (c : Dev nD) : W1 m ρ c (Proc.devRef .tc main_arg3) = m ((c : Thread nD τ).loc main_arg3) := by
  show StableHlo.after hostOps0 (W0 m ρ c) (Proc.devRef .tc main_arg3) = _
  after_results
theorem W1_main_arg4 (c : Dev nD) : W1 m ρ c (Proc.devRef .tc main_arg4) = m ((c : Thread nD τ).loc main_arg4) := by
  show StableHlo.after hostOps0 (W0 m ρ c) (Proc.devRef .tc main_arg4) = _
  after_results
theorem W1_main_arg5 (c : Dev nD) : W1 m ρ c (Proc.devRef .tc main_arg5) = m ((c : Thread nD τ).loc main_arg5) := by
  show StableHlo.after hostOps0 (W0 m ρ c) (Proc.devRef .tc main_arg5) = _
  after_results
theorem W1_main_arg6 (c : Dev nD) : W1 m ρ c (Proc.devRef .tc main_arg6) = m ((c : Thread nD τ).loc main_arg6) := by
  show StableHlo.after hostOps0 (W0 m ρ c) (Proc.devRef .tc main_arg6) = _
  after_results
theorem W1_main_arg7 (c : Dev nD) : W1 m ρ c (Proc.devRef .tc main_arg7) = m ((c : Thread nD τ).loc main_arg7) := by
  show StableHlo.after hostOps0 (W0 m ρ c) (Proc.devRef .tc main_arg7) = _
  after_results
theorem W1_main_arg8 (c : Dev nD) : W1 m ρ c (Proc.devRef .tc main_arg8) = m ((c : Thread nD τ).loc main_arg8) := by
  show StableHlo.after hostOps0 (W0 m ρ c) (Proc.devRef .tc main_arg8) = _
  after_results
theorem W1_main_arg9 (c : Dev nD) : W1 m ρ c (Proc.devRef .tc main_arg9) = m ((c : Thread nD τ).loc main_arg9) := by
  show StableHlo.after hostOps0 (W0 m ρ c) (Proc.devRef .tc main_arg9) = _
  after_results
theorem W1_main_arg10 (c : Dev nD) : W1 m ρ c (Proc.devRef .tc main_arg10) = m ((c : Thread nD τ).loc main_arg10) := by
  show StableHlo.after hostOps0 (W0 m ρ c) (Proc.devRef .tc main_arg10) = _
  after_results
theorem W1_main_arg11 (c : Dev nD) : W1 m ρ c (Proc.devRef .tc main_arg11) = m ((c : Thread nD τ).loc main_arg11) := by
  show StableHlo.after hostOps0 (W0 m ρ c) (Proc.devRef .tc main_arg11) = _
  after_results
theorem W1_main_arg12 (c : Dev nD) : W1 m ρ c (Proc.devRef .tc main_arg12) = m ((c : Thread nD τ).loc main_arg12) := by
  show StableHlo.after hostOps0 (W0 m ρ c) (Proc.devRef .tc main_arg12) = _
  after_results

/-! ## The feature and operator arrays each of the first five regions reads -/

theorem in_x0 (c : Dev nD) : V1 m ρ c main_call0_v0 = m ((c : Thread nD τ).loc main_arg0) :=
  W1_main_call0_v0 m ρ c
theorem in_g0 (c : Dev nD) : V1 m ρ c main_arg3 = m ((c : Thread nD τ).loc main_arg3) :=
  W1_main_arg3 m ρ c
theorem in_x1 (c : Dev nD) : V2 m ρ c main_call0_v0 = m ((c : Thread nD τ).loc main_arg0) :=
  (W2_arr m ρ c 0).trans (((dat0 (V1 m ρ) c).arrAt_in 0 rfl _).trans ((A_eq0 (V1 m ρ) c 0).trans (W1_main_call0_v0 m ρ c)))
theorem in_g1 (c : Dev nD) : V2 m ρ c main_arg4 = m ((c : Thread nD τ).loc main_arg4) :=
  (W2_of_ne m ρ c main_arg4 (by decide)).trans (W1_main_arg4 m ρ c)
theorem in_x2 (c : Dev nD) : V3 m ρ c main_call0_v1 = m ((c : Thread nD τ).loc main_arg1) :=
  (W3_of_ne m ρ c main_call0_v1 (by decide)).trans ((W2_of_ne m ρ c main_call0_v1 (by decide)).trans (W1_main_call0_v1 m ρ c))
theorem in_g2 (c : Dev nD) : V3 m ρ c main_arg5 = m ((c : Thread nD τ).loc main_arg5) :=
  (W3_of_ne m ρ c main_arg5 (by decide)).trans ((W2_of_ne m ρ c main_arg5 (by decide)).trans (W1_main_arg5 m ρ c))
theorem in_x3 (c : Dev nD) : V4 m ρ c main_call0_v1 = m ((c : Thread nD τ).loc main_arg1) :=
  (W4_arr m ρ c 0).trans (((dat2 (V3 m ρ) c).arrAt_in 0 rfl _).trans ((A_eq2 (V3 m ρ) c 0).trans ((W3_of_ne m ρ c main_call0_v1 (by decide)).trans ((W2_of_ne m ρ c main_call0_v1 (by decide)).trans (W1_main_call0_v1 m ρ c)))))
theorem in_g3 (c : Dev nD) : V4 m ρ c main_arg6 = m ((c : Thread nD τ).loc main_arg6) :=
  (W4_of_ne m ρ c main_arg6 (by decide)).trans ((W3_of_ne m ρ c main_arg6 (by decide)).trans ((W2_of_ne m ρ c main_arg6 (by decide)).trans (W1_main_arg6 m ρ c)))
theorem in_x4 (c : Dev nD) : V5 m ρ c main_call0_v2 = m ((c : Thread nD τ).loc main_arg2) :=
  (W5_of_ne m ρ c main_call0_v2 (by decide)).trans ((W4_of_ne m ρ c main_call0_v2 (by decide)).trans ((W3_of_ne m ρ c main_call0_v2 (by decide)).trans ((W2_of_ne m ρ c main_call0_v2 (by decide)).trans (W1_main_call0_v2 m ρ c))))
theorem in_g4 (c : Dev nD) : V5 m ρ c main_arg7 = m ((c : Thread nD τ).loc main_arg7) :=
  (W5_of_ne m ρ c main_arg7 (by decide)).trans ((W4_of_ne m ρ c main_arg7 (by decide)).trans ((W3_of_ne m ρ c main_arg7 (by decide)).trans ((W2_of_ne m ρ c main_arg7 (by decide)).trans (W1_main_arg7 m ρ c))))

/-! ## What the last region reads: the five earlier outputs and the five weight arrays -/

theorem in_t0 (c : Dev nD) : V6 m ρ c main_call0_v3 = (dat0 (V1 m ρ) c).arrAt 2 cfg0.N :=
  (W6_of_ne m ρ c main_call0_v3 (by decide)).trans ((W5_of_ne m ρ c main_call0_v3 (by decide)).trans ((W4_of_ne m ρ c main_call0_v3 (by decide)).trans ((W3_of_ne m ρ c main_call0_v3 (by decide)).trans (W2_arr m ρ c 2))))
theorem in_t1 (c : Dev nD) : V6 m ρ c main_call0_v4 = (dat1 (V2 m ρ) c).arrAt 2 cfg1.N :=
  (W6_of_ne m ρ c main_call0_v4 (by decide)).trans ((W5_of_ne m ρ c main_call0_v4 (by decide)).trans ((W4_of_ne m ρ c main_call0_v4 (by decide)).trans (W3_arr m ρ c 2)))
theorem in_t2 (c : Dev nD) : V6 m ρ c main_call0_v5 = (dat2 (V3 m ρ) c).arrAt 2 cfg2.N :=
  (W6_of_ne m ρ c main_call0_v5 (by decide)).trans ((W5_of_ne m ρ c main_call0_v5 (by decide)).trans (W4_arr m ρ c 2))
theorem in_t3 (c : Dev nD) : V6 m ρ c main_call0_v6 = (dat3 (V4 m ρ) c).arrAt 2 cfg3.N :=
  (W6_of_ne m ρ c main_call0_v6 (by decide)).trans (W5_arr m ρ c 2)
theorem in_t4 (c : Dev nD) : V6 m ρ c main_call0_v7 = (dat4 (V5 m ρ) c).arrAt 2 cfg4.N :=
  W6_arr m ρ c 2
theorem in_w8 (c : Dev nD) : V6 m ρ c main_arg8 = m ((c : Thread nD τ).loc main_arg8) :=
  (W6_of_ne m ρ c main_arg8 (by decide)).trans ((W5_of_ne m ρ c main_arg8 (by decide)).trans ((W4_of_ne m ρ c main_arg8 (by decide)).trans ((W3_of_ne m ρ c main_arg8 (by decide)).trans ((W2_of_ne m ρ c main_arg8 (by decide)).trans (W1_main_arg8 m ρ c)))))
theorem in_w9 (c : Dev nD) : V6 m ρ c main_arg9 = m ((c : Thread nD τ).loc main_arg9) :=
  (W6_of_ne m ρ c main_arg9 (by decide)).trans ((W5_of_ne m ρ c main_arg9 (by decide)).trans ((W4_of_ne m ρ c main_arg9 (by decide)).trans ((W3_of_ne m ρ c main_arg9 (by decide)).trans ((W2_of_ne m ρ c main_arg9 (by decide)).trans (W1_main_arg9 m ρ c)))))
theorem in_w10 (c : Dev nD) : V6 m ρ c main_arg10 = m ((c : Thread nD τ).loc main_arg10) :=
  (W6_of_ne m ρ c main_arg10 (by decide)).trans ((W5_of_ne m ρ c main_arg10 (by decide)).trans ((W4_of_ne m ρ c main_arg10 (by decide)).trans ((W3_of_ne m ρ c main_arg10 (by decide)).trans ((W2_of_ne m ρ c main_arg10 (by decide)).trans (W1_main_arg10 m ρ c)))))
theorem in_w11 (c : Dev nD) : V6 m ρ c main_arg11 = m ((c : Thread nD τ).loc main_arg11) :=
  (W6_of_ne m ρ c main_arg11 (by decide)).trans ((W5_of_ne m ρ c main_arg11 (by decide)).trans ((W4_of_ne m ρ c main_arg11 (by decide)).trans ((W3_of_ne m ρ c main_arg11 (by decide)).trans ((W2_of_ne m ρ c main_arg11 (by decide)).trans (W1_main_arg11 m ρ c)))))
theorem in_w12 (c : Dev nD) : V6 m ρ c main_arg12 = m ((c : Thread nD τ).loc main_arg12) :=
  (W6_of_ne m ρ c main_arg12 (by decide)).trans ((W5_of_ne m ρ c main_arg12 (by decide)).trans ((W4_of_ne m ρ c main_arg12 (by decide)).trans ((W3_of_ne m ρ c main_arg12 (by decide)).trans ((W2_of_ne m ρ c main_arg12 (by decide)).trans (W1_main_arg12 m ρ c)))))

/-! ## What the program returns -/

/-- Output 0 after the closing transposition, as a whole array. -/
theorem out_0_whole (c : Dev nD) : W8 m ρ c (Proc.devRef .tc main_v0_0)
    = transpose S4096x32 [1, 0] ((dat5 (V6 m ρ) c).arrAt 10 cfg5.N) transposes_S32x4096_S4096x32_1_0 := by
  show StableHlo.after hostOps6 (W7 m ρ c) (Proc.devRef .tc main_v0_0) = _
  after_results
  exact congrArg (fun x => transpose S4096x32 [1, 0] x transposes_S32x4096_S4096x32_1_0) (W7_arr m ρ c 10)

/-- Output 0 at entry `(i, o)` is the last region's transposed result at `(o, i)`. -/
theorem out_0 (c : Dev nD) (i : Fin 4096) (o : Fin 32) :
    W8 m ρ c (Proc.devRef .tc main_v0_0) (ix2 i o) = (dat5 (V6 m ρ) c).arrAt 10 cfg5.N (ix2 o i) :=
  (congrFun (out_0_whole m ρ c) (ix2 i o)).trans
    (transpose_apply [1, 0] _ _ (ix2 i o) (ix2 o i) (fun b => by match b with | ⟨0, _⟩ => rfl | ⟨1, _⟩ => rfl))

/-- Output 1 after the closing transposition, as a whole array. -/
theorem out_1_whole (c : Dev nD) : W8 m ρ c (Proc.devRef .tc main_v0_1)
    = transpose S8192x32 [1, 0] ((dat5 (V6 m ρ) c).arrAt 11 cfg5.N) transposes_S32x8192_S8192x32_1_0 := by
  show StableHlo.after hostOps6 (W7 m ρ c) (Proc.devRef .tc main_v0_1) = _
  after_results
  exact congrArg (fun x => transpose S8192x32 [1, 0] x transposes_S32x8192_S8192x32_1_0) (W7_arr m ρ c 11)

/-- Output 1 at entry `(i, o)` is the last region's transposed result at `(o, i)`. -/
theorem out_1 (c : Dev nD) (i : Fin 8192) (o : Fin 32) :
    W8 m ρ c (Proc.devRef .tc main_v0_1) (ix2 i o) = (dat5 (V6 m ρ) c).arrAt 11 cfg5.N (ix2 o i) :=
  (congrFun (out_1_whole m ρ c) (ix2 i o)).trans
    (transpose_apply [1, 0] _ _ (ix2 i o) (ix2 o i) (fun b => by match b with | ⟨0, _⟩ => rfl | ⟨1, _⟩ => rfl))

/-- Output 2 after the closing transposition, as a whole array. -/
theorem out_2_whole (c : Dev nD) : W8 m ρ c (Proc.devRef .tc main_v0_2)
    = transpose S4096x32 [1, 0] ((dat5 (V6 m ρ) c).arrAt 12 cfg5.N) transposes_S32x4096_S4096x32_1_0 := by
  show StableHlo.after hostOps6 (W7 m ρ c) (Proc.devRef .tc main_v0_2) = _
  after_results
  exact congrArg (fun x => transpose S4096x32 [1, 0] x transposes_S32x4096_S4096x32_1_0) (W7_arr m ρ c 12)

/-- Output 2 at entry `(i, o)` is the last region's transposed result at `(o, i)`. -/
theorem out_2 (c : Dev nD) (i : Fin 4096) (o : Fin 32) :
    W8 m ρ c (Proc.devRef .tc main_v0_2) (ix2 i o) = (dat5 (V6 m ρ) c).arrAt 12 cfg5.N (ix2 o i) :=
  (congrFun (out_2_whole m ρ c) (ix2 i o)).trans
    (transpose_apply [1, 0] _ _ (ix2 i o) (ix2 o i) (fun b => by match b with | ⟨0, _⟩ => rfl | ⟨1, _⟩ => rfl))

end Cert.KernelIdeal.Entry

end
-- ==== Proof.KernelValue.lean ====
/-
  What the idealized kernel leaves in its three results, entry by entry.

  Each result is the host's transpose of an array the sixth region writes; that region multiplies the transposed
  aggregates by the weights, `zᵀ[o, i] = ∑_c W[c, o] · t[c, i]` (two such terms added for the edge and face outputs);
  and each `t` is what one accumulating region left, `t[c, i] = ∑ₖ x[k, c] · G[i, k]`, of features and operators
  that no earlier step has changed (the features pass through a change of float format, which is the identity on
  the extended reals). Composed: result `[i, o] = ∑_c W[c, o] · ∑ₖ x[k, c] · G[i, k]`, the projection of the
  aggregated features — for the vertex output one message, for the edge and face outputs the sum of two.
-/
import proofs.«178574_g19696720019795_cont_8to1_1339_3_alg».proof.Proof.Results
import proofs.«178574_g19696720019795_cont_8to1_1339_3_alg».proof.Proof.Read0
import proofs.«178574_g19696720019795_cont_8to1_1339_3_alg».proof.Proof.Read1
import proofs.«178574_g19696720019795_cont_8to1_1339_3_alg».proof.Proof.Read2
import proofs.«178574_g19696720019795_cont_8to1_1339_3_alg».proof.Proof.Read3
import proofs.«178574_g19696720019795_cont_8to1_1339_3_alg».proof.Proof.Read4
import proofs.«178574_g19696720019795_cont_8to1_1339_3_alg».proof.Proof.WApply
import proofs.«178574_g19696720019795_cont_8to1_1339_3_alg».proof.Proof.Entry
import proofs.«178574_g19696720019795_cont_8to1_1339_3_alg».proof.Proof.Message

set_option maxRecDepth 16384

noncomputable section

open scoped BigOperators
open Idealize.ShloMosaic Idealize.ShloMosaic.TcCoe Idealize.SL.Sem Idealize.ShloMosaic.ValueIdx

namespace Cert.KernelIdeal.KernelValue

open Cert.KernelIdeal Cert.KernelIdeal.Gen
open Cert.Message (Mat projAgg)

variable (m : (ℓ : Loc nD τ sig) → Buf (Elt Ideal) ℓ) (ρ : Dev nD → PrngReg)

/-- Weights applied to a transposed aggregate: `∑_c W[c, o] · t[c, i]` with `t[c, i] = ∑ₖ x[k, c] · G[i, k]` is the
    projection of the aggregated features. -/
theorem weights_of_aggregate {M K : ℕ} (W : Mat 32 32) (T : Mat 32 M) (x : Mat K 32) (G : Mat M K)
    (hT : ∀ (c' : Fin 32) (i : Fin M), T (ix2 c' i) = ∑ k : Fin K, x (ix2 k c') * G (ix2 i k)) (i : Fin M) (o : Fin 32) :
    ∑ c' : Fin 32, W (ix2 c' o) * T (ix2 c' i) = projAgg G x W i o := by
  unfold projAgg
  exact Finset.sum_congr rfl fun c' _ => by rw [hT]

/-- The vertex output at `(i, o)`: the one message from the vertices. -/
theorem value0 (c : Dev nD) (i : Fin 4096) (o : Fin 32) :
    W8 m ρ c (Proc.devRef .tc main_v0_0) (ix2 i o)
      = projAgg (M := 4096) (K := 4096) (m ((c.tc : Thread nD τ).loc main_arg3)) (m ((c.tc : Thread nD τ).loc main_arg0)) (m ((c.tc : Thread nD τ).loc main_arg8)) i o := by
  show (W8 m ρ c (Proc.devRef .tc main_v0_0) (ix2 i o) : EReal) = _
  rw [Entry.out_0 m ρ c i o,
    WApply.final10_apply (V6 m ρ) c (m ((c.tc : Thread nD τ).loc main_arg8)) ((dat0 (V1 m ρ) c).arrAt 2 cfg0.N)
      (Entry.in_w8 m ρ c) (Entry.in_t0 m ρ c) o i]
  exact weights_of_aggregate _ _ _ _
    (fun c' i => Fold0.final_apply (V1 m ρ) c (m ((c.tc : Thread nD τ).loc main_arg0)) (m ((c.tc : Thread nD τ).loc main_arg3)) (Entry.in_x0 m ρ c) (Entry.in_g0 m ρ c) c' i) i o

/-- The edge output at `(i, o)`: the message from the vertices plus the message from the edges. -/
theorem value1 (c : Dev nD) (i : Fin 8192) (o : Fin 32) :
    W8 m ρ c (Proc.devRef .tc main_v0_1) (ix2 i o)
      = projAgg (M := 8192) (K := 4096) (m ((c.tc : Thread nD τ).loc main_arg4)) (m ((c.tc : Thread nD τ).loc main_arg0)) (m ((c.tc : Thread nD τ).loc main_arg9)) i o
        + projAgg (M := 8192) (K := 8192) (m ((c.tc : Thread nD τ).loc main_arg5)) (m ((c.tc : Thread nD τ).loc main_arg1)) (m ((c.tc : Thread nD τ).loc main_arg10)) i o := by
  show (W8 m ρ c (Proc.devRef .tc main_v0_1) (ix2 i o) : EReal) = _
  rw [Entry.out_1 m ρ c i o,
    WApply.final11_apply (V6 m ρ) c (m ((c.tc : Thread nD τ).loc main_arg9)) (m ((c.tc : Thread nD τ).loc main_arg10))
      ((dat1 (V2 m ρ) c).arrAt 2 cfg1.N) ((dat2 (V3 m ρ) c).arrAt 2 cfg2.N)
      (Entry.in_w9 m ρ c) (Entry.in_t1 m ρ c) (Entry.in_w10 m ρ c) (Entry.in_t2 m ρ c) o i]
  unfold projAgg
  refine congrArg₂ (· + ·) (Finset.sum_congr rfl fun c' _ => ?_) (Finset.sum_congr rfl fun c' _ => ?_)
  · rw [Fold1.final_apply (V2 m ρ) c (m ((c.tc : Thread nD τ).loc main_arg0)) (m ((c.tc : Thread nD τ).loc main_arg4)) (Entry.in_x1 m ρ c) (Entry.in_g1 m ρ c) c' i]
  · rw [Fold2.final_apply (V3 m ρ) c (m ((c.tc : Thread nD τ).loc main_arg1)) (m ((c.tc : Thread nD τ).loc main_arg5)) (Entry.in_x2 m ρ c) (Entry.in_g2 m ρ c) c' i]

/-- The face output at `(i, o)`: the message from the edges plus the message from the faces. -/
theorem value2 (c : Dev nD) (i : Fin 4096) (o : Fin 32) :
    W8 m ρ c (Proc.devRef .tc main_v0_2) (ix2 i o)
      = projAgg (M := 4096) (K := 8192) (m ((c.tc : Thread nD τ).loc main_arg6)) (m ((c.tc : Thread nD τ).loc main_arg1)) (m ((c.tc : Thread nD τ).loc main_arg11)) i o
        + projAgg (M := 4096) (K := 4096) (m ((c.tc : Thread nD τ).loc main_arg7)) (m ((c.tc : Thread nD τ).loc main_arg2)) (m ((c.tc : Thread nD τ).loc main_arg12)) i o := by
  show (W8 m ρ c (Proc.devRef .tc main_v0_2) (ix2 i o) : EReal) = _
  rw [Entry.out_2 m ρ c i o,
    WApply.final12_apply (V6 m ρ) c (m ((c.tc : Thread nD τ).loc main_arg11)) (m ((c.tc : Thread nD τ).loc main_arg12))
      ((dat3 (V4 m ρ) c).arrAt 2 cfg3.N) ((dat4 (V5 m ρ) c).arrAt 2 cfg4.N)
      (Entry.in_w11 m ρ c) (Entry.in_t3 m ρ c) (Entry.in_w12 m ρ c) (Entry.in_t4 m ρ c) o i]
  unfold projAgg
  refine congrArg₂ (· + ·) (Finset.sum_congr rfl fun c' _ => ?_) (Finset.sum_congr rfl fun c' _ => ?_)
  · rw [Fold3.final_apply (V4 m ρ) c (m ((c.tc : Thread nD τ).loc main_arg1)) (m ((c.tc : Thread nD τ).loc main_arg6)) (Entry.in_x3 m ρ c) (Entry.in_g3 m ρ c) c' i]
  · rw [Fold4.final_apply (V5 m ρ) c (m ((c.tc : Thread nD τ).loc main_arg2)) (m ((c.tc : Thread nD τ).loc main_arg7)) (Entry.in_x4 m ρ c) (Entry.in_g4 m ρ c) c' i]

end Cert.KernelIdeal.KernelValue

end
-- ==== Proof.RefValue.lean ====
/-
  What the reference computes, entry by entry.

  The reference forms each message as a product of three matrices, associated to the right: first the features are
  projected, `x · W` (a contraction over the 32 feature channels), then the neighbourhood operator aggregates them,
  `G · (x · W)` (a contraction over the source cells). Read at an entry `(a, o)` that is
  `∑ₖ G[a, k] · ∑_c x[k, c] · W[c, o]` — the specification's `aggProj`. The vertex output is one such message, the edge
  and face outputs are the sum of two (from the cells one dimension below, and from the cells of the same dimension).
  Nothing here needs the entries to be finite: each step only reads a product of matrices at an index.
-/
import proofs.«178574_g19696720019795_cont_8to1_1339_3_alg».proof.Proof.Gen.ReferenceIdeal.Read
import proofs.«178574_g19696720019795_cont_8to1_1339_3_alg».proof.Proof.Message

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.ValueIdx Cert.Message

/-- Two rank-2 indices with the same two coordinates are equal. -/
local macro "idx_eq" : tactic =>
  `(tactic| exact funext fun d => Fin.ext (by match d with | ⟨0, _⟩ => rfl | ⟨1, _⟩ => rfl))

/-! ## One message: `G · (x · W)` at an entry -/

/-- The two-stage product `x3 · (x0 · x8)` of the reference, at entry `(a, o)`: the aggregate over the `4096` source cells
    of the projected features. -/
theorem stage_v1 (x0 : (⟨S4096x32, .f32⟩ : BufTy).Contents (Elt Ideal)) (x3 : (⟨S4096x4096, .f32⟩ : BufTy).Contents (Elt Ideal)) (x8 : (⟨S32x32, .f32⟩ : BufTy).Contents (Elt Ideal)) (a : Fin 4096) (o : Fin 32) :
    Read.val_main_v1 (F := Ideal) x0 x3 x8 (ix2 a o) = aggProj (M := 4096) (K := 4096) x3 x0 x8 a o := by
  rw [Read.val_main_v1_apply]
  unfold aggProj
  refine Finset.sum_congr rfl fun k _ => ?_
  have e1 : Read.lidx_main_v1 (ix2 a o) k = ix2 a k := by idx_eq
  have e2 : Read.ridx_main_v1 (ix2 a o) k = ix2 k o := by idx_eq
  rw [e1, e2, Read.val_main_v0_apply]
  congr 1
  refine Finset.sum_congr rfl fun c _ => ?_
  have e3 : Read.lidx_main_v0 (ix2 k o) c = ix2 k c := by idx_eq
  have e4 : Read.ridx_main_v0 (ix2 k o) c = ix2 c o := by idx_eq
  rw [e3, e4]

/-- The two-stage product `x4 · (x0 · x9)` of the reference, at entry `(a, o)`: the aggregate over the `4096` source cells
    of the projected features. -/
theorem stage_v3 (x0 : (⟨S4096x32, .f32⟩ : BufTy).Contents (Elt Ideal)) (x4 : (⟨S8192x4096, .f32⟩ : BufTy).Contents (Elt Ideal)) (x9 : (⟨S32x32, .f32⟩ : BufTy).Contents (Elt Ideal)) (a : Fin 8192) (o : Fin 32) :
    Read.val_main_v3 (F := Ideal) x0 x4 x9 (ix2 a o) = aggProj (M := 8192) (K := 4096) x4 x0 x9 a o := by
  rw [Read.val_main_v3_apply]
  unfold aggProj
  refine Finset.sum_congr rfl fun k _ => ?_
  have e1 : Read.lidx_main_v3 (ix2 a o) k = ix2 a k := by idx_eq
  have e2 : Read.ridx_main_v3 (ix2 a o) k = ix2 k o := by idx_eq
  rw [e1, e2, Read.val_main_v2_apply]
  congr 1
  refine Finset.sum_congr rfl fun c _ => ?_
  have e3 : Read.lidx_main_v2 (ix2 k o) c = ix2 k c := by idx_eq
  have e4 : Read.ridx_main_v2 (ix2 k o) c = ix2 c o := by idx_eq
  rw [e3, e4]

/-- The two-stage product `x5 · (x1 · x10)` of the reference, at entry `(a, o)`: the aggregate over the `8192` source cells
    of the projected features. -/
theorem stage_v5 (x1 : (⟨S8192x32, .f32⟩ : BufTy).Contents (Elt Ideal)) (x5 : (⟨S8192x8192, .f32⟩ : BufTy).Contents (Elt Ideal)) (x10 : (⟨S32x32, .f32⟩ : BufTy).Contents (Elt Ideal)) (a : Fin 8192) (o : Fin 32) :
    Read.val_main_v5 (F := Ideal) x1 x5 x10 (ix2 a o) = aggProj (M := 8192) (K := 8192) x5 x1 x10 a o := by
  rw [Read.val_main_v5_apply]
  unfold aggProj
  refine Finset.sum_congr rfl fun k _ => ?_
  have e1 : Read.lidx_main_v5 (ix2 a o) k = ix2 a k := by idx_eq
  have e2 : Read.ridx_main_v5 (ix2 a o) k = ix2 k o := by idx_eq
  rw [e1, e2, Read.val_main_v4_apply]
  congr 1
  refine Finset.sum_congr rfl fun c _ => ?_
  have e3 : Read.lidx_main_v4 (ix2 k o) c = ix2 k c := by idx_eq
  have e4 : Read.ridx_main_v4 (ix2 k o) c = ix2 c o := by idx_eq
  rw [e3, e4]

/-- The two-stage product `x6 · (x1 · x11)` of the reference, at entry `(a, o)`: the aggregate over the `8192` source cells
    of the projected features. -/
theorem stage_v8 (x1 : (⟨S8192x32, .f32⟩ : BufTy).Contents (Elt Ideal)) (x6 : (⟨S4096x8192, .f32⟩ : BufTy).Contents (Elt Ideal)) (x11 : (⟨S32x32, .f32⟩ : BufTy).Contents (Elt Ideal)) (a : Fin 4096) (o : Fin 32) :
    Read.val_main_v8 (F := Ideal) x1 x6 x11 (ix2 a o) = aggProj (M := 4096) (K := 8192) x6 x1 x11 a o := by
  rw [Read.val_main_v8_apply]
  unfold aggProj
  refine Finset.sum_congr rfl fun k _ => ?_
  have e1 : Read.lidx_main_v8 (ix2 a o) k = ix2 a k := by idx_eq
  have e2 : Read.ridx_main_v8 (ix2 a o) k = ix2 k o := by idx_eq
  rw [e1, e2, Read.val_main_v7_apply]
  congr 1
  refine Finset.sum_congr rfl fun c _ => ?_
  have e3 : Read.lidx_main_v7 (ix2 k o) c = ix2 k c := by idx_eq
  have e4 : Read.ridx_main_v7 (ix2 k o) c = ix2 c o := by idx_eq
  rw [e3, e4]

/-- The two-stage product `x7 · (x2 · x12)` of the reference, at entry `(a, o)`: the aggregate over the `4096` source cells
    of the projected features. -/
theorem stage_v10 (x2 : (⟨S4096x32, .f32⟩ : BufTy).Contents (Elt Ideal)) (x7 : (⟨S4096x4096, .f32⟩ : BufTy).Contents (Elt Ideal)) (x12 : (⟨S32x32, .f32⟩ : BufTy).Contents (Elt Ideal)) (a : Fin 4096) (o : Fin 32) :
    Read.val_main_v10 (F := Ideal) x2 x7 x12 (ix2 a o) = aggProj (M := 4096) (K := 4096) x7 x2 x12 a o := by
  rw [Read.val_main_v10_apply]
  unfold aggProj
  refine Finset.sum_congr rfl fun k _ => ?_
  have e1 : Read.lidx_main_v10 (ix2 a o) k = ix2 a k := by idx_eq
  have e2 : Read.ridx_main_v10 (ix2 a o) k = ix2 k o := by idx_eq
  rw [e1, e2, Read.val_main_v9_apply]
  congr 1
  refine Finset.sum_congr rfl fun c _ => ?_
  have e3 : Read.lidx_main_v9 (ix2 k o) c = ix2 k c := by idx_eq
  have e4 : Read.ridx_main_v9 (ix2 k o) c = ix2 c o := by idx_eq
  rw [e3, e4]

/-! ## The three results as functions of the argument arrays -/

/-- The vertex output: the message from the vertices, `G · (x · W)`. -/
def R1 (G : (⟨S4096x4096, .f32⟩ : BufTy).Contents (Elt Ideal)) (x : (⟨S4096x32, .f32⟩ : BufTy).Contents (Elt Ideal)) (W : (⟨S32x32, .f32⟩ : BufTy).Contents (Elt Ideal)) : (⟨S4096x32, .f32⟩ : BufTy).Contents (Elt Ideal) :=
  Read.val_main_v1 (F := Ideal) x G W

/-- The edge output: the message from the vertices plus the message from the edges. -/
def R6 (G₁ : (⟨S8192x4096, .f32⟩ : BufTy).Contents (Elt Ideal)) (x₁ : (⟨S4096x32, .f32⟩ : BufTy).Contents (Elt Ideal)) (W₁ : (⟨S32x32, .f32⟩ : BufTy).Contents (Elt Ideal))
    (G₂ : (⟨S8192x8192, .f32⟩ : BufTy).Contents (Elt Ideal)) (x₂ : (⟨S8192x32, .f32⟩ : BufTy).Contents (Elt Ideal)) (W₂ : (⟨S32x32, .f32⟩ : BufTy).Contents (Elt Ideal)) : (⟨S8192x32, .f32⟩ : BufTy).Contents (Elt Ideal) :=
  Read.val_main_v6 (F := Ideal) x₁ x₂ G₁ G₂ W₁ W₂

/-- The face output: the message from the edges plus the message from the faces. -/
def R11 (G₁ : (⟨S4096x8192, .f32⟩ : BufTy).Contents (Elt Ideal)) (x₁ : (⟨S8192x32, .f32⟩ : BufTy).Contents (Elt Ideal)) (W₁ : (⟨S32x32, .f32⟩ : BufTy).Contents (Elt Ideal))
    (G₂ : (⟨S4096x4096, .f32⟩ : BufTy).Contents (Elt Ideal)) (x₂ : (⟨S4096x32, .f32⟩ : BufTy).Contents (Elt Ideal)) (W₂ : (⟨S32x32, .f32⟩ : BufTy).Contents (Elt Ideal)) : (⟨S4096x32, .f32⟩ : BufTy).Contents (Elt Ideal) :=
  Read.val_main_v11 (F := Ideal) x₁ x₂ G₁ G₂ W₁ W₂

theorem R1_apply (G : (⟨S4096x4096, .f32⟩ : BufTy).Contents (Elt Ideal)) (x : (⟨S4096x32, .f32⟩ : BufTy).Contents (Elt Ideal)) (W : (⟨S32x32, .f32⟩ : BufTy).Contents (Elt Ideal)) (a : Fin 4096) (o : Fin 32) :
    R1 G x W (ix2 a o) = aggProj (M := 4096) (K := 4096) G x W a o :=
  stage_v1 x G W a o

theorem R6_apply (G₁ : (⟨S8192x4096, .f32⟩ : BufTy).Contents (Elt Ideal)) (x₁ : (⟨S4096x32, .f32⟩ : BufTy).Contents (Elt Ideal)) (W₁ : (⟨S32x32, .f32⟩ : BufTy).Contents (Elt Ideal))
    (G₂ : (⟨S8192x8192, .f32⟩ : BufTy).Contents (Elt Ideal)) (x₂ : (⟨S8192x32, .f32⟩ : BufTy).Contents (Elt Ideal)) (W₂ : (⟨S32x32, .f32⟩ : BufTy).Contents (Elt Ideal)) (a : Fin 8192) (o : Fin 32) :
    R6 G₁ x₁ W₁ G₂ x₂ W₂ (ix2 a o)
      = aggProj (M := 8192) (K := 4096) G₁ x₁ W₁ a o + aggProj (M := 8192) (K := 8192) G₂ x₂ W₂ a o := by
  unfold R6
  rw [Read.val_main_v6_apply, Ideal.addf_def, stage_v3, stage_v5]

theorem R11_apply (G₁ : (⟨S4096x8192, .f32⟩ : BufTy).Contents (Elt Ideal)) (x₁ : (⟨S8192x32, .f32⟩ : BufTy).Contents (Elt Ideal)) (W₁ : (⟨S32x32, .f32⟩ : BufTy).Contents (Elt Ideal))
    (G₂ : (⟨S4096x4096, .f32⟩ : BufTy).Contents (Elt Ideal)) (x₂ : (⟨S4096x32, .f32⟩ : BufTy).Contents (Elt Ideal)) (W₂ : (⟨S32x32, .f32⟩ : BufTy).Contents (Elt Ideal)) (a : Fin 4096) (o : Fin 32) :
    R11 G₁ x₁ W₁ G₂ x₂ W₂ (ix2 a o)
      = aggProj (M := 4096) (K := 8192) G₁ x₁ W₁ a o + aggProj (M := 4096) (K := 4096) G₂ x₂ W₂ a o := by
  unfold R11
  rw [Read.val_main_v11_apply, Ideal.addf_def, stage_v8, stage_v10]

/-! ## The reference's run, with its three results named -/

/-- Every weakly fair execution of the reference terminates with the vertex, edge and face outputs at `R1`, `R6`, `R11`
    of the argument arrays as the run found them, and the thirteen arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v1) = R1 (m' ((c.tc : Thread nD τ).loc main_arg3)) (m' ((c.tc : Thread nD τ).loc main_arg0)) (m' ((c.tc : Thread nD τ).loc main_arg8))
      ∧ r.2.mem ((c.tc : Thread nD τ).loc main_v6) = R6 (m' ((c.tc : Thread nD τ).loc main_arg4)) (m' ((c.tc : Thread nD τ).loc main_arg0)) (m' ((c.tc : Thread nD τ).loc main_arg9)) (m' ((c.tc : Thread nD τ).loc main_arg5)) (m' ((c.tc : Thread nD τ).loc main_arg1)) (m' ((c.tc : Thread nD τ).loc main_arg10))
      ∧ r.2.mem ((c.tc : Thread nD τ).loc main_v11) = R11 (m' ((c.tc : Thread nD τ).loc main_arg6)) (m' ((c.tc : Thread nD τ).loc main_arg1)) (m' ((c.tc : Thread nD τ).loc main_arg11)) (m' ((c.tc : Thread nD τ).loc main_arg7)) (m' ((c.tc : Thread nD τ).loc main_arg2)) (m' ((c.tc : Thread nD τ).loc main_arg12))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run defs _ _).mono (fun _ h c => ⟨(h c).1, (h c).2.1, (h c).2.2.1, (h c).2.2.2⟩)
    (Cert.ReferenceIdeal.Value.run (F := Ideal) m' ρ')

end Cert.ReferenceIdeal.RefValue

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.Algebra.lean ====
/-
  The two arrangements of one message agree on real entries.

  With real entries the extended-real products and sums are the coercions of the real ones, so the identity is one of
  real numbers: both sides are the double sum of `G[a, k] · x[k, c] · W[c, o]` over `k` and `c`, reached from either
  arrangement by distributing the outer factor over the inner sum; the two orders of summation are exchanged once.
  On the extended reals themselves distributivity fails at the infinities, hence the three hypotheses.
-/
import proofs.«178574_g19696720019795_cont_8to1_1339_3_alg».proof.Proof.Message
import proofs.«178574_g19696720019795_cont_8to1_1339_3_alg».proof.Proof.LibERealSum

noncomputable section

open scoped BigOperators

namespace Cert.Message

open Idealize.ShloMosaic Idealize.ShloMosaic.ValueIdx

/-- The same identity on arrays of real numbers, read in the extended reals. -/
theorem projAgg_eq_aggProj_coe {M K : ℕ} (g : (⟨2, ![M, K]⟩ : Shape).Idx → ℝ) (y : (⟨2, ![K, 32]⟩ : Shape).Idx → ℝ)
    (w : (⟨2, ![32, 32]⟩ : Shape).Idx → ℝ) (a : Fin M) (o : Fin 32) :
    projAgg (fun i => (g i : EReal)) (fun i => (y i : EReal)) (fun i => (w i : EReal)) a o
      = aggProj (fun i => (g i : EReal)) (fun i => (y i : EReal)) (fun i => (w i : EReal)) a o := by
  unfold projAgg aggProj
  simp only [← EReal.coe_mul, ← Cert.Lib.ERealSum.coe_sum]
  refine congrArg _ ?_
  simp only [Finset.mul_sum]
  rw [Finset.sum_comm]
  exact Finset.sum_congr rfl fun k _ => Finset.sum_congr rfl fun c _ => by ring

/-- Projection of the aggregate = aggregate of the projection, when every entry of the three arrays is real. -/
theorem projAgg_eq_aggProj {M K : ℕ} (G : Mat M K) (x : Mat K 32) (W : Mat 32 32)
    (hG : IsReal G) (hx : IsReal x) (hW : IsReal W) (a : Fin M) (o : Fin 32) :
    projAgg G x W a o = aggProj G x W a o := by
  choose g hg using hG
  choose y hy using hx
  choose w hw using hW
  obtain rfl : G = fun i => (g i : EReal) := funext hg
  obtain rfl : x = fun i => (y i : EReal) := funext hy
  obtain rfl : W = fun i => (w i : EReal) := funext hw
  exact projAgg_eq_aggProj_coe g y w a o

end Cert.Message

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  Under the precondition every entry of every argument array is a real number.

  The precondition tests each of the thirteen float arguments `x` by `all (|x| < +inf)` and takes the conjunction of the
  thirteen bits. Read backwards: the conjunction is 1, so each bit is 1; a reduction by `and` over all axes that is 1
  had a 1 at every entry; and `|x[i]| < +inf` on the extended reals excludes both infinities, so `x[i]` is real. This
  is what lets the products and sums of the two programs be computed in the real numbers, where distributivity holds.
-/
import proofs.«178574_g19696720019795_cont_8to1_1339_3_alg».proof.Defs
import proofs.«178574_g19696720019795_cont_8to1_1339_3_alg».proof.Proof.Message
import proofs.«178574_g19696720019795_cont_8to1_1339_3_alg».proof.Proof.LibFiniteEntry

noncomputable section

namespace Cert.KernelIdeal.Finite

open Idealize.ShloMosaic Idealize.SL.Sem Cert.Message

/-- The precondition's function, all ones on thirteen arrays: every entry of each is a real number. -/
theorem fn_all_real [Cert.Pre_finite_inputs.Facts] (x0 : FVec Ideal Cert.Pre_finite_inputs.S4096x32 .f32) (x1 : FVec Ideal Cert.Pre_finite_inputs.S8192x32 .f32) (x2 : FVec Ideal Cert.Pre_finite_inputs.S4096x32 .f32) (x3 : FVec Ideal Cert.Pre_finite_inputs.S4096x4096 .f32) (x4 : FVec Ideal Cert.Pre_finite_inputs.S8192x4096 .f32) (x5 : FVec Ideal Cert.Pre_finite_inputs.S8192x8192 .f32) (x6 : FVec Ideal Cert.Pre_finite_inputs.S4096x8192 .f32) (x7 : FVec Ideal Cert.Pre_finite_inputs.S4096x4096 .f32) (x8 : FVec Ideal Cert.Pre_finite_inputs.S32x32 .f32) (x9 : FVec Ideal Cert.Pre_finite_inputs.S32x32 .f32) (x10 : FVec Ideal Cert.Pre_finite_inputs.S32x32 .f32) (x11 : FVec Ideal Cert.Pre_finite_inputs.S32x32 .f32) (x12 : FVec Ideal Cert.Pre_finite_inputs.S32x32 .f32)
    (h : Cert.Pre_finite_inputs.fn (F := Ideal) x0 x1 x2 x3 x4 x5 x6 x7 x8 x9 x10 x11 x12 = fun _ => 1#1) :
    IsReal (a := 4096) (b := 32) x0
    ∧ IsReal (a := 8192) (b := 32) x1
    ∧ IsReal (a := 4096) (b := 32) x2
    ∧ IsReal (a := 4096) (b := 4096) x3
    ∧ IsReal (a := 8192) (b := 4096) x4
    ∧ IsReal (a := 8192) (b := 8192) x5
    ∧ IsReal (a := 4096) (b := 8192) x6
    ∧ IsReal (a := 4096) (b := 4096) x7
    ∧ IsReal (a := 32) (b := 32) x8
    ∧ IsReal (a := 32) (b := 32) x9
    ∧ IsReal (a := 32) (b := 32) x10
    ∧ IsReal (a := 32) (b := 32) x11
    ∧ IsReal (a := 32) (b := 32) x12 := by
  have h' := congrFun h ValueIdx.ix0
  dsimp only [Cert.Pre_finite_inputs.fn, Cert.Pre_finite_inputs.fn_part1, Cert.Pre_finite_inputs.fn_part2, Cert.Pre_finite_inputs.fn_part3] at h'
  dsimp only [andi] at h'
  simp only [IntOp.andi_eq_one] at h'
  obtain ⟨⟨⟨⟨⟨⟨⟨⟨⟨⟨⟨⟨h0, h1⟩, h2⟩, h3⟩, h4⟩, h5⟩, h6⟩, h7⟩, h8⟩, h9⟩, h10⟩, h11⟩, h12⟩ := h'
  exact ⟨fun i => Cert.Lib.FiniteEntry.entry_real _ x0 i (Host.reduce_andi_all _ _ _ _ _ h0 i),
    fun i => Cert.Lib.FiniteEntry.entry_real _ x1 i (Host.reduce_andi_all _ _ _ _ _ h1 i),
    fun i => Cert.Lib.FiniteEntry.entry_real _ x2 i (Host.reduce_andi_all _ _ _ _ _ h2 i),
    fun i => Cert.Lib.FiniteEntry.entry_real _ x3 i (Host.reduce_andi_all _ _ _ _ _ h3 i),
    fun i => Cert.Lib.FiniteEntry.entry_real _ x4 i (Host.reduce_andi_all _ _ _ _ _ h4 i),
    fun i => Cert.Lib.FiniteEntry.entry_real _ x5 i (Host.reduce_andi_all _ _ _ _ _ h5 i),
    fun i => Cert.Lib.FiniteEntry.entry_real _ x6 i (Host.reduce_andi_all _ _ _ _ _ h6 i),
    fun i => Cert.Lib.FiniteEntry.entry_real _ x7 i (Host.reduce_andi_all _ _ _ _ _ h7 i),
    fun i => Cert.Lib.FiniteEntry.entry_real _ x8 i (Host.reduce_andi_all _ _ _ _ _ h8 i),
    fun i => Cert.Lib.FiniteEntry.entry_real _ x9 i (Host.reduce_andi_all _ _ _ _ _ h9 i),
    fun i => Cert.Lib.FiniteEntry.entry_real _ x10 i (Host.reduce_andi_all _ _ _ _ _ h10 i),
    fun i => Cert.Lib.FiniteEntry.entry_real _ x11 i (Host.reduce_andi_all _ _ _ _ _ h11 i),
    fun i => Cert.Lib.FiniteEntry.entry_real _ x12 i (Host.reduce_andi_all _ _ _ _ _ h12 i)⟩

/-- Under the idealized kernel's precondition, on every device, each of the thirteen argument arrays in the launch
    memory has only real entries. -/
theorem args_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (a := 4096) (b := 32) (m ((c.tc : Thread Cert.KernelIdeal.nD Cert.KernelIdeal.τ).loc Cert.KernelIdeal.main_arg0))
    ∧ IsReal (a := 8192) (b := 32) (m ((c.tc : Thread Cert.KernelIdeal.nD Cert.KernelIdeal.τ).loc Cert.KernelIdeal.main_arg1))
    ∧ IsReal (a := 4096) (b := 32) (m ((c.tc : Thread Cert.KernelIdeal.nD Cert.KernelIdeal.τ).loc Cert.KernelIdeal.main_arg2))
    ∧ IsReal (a := 4096) (b := 4096) (m ((c.tc : Thread Cert.KernelIdeal.nD Cert.KernelIdeal.τ).loc Cert.KernelIdeal.main_arg3))
    ∧ IsReal (a := 8192) (b := 4096) (m ((c.tc : Thread Cert.KernelIdeal.nD Cert.KernelIdeal.τ).loc Cert.KernelIdeal.main_arg4))
    ∧ IsReal (a := 8192) (b := 8192) (m ((c.tc : Thread Cert.KernelIdeal.nD Cert.KernelIdeal.τ).loc Cert.KernelIdeal.main_arg5))
    ∧ IsReal (a := 4096) (b := 8192) (m ((c.tc : Thread Cert.KernelIdeal.nD Cert.KernelIdeal.τ).loc Cert.KernelIdeal.main_arg6))
    ∧ IsReal (a := 4096) (b := 4096) (m ((c.tc : Thread Cert.KernelIdeal.nD Cert.KernelIdeal.τ).loc Cert.KernelIdeal.main_arg7))
    ∧ IsReal (a := 32) (b := 32) (m ((c.tc : Thread Cert.KernelIdeal.nD Cert.KernelIdeal.τ).loc Cert.KernelIdeal.main_arg8))
    ∧ IsReal (a := 32) (b := 32) (m ((c.tc : Thread Cert.KernelIdeal.nD Cert.KernelIdeal.τ).loc Cert.KernelIdeal.main_arg9))
    ∧ IsReal (a := 32) (b := 32) (m ((c.tc : Thread Cert.KernelIdeal.nD Cert.KernelIdeal.τ).loc Cert.KernelIdeal.main_arg10))
    ∧ IsReal (a := 32) (b := 32) (m ((c.tc : Thread Cert.KernelIdeal.nD Cert.KernelIdeal.τ).loc Cert.KernelIdeal.main_arg11))
    ∧ IsReal (a := 32) (b := 32) (m ((c.tc : Thread Cert.KernelIdeal.nD Cert.KernelIdeal.τ).loc Cert.KernelIdeal.main_arg12)) :=
  fn_all_real _ _ _ _ _ _ _ _ _ _ _ _ _ (hpre c)

end Cert.KernelIdeal.Finite

end
-- ==== Proof.lean ====
/-
  Three cochain messages, reassociated: `G · (x · W) = (W ᵀ · (xᵀ · Gᵀ))ᵀ`.

  The reference computes each message as the operator `G` applied to the projected features `x · W`. The kernel
  computes the aggregate first, transposed, `t = xᵀ · Gᵀ` — one pass per operator, the contracted axis cut into
  blocks of 1024 whose products are accumulated in place —, then applies the transposed weights, `zᵀ = Wᵀ · t`,
  adds the two messages of the edge and of the face output, and transposes back. On the extended reals, where a
  change of float format is the identity and every product is the plain sum, the kernel's entry is
  `∑_c W[c, o] · ∑ₖ x[k, c] · G[i, k]` and the reference's is `∑ₖ G[i, k] · ∑_c x[k, c] · W[c, o]`. They agree
  when the entries are real numbers — distributivity and the exchange of the two finite sums — and that is what
  the precondition gives: every input is finite. The frames are the generated ones; the ideal pass rewrote nothing.
-/
import proofs.«178574_g19696720019795_cont_8to1_1339_3_alg».proof.Defs
import proofs.«178574_g19696720019795_cont_8to1_1339_3_alg».proof.Proof.Gen.Kernel
import proofs.«178574_g19696720019795_cont_8to1_1339_3_alg».proof.Proof.Gen.Kernel.Frame
import proofs.«178574_g19696720019795_cont_8to1_1339_3_alg».proof.Proof.Gen.KernelIdeal
import proofs.«178574_g19696720019795_cont_8to1_1339_3_alg».proof.Proof.Gen.KernelIdeal.Frame
import proofs.«178574_g19696720019795_cont_8to1_1339_3_alg».proof.Proof.Gen.ReferenceIdeal
import proofs.«178574_g19696720019795_cont_8to1_1339_3_alg».proof.Proof.Gen.Pre_finite_inputs
import proofs.«178574_g19696720019795_cont_8to1_1339_3_alg».proof.Proof.KernelValue
import proofs.«178574_g19696720019795_cont_8to1_1339_3_alg».proof.Proof.RefValue
import proofs.«178574_g19696720019795_cont_8to1_1339_3_alg».proof.Proof.Algebra
import proofs.«178574_g19696720019795_cont_8to1_1339_3_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx
open Cert.Message (Mat IsReal aggProj projAgg projAgg_eq_aggProj)
open Cert.ReferenceIdeal.RefValue (R1 R6 R11 R1_apply R6_apply R11_apply)
open Cert.KernelIdeal.Gen (W8)

/-! ## One function on both sides -/

section Bridge

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The vertex output: the reference's aggregate of projected features is the kernel's projection of aggregated
    features, on real entries. -/
theorem vertex_eq (G : Mat 4096 4096) (x : Mat 4096 32) (W : Mat 32 32)
    (eG : G = m ((c.tc : Thread Cert.KernelIdeal.nD Cert.KernelIdeal.τ).loc Cert.KernelIdeal.main_arg3)) (ex : x = m ((c.tc : Thread Cert.KernelIdeal.nD Cert.KernelIdeal.τ).loc Cert.KernelIdeal.main_arg0)) (eW : W = m ((c.tc : Thread Cert.KernelIdeal.nD Cert.KernelIdeal.τ).loc Cert.KernelIdeal.main_arg8))
    (hG : IsReal G) (hx : IsReal x) (hW : IsReal W) :
    R1 G x W = W8 m ρ c (Proc.devRef .tc Cert.KernelIdeal.main_v0_0) := by
  funext idx
  obtain ⟨i, o, rfl⟩ : ∃ (i : Fin 4096) (o : Fin 32), idx = ix2 i o := ⟨idx 0, idx 1, eq_ix2 idx⟩
  rw [R1_apply, Cert.KernelIdeal.KernelValue.value0, ← eG, ← ex, ← eW, projAgg_eq_aggProj G x W hG hx hW]

/-- The edge output: two messages, each re-associated. -/
theorem edge_eq (G₁ : Mat 8192 4096) (x₁ : Mat 4096 32) (W₁ : Mat 32 32) (G₂ : Mat 8192 8192) (x₂ : Mat 8192 32) (W₂ : Mat 32 32)
    (eG₁ : G₁ = m ((c.tc : Thread Cert.KernelIdeal.nD Cert.KernelIdeal.τ).loc Cert.KernelIdeal.main_arg4)) (ex₁ : x₁ = m ((c.tc : Thread Cert.KernelIdeal.nD Cert.KernelIdeal.τ).loc Cert.KernelIdeal.main_arg0)) (eW₁ : W₁ = m ((c.tc : Thread Cert.KernelIdeal.nD Cert.KernelIdeal.τ).loc Cert.KernelIdeal.main_arg9))
    (eG₂ : G₂ = m ((c.tc : Thread Cert.KernelIdeal.nD Cert.KernelIdeal.τ).loc Cert.KernelIdeal.main_arg5)) (ex₂ : x₂ = m ((c.tc : Thread Cert.KernelIdeal.nD Cert.KernelIdeal.τ).loc Cert.KernelIdeal.main_arg1)) (eW₂ : W₂ = m ((c.tc : Thread Cert.KernelIdeal.nD Cert.KernelIdeal.τ).loc Cert.KernelIdeal.main_arg10))
    (hG₁ : IsReal G₁) (hx₁ : IsReal x₁) (hW₁ : IsReal W₁) (hG₂ : IsReal G₂) (hx₂ : IsReal x₂) (hW₂ : IsReal W₂) :
    R6 G₁ x₁ W₁ G₂ x₂ W₂ = W8 m ρ c (Proc.devRef .tc Cert.KernelIdeal.main_v0_1) := by
  funext idx
  obtain ⟨i, o, rfl⟩ : ∃ (i : Fin 8192) (o : Fin 32), idx = ix2 i o := ⟨idx 0, idx 1, eq_ix2 idx⟩
  rw [R6_apply, Cert.KernelIdeal.KernelValue.value1, ← eG₁, ← ex₁, ← eW₁, ← eG₂, ← ex₂, ← eW₂,
    projAgg_eq_aggProj G₁ x₁ W₁ hG₁ hx₁ hW₁, projAgg_eq_aggProj G₂ x₂ W₂ hG₂ hx₂ hW₂]

/-- The face output: two messages, each re-associated. -/
theorem face_eq (G₁ : Mat 4096 8192) (x₁ : Mat 8192 32) (W₁ : Mat 32 32) (G₂ : Mat 4096 4096) (x₂ : Mat 4096 32) (W₂ : Mat 32 32)
    (eG₁ : G₁ = m ((c.tc : Thread Cert.KernelIdeal.nD Cert.KernelIdeal.τ).loc Cert.KernelIdeal.main_arg6)) (ex₁ : x₁ = m ((c.tc : Thread Cert.KernelIdeal.nD Cert.KernelIdeal.τ).loc Cert.KernelIdeal.main_arg1)) (eW₁ : W₁ = m ((c.tc : Thread Cert.KernelIdeal.nD Cert.KernelIdeal.τ).loc Cert.KernelIdeal.main_arg11))
    (eG₂ : G₂ = m ((c.tc : Thread Cert.KernelIdeal.nD Cert.KernelIdeal.τ).loc Cert.KernelIdeal.main_arg7)) (ex₂ : x₂ = m ((c.tc : Thread Cert.KernelIdeal.nD Cert.KernelIdeal.τ).loc Cert.KernelIdeal.main_arg2)) (eW₂ : W₂ = m ((c.tc : Thread Cert.KernelIdeal.nD Cert.KernelIdeal.τ).loc Cert.KernelIdeal.main_arg12))
    (hG₁ : IsReal G₁) (hx₁ : IsReal x₁) (hW₁ : IsReal W₁) (hG₂ : IsReal G₂) (hx₂ : IsReal x₂) (hW₂ : IsReal W₂) :
    R11 G₁ x₁ W₁ G₂ x₂ W₂ = W8 m ρ c (Proc.devRef .tc Cert.KernelIdeal.main_v0_2) := by
  funext idx
  obtain ⟨i, o, rfl⟩ : ∃ (i : Fin 4096) (o : Fin 32), idx = ix2 i o := ⟨idx 0, idx 1, eq_ix2 idx⟩
  rw [R11_apply, Cert.KernelIdeal.KernelValue.value2, ← eG₁, ← ex₁, ← eW₁, ← eG₂, ← ex₂, ← eW₂,
    projAgg_eq_aggProj G₁ x₁ W₁ hG₁ hx₁ hW₁, projAgg_eq_aggProj G₂ x₂ W₂ hG₂ hx₂ hW₂]

end Bridge

/-! ## The claims -/

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => (h c).2.2.2) (Cert.ReferenceIdeal.RefValue.run m ρ)

/-- The ideal pass rewrote no operation. -/
theorem preserves : Cert.preserves_Kernel_KernelIdeal := trivial

/-- Both programs end, with equal results: the kernel's three arrays are the reference's, entry by entry, because
    every argument entry is real. -/
theorem algebraic : Cert.algebraic_KernelIdeal_ReferenceIdeal := by
  intro m ρ m' ρ' hpre hagree
  refine ⟨fun c => W8 m ρ c (Proc.devRef .tc Cert.KernelIdeal.main_v0_0),
    fun c => W8 m ρ c (Proc.devRef .tc Cert.KernelIdeal.main_v0_1),
    fun c => W8 m ρ c (Proc.devRef .tc Cert.KernelIdeal.main_v0_2),
    Cert.KernelIdeal.Results.run (F := Ideal) m ρ, ?_⟩
  refine (θ_run Cert.ReferenceIdeal.defs _ _).mono (fun r h c => ?_) (Cert.ReferenceIdeal.RefValue.run m' ρ')
  obtain ⟨h1, h6, h11, hargs⟩ := h c
  obtain ⟨a0, a1, a2, a3, a4, a5, a6, a7, a8, a9, a10, a11, a12⟩ := hagree c
  obtain ⟨r0, r1, r2, r3, r4, r5, r6, r7, r8, r9, r10, r11, r12⟩ := Cert.KernelIdeal.Finite.args_real m hpre c
  refine ⟨h1.trans ?_, h6.trans ?_, h11.trans ?_, hargs⟩
  · exact vertex_eq m ρ c _ _ _ a3 a0 a8 (a3 ▸ r3) (a0 ▸ r0) (a8 ▸ r8)
  · exact edge_eq m ρ c _ _ _ _ _ _ a4 a0 a9 a5 a1 a10 (a4 ▸ r4) (a0 ▸ r0) (a9 ▸ r9) (a5 ▸ r5) (a1 ▸ r1) (a10 ▸ r10)
  · exact face_eq m ρ c _ _ _ _ _ _ a6 a1 a11 a7 a2 a12 (a6 ▸ r6) (a1 ▸ r1) (a11 ▸ r11) (a7 ▸ r7) (a2 ▸ r2) (a12 ▸ r12)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
